-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v802) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S4096x28 : Shape := ⟨2, ![4096, 28]⟩
abbrev S4096x8 : Shape := ⟨2, ![4096, 8]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S4096x28 : S_.BroadcastsInDim S4096x28 (![] : Fin 0 → Fin S4096x28.rank)
  reducesTo_S4096x28_S_d0_1 : S4096x28.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn {F : FTy → Type} [FloatOps F] (main_arg0 : FVec F S4096x8x1024 .f32) (main_arg1 : FVec F S4096x28 .f32) (main_arg2 : FVec F S4096x8 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S4096x28 .f32 := Host.absf main_arg1
  let main_cst_0 : FVec F S_ .f32 := constant S_ .f32 0x7F800000#32
  let main_v5 : FVec F S4096x28 .f32 := broadcastInDim S4096x28 ![] bcast_S_S4096x28 main_cst_0
  let main_v6 : IVec S4096x28 1 := cmpf .olt main_v4 main_v5
  let main_c_1 : IVec S_ 1 := constantI S_ 1 1#1
  let main_v7 : IVec S_ 1 := (fun x v => Host.reduce IntOp.andi x v reducesTo_S4096x28_S_d0_1 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  main_v13
-- ==== Kernel.lean ====
abbrev S4096x8x1024 : Shape := ⟨3, ![4096, 8, 1024]⟩
abbrev S4096x28 : Shape := ⟨2, ![4096, 28]⟩
abbrev S4096x8 : Shape := ⟨2, ![4096, 8]⟩
abbrev S128x8x1024 : Shape := ⟨3, ![128, 8, 1024]⟩
abbrev S128x28 : Shape := ⟨2, ![128, 28]⟩
abbrev S128x8 : Shape := ⟨2, ![128, 8]⟩
abbrev S8x8 : Shape := ⟨2, ![8, 8]⟩
abbrev S1x8 : Shape := ⟨2, ![1, 8]⟩
abbrev S8 : Shape := ⟨1, ![8]⟩
abbrev S128x1 : Shape := ⟨2, ![128, 1]⟩
abbrev S128x1x1024 : Shape := ⟨3, ![128, 1, 1024]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8x1024, .f32⟩
  | .hbm, ⟨1, _⟩ => ⟨S4096x28, .f32⟩
  | .hbm, ⟨2, _⟩ => ⟨S4096x8, .f32⟩
  | .hbm, ⟨3, _⟩ => ⟨S4096x8x1024, .f32⟩
  | .local _ .vmem, ⟨0, _⟩ => ⟨S128x8x1024, .f32⟩
  | .local _ .vmem, ⟨1, _⟩ => ⟨S128x8x1024, .f32⟩
  | .local _ .vmem, ⟨2, _⟩ => ⟨S128x28, .f32⟩
  | .local _ .vmem, ⟨3, _⟩ => ⟨S128x28, .f32⟩
  | .local _ .vmem, ⟨4, _⟩ => ⟨S128x8, .f32⟩
  | .local _ .vmem, ⟨5, _⟩ => ⟨S128x8, .f32⟩
  | .local _ .vmem, ⟨6, _⟩ => ⟨S128x8x1024, .f32⟩
  | .local _ .vmem, ⟨7, _⟩ => ⟨S128x8x1024, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x8x1024_S128x8x1024_0_0_0 : ∀ a, (![0, 0, 0] : Fin 3 → Nat) a + S128x8x1024.size a ≤ S128x8x1024.size a
  h_S128x8x1024 : 0 < S128x8x1024.numel
  inb_S128x28_S128x28_0_0 : ∀ a, (![0, 0] : Fin 2 → Nat) a + S128x28.size a ≤ S128x28.size a
  h_S128x28 : 0 < S128x28.numel
  inb_S128x8_S128x8_0_0 : ∀ a, (![0, 0] : Fin 2 → Nat) a + S128x8.size a ≤ S128x8.size a
  h_S128x8 : 0 < S128x8.numel
  iota_S8x8_d0_w32 : S8x8.Iotas .tc 32 [0]
  iota_S8x8_d1_w32 : S8x8.Iotas .tc 32 [1]
  natLt_1_32 : 1 < 32
  slices_S8x8_o0_0_S1x8 : S8x8.Slices ![0, 0] S1x8
  shapeCasts_S1x8_S8 : S1x8.ShapeCasts S8
  shapeCasts_S8_S1x8 : S8.ShapeCasts S1x8
  broadcasts_S1x8_S128x8 : S1x8.Broadcasts S128x8
  slices_S8x8_o1_0_S1x8 : S8x8.Slices ![1, 0] S1x8
  slices_S8x8_o2_0_S1x8 : S8x8.Slices ![2, 0] S1x8
  slices_S8x8_o3_0_S1x8 : S8x8.Slices ![3, 0] S1x8
  slices_S8x8_o4_0_S1x8 : S8x8.Slices ![4, 0] S1x8
  slices_S8x8_o5_0_S1x8 : S8x8.Slices ![5, 0] S1x8
  slices_S8x8_o6_0_S1x8 : S8x8.Slices ![6, 0] S1x8
  slices_S8x8_o7_0_S1x8 : S8x8.Slices ![7, 0] S1x8
  slices_S128x28_o0_0_S128x1 : S128x28.Slices ![0, 0] S128x1
  broadcasts_S128x1_S128x8 : S128x1.Broadcasts S128x8
  slices_S128x28_o0_1_S128x1 : S128x28.Slices ![0, 1] S128x1
  slices_S128x28_o0_2_S128x1 : S128x28.Slices ![0, 2] S128x1
  slices_S128x28_o0_3_S128x1 : S128x28.Slices ![0, 3] S128x1
  slices_S128x28_o0_4_S128x1 : S128x28.Slices ![0, 4] S128x1
  slices_S128x28_o0_5_S128x1 : S128x28.Slices ![0, 5] S128x1
  slices_S128x28_o0_6_S128x1 : S128x28.Slices ![0, 6] S128x1
  slices_S128x28_o0_7_S128x1 : S128x28.Slices ![0, 7] S128x1
  slices_S128x28_o0_8_S128x1 : S128x28.Slices ![0, 8] S128x1
  slices_S128x28_o0_9_S128x1 : S128x28.Slices ![0, 9] S128x1
  slices_S128x28_o0_10_S128x1 : S128x28.Slices ![0, 10] S128x1
  slices_S128x28_o0_11_S128x1 : S128x28.Slices ![0, 11] S128x1
  slices_S128x28_o0_12_S128x1 : S128x28.Slices ![0, 12] S128x1
  slices_S128x28_o0_13_S128x1 : S128x28.Slices ![0, 13] S128x1
  slices_S128x28_o0_14_S128x1 : S128x28.Slices ![0, 14] S128x1
  slices_S128x28_o0_15_S128x1 : S128x28.Slices ![0, 15] S128x1
  slices_S128x28_o0_16_S128x1 : S128x28.Slices ![0, 16] S128x1
  slices_S128x28_o0_17_S128x1 : S128x28.Slices ![0, 17] S128x1
  slices_S128x28_o0_18_S128x1 : S128x28.Slices ![0, 18] S128x1
  slices_S128x28_o0_19_S128x1 : S128x28.Slices ![0, 19] S128x1
  slices_S128x28_o0_20_S128x1 : S128x28.Slices ![0, 20] S128x1
  slices_S128x28_o0_21_S128x1 : S128x28.Slices ![0, 21] S128x1
  slices_S128x28_o0_22_S128x1 : S128x28.Slices ![0, 22] S128x1
  slices_S128x28_o0_23_S128x1 : S128x28.Slices ![0, 23] S128x1
  slices_S128x28_o0_24_S128x1 : S128x28.Slices ![0, 24] S128x1
  slices_S128x28_o0_25_S128x1 : S128x28.Slices ![0, 25] S128x1
  slices_S128x28_o0_26_S128x1 : S128x28.Slices ![0, 26] S128x1
  slices_S128x28_o0_27_S128x1 : S128x28.Slices ![0, 27] S128x1
  slices_S128x8_o0_0_S128x1 : S128x8.Slices ![0, 0] S128x1
  slices_S128x8_o0_1_S128x1 : S128x8.Slices ![0, 1] S128x1
  slices_S128x8_o0_2_S128x1 : S128x8.Slices ![0, 2] S128x1
  slices_S128x8_o0_3_S128x1 : S128x8.Slices ![0, 3] S128x1
  slices_S128x8_o0_4_S128x1 : S128x8.Slices ![0, 4] S128x1
  slices_S128x8_o0_5_S128x1 : S128x8.Slices ![0, 5] S128x1
  slices_S128x8_o0_6_S128x1 : S128x8.Slices ![0, 6] S128x1
  slices_S128x8_o0_7_S128x1 : S128x8.Slices ![0, 7] S128x1
  slices_S128x8x1024_o0_0_0_S128x1x1024 : S128x8x1024.Slices ![0, 0, 0] S128x1x1024
  shapeCasts_S128x1x1024_S128x1024 : S128x1x1024.ShapeCasts S128x1024
  broadcasts_S128x1_S128x1024 : S128x1.Broadcasts S128x1024
  slices_S128x8x1024_o0_1_0_S128x1x1024 : S128x8x1024.Slices ![0, 1, 0] S128x1x1024
  slices_S128x8x1024_o0_2_0_S128x1x1024 : S128x8x1024.Slices ![0, 2, 0] S128x1x1024
  slices_S128x8x1024_o0_3_0_S128x1x1024 : S128x8x1024.Slices ![0, 3, 0] S128x1x1024
  slices_S128x8x1024_o0_4_0_S128x1x1024 : S128x8x1024.Slices ![0, 4, 0] S128x1x1024
  slices_S128x8x1024_o0_5_0_S128x1x1024 : S128x8x1024.Slices ![0, 5, 0] S128x1x1024
  slices_S128x8x1024_o0_6_0_S128x1x1024 : S128x8x1024.Slices ![0, 6, 0] S128x1x1024
  slices_S128x8x1024_o0_7_0_S128x1x1024 : S128x8x1024.Slices ![0, 7, 0] S128x1x1024
  shapeCasts_S128x1024_S128x1x1024 : S128x1024.ShapeCasts S128x1x1024
  concatenates_S128x1x1024_S128x1x1024_S128x1x1024_S128x1x1024_S128x1x1024_S128x1x1024_S128x1x1024_S128x1x1024_S128x8x1024_d1 : Shape.Concatenates [S128x1x1024, S128x1x1024, S128x1x1024, S128x1x1024, S128x1x1024, S128x1x1024, S128x1x1024, S128x1x1024] S128x8x1024 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x1024.size a ≤ S4096x8x1024.size a
  hwx0_0 : ∀ i : grid0.Coords, EltTy.bits .f32 = 32 ∨ (Rect.block (s := S4096x8x1024) S128x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x28.size a ≤ S4096x28.size a
  hwx0_1 : ∀ i : grid0.Coords, EltTy.bits .f32 = 32 ∨ (Rect.block (s := S4096x28) S128x28.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S4096x8.size a
  hwx0_2 : ∀ i : grid0.Coords, EltTy.bits .f32 = 32 ∨ (Rect.block (s := S4096x8) S128x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8x1024.size a ≤ S4096x8x1024.size a
  hwx0_3 : ∀ i : grid0.Coords, EltTy.bits .f32 = 32 ∨ (Rect.block (s := S4096x8x1024) S128x8x1024.size (cc0_transform_3 i) (hinb0_3 i)).WholeWords (EltTy.packing .f32)

variable [Facts₀]

abbrev win0_0 : Pipeline.Window sig grid0 :=
  Pipeline.Window.ofSpec (Memref.whole main_arg0) S128x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x28.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S4096x28 : Shape := ⟨2, ![4096, 28]⟩
abbrev S4096x8 : Shape := ⟨2, ![4096, 8]⟩
abbrev S8x8 : Shape := ⟨2, ![8, 8]⟩
abbrev S_ : Shape := ⟨0, ![]⟩
abbrev S4096x1 : Shape := ⟨2, ![4096, 1]⟩
abbrev S4096 : Shape := ⟨1, ![4096]⟩
abbrev S1x8 : Shape := ⟨2, ![1, 8]⟩
abbrev S8 : Shape := ⟨1, ![8]⟩
abbrev S1 : Shape := ⟨1, ![1]⟩
abbrev S4096x8x8 : Shape := ⟨3, ![4096, 8, 8]⟩
abbrev S4096x1x8 : Shape := ⟨3, ![4096, 1, 8]⟩
abbrev S4096x8x1 : Shape := ⟨3, ![4096, 8, 1]⟩

abbrev nBuf : Space → Nat
  | .hbm => 863
  | .vmem => 0
  | .smem => 0
  | _ => 0

abbrev hbmTy0_0 (i : Nat) : BufTy := match i % 128 with
  | 0 => ⟨S4096x8x1024, .f32⟩
  | 1 => ⟨S4096x28, .f32⟩
  | 2 => ⟨S4096x8, .f32⟩
  | 3 => ⟨S8x8, .i32⟩
  | 4 => ⟨S8x8, .i32⟩
  | 5 => ⟨S_, .i32⟩
  | 6 => ⟨S8x8, .i32⟩
  | 7 => ⟨S8x8, .i32⟩
  | 8 => ⟨S8x8, .i1⟩
  | 9 => ⟨S8x8, .f32⟩
  | 10 => ⟨S4096x1, .f32⟩
  | 11 => ⟨S4096, .f32⟩
  | 12 => ⟨S4096, .f32⟩
  | 13 => ⟨S4096x1, .f32⟩
  | 14 => ⟨S4096, .f32⟩
  | 15 => ⟨S4096, .f32⟩
  | 16 => ⟨S1x8, .f32⟩
  | 17 => ⟨S8, .f32⟩
  | 18 => ⟨S1x8, .f32⟩
  | 19 => ⟨S8, .f32⟩
  | 20 => ⟨S1x8, .f32⟩
  | 21 => ⟨S4096x1, .f32⟩
  | 22 => ⟨S4096x8, .f32⟩
  | 23 => ⟨S4096x8, .f32⟩
  | 24 => ⟨S4096x8, .f32⟩
  | 25 => ⟨S1x8, .f32⟩
  | 26 => ⟨S4096x1, .f32⟩
  | 27 => ⟨S4096x8, .f32⟩
  | 28 => ⟨S4096x8, .f32⟩
  | 29 => ⟨S4096x8, .f32⟩
  | 30 => ⟨S4096x8, .f32⟩
  | 31 => ⟨S_, .i32⟩
  | 32 => ⟨S1, .i32⟩
  | 33 => ⟨S4096x8x8, .f32⟩
  | 34 => ⟨S4096x8x8, .f32⟩
  | 35 => ⟨S1x8, .f32⟩
  | 36 => ⟨S4096x1, .f32⟩
  | 37 => ⟨S4096x8, .f32⟩
  | 38 => ⟨S4096x8, .f32⟩
  | 39 => ⟨S4096x8, .f32⟩
  | 40 => ⟨S1x8, .f32⟩
  | 41 => ⟨S4096x1, .f32⟩
  | 42 => ⟨S4096x8, .f32⟩
  | 43 => ⟨S4096x8, .f32⟩
  | 44 => ⟨S4096x8, .f32⟩
  | 45 => ⟨S4096x8, .f32⟩
  | 46 => ⟨S_, .i32⟩
  | 47 => ⟨S1, .i32⟩
  | 48 => ⟨S4096x8x8, .f32⟩
  | 49 => ⟨S4096x1, .f32⟩
  | 50 => ⟨S4096, .f32⟩
  | 51 => ⟨S4096, .f32⟩
  | 52 => ⟨S4096x1, .f32⟩
  | 53 => ⟨S4096, .f32⟩
  | 54 => ⟨S4096, .f32⟩
  | 55 => ⟨S4096x1x8, .f32⟩
  | 56 => ⟨S4096x8, .f32⟩
  | 57 => ⟨S4096x1x8, .f32⟩
  | 58 => ⟨S4096x8, .f32⟩
  | 59 => ⟨S4096x1, .f32⟩
  | 60 => ⟨S4096x8, .f32⟩
  | 61 => ⟨S4096x8, .f32⟩
  | 62 => ⟨S4096x1, .f32⟩
  | 63 => ⟨S4096x8, .f32⟩
  | 64 => ⟨S4096x8, .f32⟩
  | 65 => ⟨S4096x8, .f32⟩
  | 66 => ⟨S_, .i32⟩
  | 67 => ⟨S1, .i32⟩
  | 68 => ⟨S4096x8x8, .f32⟩
  | 69 => ⟨S4096x1, .f32⟩
  | 70 => ⟨S4096x8, .f32⟩
  | 71 => ⟨S4096x8, .f32⟩
  | 72 => ⟨S4096x1, .f32⟩
  | 73 => ⟨S4096x8, .f32⟩
  | 74 => ⟨S4096x8, .f32⟩
  | 75 => ⟨S4096x8, .f32⟩
  | 76 => ⟨S_, .i32⟩
  | 77 => ⟨S1, .i32⟩
  | 78 => ⟨S4096x8x8, .f32⟩
  | 79 => ⟨S4096x1, .f32⟩
  | 80 => ⟨S4096, .f32⟩
  | 81 => ⟨S4096, .f32⟩
  | 82 => ⟨S4096x1, .f32⟩
  | 83 => ⟨S4096, .f32⟩
  | 84 => ⟨S4096, .f32⟩
  | 85 => ⟨S4096x1x8, .f32⟩
  | 86 => ⟨S4096x8, .f32⟩
  | 87 => ⟨S4096x1x8, .f32⟩
  | 88 => ⟨S4096x8, .f32⟩
  | 89 => ⟨S4096x1, .f32⟩
  | 90 => ⟨S4096x8, .f32⟩
  | 91 => ⟨S4096x8, .f32⟩
  | 92 => ⟨S4096x1, .f32⟩
  | 93 => ⟨S4096x8, .f32⟩
  | 94 => ⟨S4096x8, .f32⟩
  | 95 => ⟨S4096x8, .f32⟩
  | 96 => ⟨S_, .i32⟩
  | 97 => ⟨S1, .i32⟩
  | 98 => ⟨S4096x8x8, .f32⟩
  | 99 => ⟨S4096x1, .f32⟩
  | 100 => ⟨S4096x8, .f32⟩
  | 101 => ⟨S4096x8, .f32⟩
  | 102 => ⟨S4096x1, .f32⟩
  | 103 => ⟨S4096x8, .f32⟩
  | 104 => ⟨S4096x8, .f32⟩
  | 105 => ⟨S4096x8, .f32⟩
  | 106 => ⟨S_, .i32⟩
  | 107 => ⟨S1, .i32⟩
  | 108 => ⟨S4096x8x8, .f32⟩
  | 109 => ⟨S4096x1, .f32⟩
  | 110 => ⟨S4096, .f32⟩
  | 111 => ⟨S4096, .f32⟩
  | 112 => ⟨S4096x1, .f32⟩
  | 113 => ⟨S4096, .f32⟩
  | 114 => ⟨S4096, .f32⟩
  | 115 => ⟨S4096x1x8, .f32⟩
  | 116 => ⟨S4096x8, .f32⟩
  | 117 => ⟨S4096x1x8, .f32⟩
  | 118 => ⟨S4096x8, .f32⟩
  | 119 => ⟨S4096x1, .f32⟩
  | 120 => ⟨S4096x8, .f32⟩
  | 121 => ⟨S4096x8, .f32⟩
  | 122 => ⟨S4096x1, .f32⟩
  | 123 => ⟨S4096x8, .f32⟩
  | 124 => ⟨S4096x8, .f32⟩
  | 125 => ⟨S4096x8, .f32⟩
  | 126 => ⟨S_, .i32⟩
  | 127 => ⟨S1, .i32⟩
  | _ => ⟨S4096x8x1024, .f32⟩

abbrev hbmTy0_1 (i : Nat) : BufTy := match i % 128 with
  | 0 => ⟨S4096x8x8, .f32⟩
  | 1 => ⟨S4096x1, .f32⟩
  | 2 => ⟨S4096x8, .f32⟩
  | 3 => ⟨S4096x8, .f32⟩
  | 4 => ⟨S4096x1, .f32⟩
  | 5 => ⟨S4096x8, .f32⟩
  | 6 => ⟨S4096x8, .f32⟩
  | 7 => ⟨S4096x8, .f32⟩
  | 8 => ⟨S_, .i32⟩
  | 9 => ⟨S1, .i32⟩
  | 10 => ⟨S4096x8x8, .f32⟩
  | 11 => ⟨S4096x1, .f32⟩
  | 12 => ⟨S4096, .f32⟩
  | 13 => ⟨S4096, .f32⟩
  | 14 => ⟨S4096x1, .f32⟩
  | 15 => ⟨S4096, .f32⟩
  | 16 => ⟨S4096, .f32⟩
  | 17 => ⟨S4096x1x8, .f32⟩
  | 18 => ⟨S4096x8, .f32⟩
  | 19 => ⟨S4096x1x8, .f32⟩
  | 20 => ⟨S4096x8, .f32⟩
  | 21 => ⟨S4096x1, .f32⟩
  | 22 => ⟨S4096x8, .f32⟩
  | 23 => ⟨S4096x8, .f32⟩
  | 24 => ⟨S4096x1, .f32⟩
  | 25 => ⟨S4096x8, .f32⟩
  | 26 => ⟨S4096x8, .f32⟩
  | 27 => ⟨S4096x8, .f32⟩
  | 28 => ⟨S_, .i32⟩
  | 29 => ⟨S1, .i32⟩
  | 30 => ⟨S4096x8x8, .f32⟩
  | 31 => ⟨S4096x1, .f32⟩
  | 32 => ⟨S4096x8, .f32⟩
  | 33 => ⟨S4096x8, .f32⟩
  | 34 => ⟨S4096x1, .f32⟩
  | 35 => ⟨S4096x8, .f32⟩
  | 36 => ⟨S4096x8, .f32⟩
  | 37 => ⟨S4096x8, .f32⟩
  | 38 => ⟨S_, .i32⟩
  | 39 => ⟨S1, .i32⟩
  | 40 => ⟨S4096x8x8, .f32⟩
  | 41 => ⟨S4096x1, .f32⟩
  | 42 => ⟨S4096, .f32⟩
  | 43 => ⟨S4096, .f32⟩
  | 44 => ⟨S4096x1, .f32⟩
  | 45 => ⟨S4096, .f32⟩
  | 46 => ⟨S4096, .f32⟩
  | 47 => ⟨S4096x1x8, .f32⟩
  | 48 => ⟨S4096x8, .f32⟩
  | 49 => ⟨S4096x1x8, .f32⟩
  | 50 => ⟨S4096x8, .f32⟩
  | 51 => ⟨S4096x1, .f32⟩
  | 52 => ⟨S4096x8, .f32⟩
  | 53 => ⟨S4096x8, .f32⟩
  | 54 => ⟨S4096x1, .f32⟩
  | 55 => ⟨S4096x8, .f32⟩
  | 56 => ⟨S4096x8, .f32⟩
  | 57 => ⟨S4096x8, .f32⟩
  | 58 => ⟨S_, .i32⟩
  | 59 => ⟨S1, .i32⟩
  | 60 => ⟨S4096x8x8, .f32⟩
  | 61 => ⟨S4096x1, .f32⟩
  | 62 => ⟨S4096x8, .f32⟩
  | 63 => ⟨S4096x8, .f32⟩
  | 64 => ⟨S4096x1, .f32⟩
  | 65 => ⟨S4096x8, .f32⟩
  | 66 => ⟨S4096x8, .f32⟩
  | 67 => ⟨S4096x8, .f32⟩
  | 68 => ⟨S_, .i32⟩
  | 69 => ⟨S1, .i32⟩
  | 70 => ⟨S4096x8x8, .f32⟩
  | 71 => ⟨S4096x1, .f32⟩
  | 72 => ⟨S4096, .f32⟩
  | 73 => ⟨S4096, .f32⟩
  | 74 => ⟨S4096x1, .f32⟩
  | 75 => ⟨S4096, .f32⟩
  | 76 => ⟨S4096, .f32⟩
  | 77 => ⟨S4096x1x8, .f32⟩
  | 78 => ⟨S4096x8, .f32⟩
  | 79 => ⟨S4096x1x8, .f32⟩
  | 80 => ⟨S4096x8, .f32⟩
  | 81 => ⟨S4096x1, .f32⟩
  | 82 => ⟨S4096x8, .f32⟩
  | 83 => ⟨S4096x8, .f32⟩
  | 84 => ⟨S4096x1, .f32⟩
  | 85 => ⟨S4096x8, .f32⟩
  | 86 => ⟨S4096x8, .f32⟩
  | 87 => ⟨S4096x8, .f32⟩
  | 88 => ⟨S_, .i32⟩
  | 89 => ⟨S1, .i32⟩
  | 90 => ⟨S4096x8x8, .f32⟩
  | 91 => ⟨S4096x1, .f32⟩
  | 92 => ⟨S4096x8, .f32⟩
  | 93 => ⟨S4096x8, .f32⟩
  | 94 => ⟨S4096x1, .f32⟩
  | 95 => ⟨S4096x8, .f32⟩
  | 96 => ⟨S4096x8, .f32⟩
  | 97 => ⟨S4096x8, .f32⟩
  | 98 => ⟨S_, .i32⟩
  | 99 => ⟨S1, .i32⟩
  | 100 => ⟨S4096x8x8, .f32⟩
  | 101 => ⟨S4096x1, .f32⟩
  | 102 => ⟨S4096, .f32⟩
  | 103 => ⟨S4096, .f32⟩
  | 104 => ⟨S4096x1, .f32⟩
  | 105 => ⟨S4096, .f32⟩
  | 106 => ⟨S4096, .f32⟩
  | 107 => ⟨S4096x1x8, .f32⟩
  | 108 => ⟨S4096x8, .f32⟩
  | 109 => ⟨S4096x1x8, .f32⟩
  | 110 => ⟨S4096x8, .f32⟩
  | 111 => ⟨S4096x1, .f32⟩
  | 112 => ⟨S4096x8, .f32⟩
  | 113 => ⟨S4096x8, .f32⟩
  | 114 => ⟨S4096x1, .f32⟩
  | 115 => ⟨S4096x8, .f32⟩
  | 116 => ⟨S4096x8, .f32⟩
  | 117 => ⟨S4096x8, .f32⟩
  | 118 => ⟨S_, .i32⟩
  | 119 => ⟨S1, .i32⟩
  | 120 => ⟨S4096x8x8, .f32⟩
  | 121 => ⟨S4096x1, .f32⟩
  | 122 => ⟨S4096x8, .f32⟩
  | 123 => ⟨S4096x8, .f32⟩
  | 124 => ⟨S4096x1, .f32⟩
  | 125 => ⟨S4096x8, .f32⟩
  | 126 => ⟨S4096x8, .f32⟩
  | 127 => ⟨S4096x8, .f32⟩
  | _ => ⟨S4096x8x1024, .f32⟩

abbrev hbmTy0_2 (i : Nat) : BufTy := match i % 128 with
  | 0 => ⟨S_, .i32⟩
  | 1 => ⟨S1, .i32⟩
  | 2 => ⟨S4096x8x8, .f32⟩
  | 3 => ⟨S4096x1, .f32⟩
  | 4 => ⟨S4096, .f32⟩
  | 5 => ⟨S4096, .f32⟩
  | 6 => ⟨S4096x1, .f32⟩
  | 7 => ⟨S4096, .f32⟩
  | 8 => ⟨S4096, .f32⟩
  | 9 => ⟨S4096x1x8, .f32⟩
  | 10 => ⟨S4096x8, .f32⟩
  | 11 => ⟨S4096x1x8, .f32⟩
  | 12 => ⟨S4096x8, .f32⟩
  | 13 => ⟨S4096x1, .f32⟩
  | 14 => ⟨S4096x8, .f32⟩
  | 15 => ⟨S4096x8, .f32⟩
  | 16 => ⟨S4096x1, .f32⟩
  | 17 => ⟨S4096x8, .f32⟩
  | 18 => ⟨S4096x8, .f32⟩
  | 19 => ⟨S4096x8, .f32⟩
  | 20 => ⟨S_, .i32⟩
  | 21 => ⟨S1, .i32⟩
  | 22 => ⟨S4096x8x8, .f32⟩
  | 23 => ⟨S4096x1, .f32⟩
  | 24 => ⟨S4096x8, .f32⟩
  | 25 => ⟨S4096x8, .f32⟩
  | 26 => ⟨S4096x1, .f32⟩
  | 27 => ⟨S4096x8, .f32⟩
  | 28 => ⟨S4096x8, .f32⟩
  | 29 => ⟨S4096x8, .f32⟩
  | 30 => ⟨S_, .i32⟩
  | 31 => ⟨S1, .i32⟩
  | 32 => ⟨S4096x8x8, .f32⟩
  | 33 => ⟨S4096x1, .f32⟩
  | 34 => ⟨S4096, .f32⟩
  | 35 => ⟨S4096, .f32⟩
  | 36 => ⟨S4096x1, .f32⟩
  | 37 => ⟨S4096, .f32⟩
  | 38 => ⟨S4096, .f32⟩
  | 39 => ⟨S4096x1x8, .f32⟩
  | 40 => ⟨S4096x8, .f32⟩
  | 41 => ⟨S4096x1x8, .f32⟩
  | 42 => ⟨S4096x8, .f32⟩
  | 43 => ⟨S4096x1, .f32⟩
  | 44 => ⟨S4096x8, .f32⟩
  | 45 => ⟨S4096x8, .f32⟩
  | 46 => ⟨S4096x1, .f32⟩
  | 47 => ⟨S4096x8, .f32⟩
  | 48 => ⟨S4096x8, .f32⟩
  | 49 => ⟨S4096x8, .f32⟩
  | 50 => ⟨S_, .i32⟩
  | 51 => ⟨S1, .i32⟩
  | 52 => ⟨S4096x8x8, .f32⟩
  | 53 => ⟨S4096x1, .f32⟩
  | 54 => ⟨S4096x8, .f32⟩
  | 55 => ⟨S4096x8, .f32⟩
  | 56 => ⟨S4096x1, .f32⟩
  | 57 => ⟨S4096x8, .f32⟩
  | 58 => ⟨S4096x8, .f32⟩
  | 59 => ⟨S4096x8, .f32⟩
  | 60 => ⟨S_, .i32⟩
  | 61 => ⟨S1, .i32⟩
  | 62 => ⟨S4096x8x8, .f32⟩
  | 63 => ⟨S4096x1, .f32⟩
  | 64 => ⟨S4096, .f32⟩
  | 65 => ⟨S4096, .f32⟩
  | 66 => ⟨S4096x1, .f32⟩
  | 67 => ⟨S4096, .f32⟩
  | 68 => ⟨S4096, .f32⟩
  | 69 => ⟨S4096x1x8, .f32⟩
  | 70 => ⟨S4096x8, .f32⟩
  | 71 => ⟨S4096x1x8, .f32⟩
  | 72 => ⟨S4096x8, .f32⟩
  | 73 => ⟨S4096x1, .f32⟩
  | 74 => ⟨S4096x8, .f32⟩
  | 75 => ⟨S4096x8, .f32⟩
  | 76 => ⟨S4096x1, .f32⟩
  | 77 => ⟨S4096x8, .f32⟩
  | 78 => ⟨S4096x8, .f32⟩
  | 79 => ⟨S4096x8, .f32⟩
  | 80 => ⟨S_, .i32⟩
  | 81 => ⟨S1, .i32⟩
  | 82 => ⟨S4096x8x8, .f32⟩
  | 83 => ⟨S4096x1, .f32⟩
  | 84 => ⟨S4096x8, .f32⟩
  | 85 => ⟨S4096x8, .f32⟩
  | 86 => ⟨S4096x1, .f32⟩
  | 87 => ⟨S4096x8, .f32⟩
  | 88 => ⟨S4096x8, .f32⟩
  | 89 => ⟨S4096x8, .f32⟩
  | 90 => ⟨S_, .i32⟩
  | 91 => ⟨S1, .i32⟩
  | 92 => ⟨S4096x8x8, .f32⟩
  | 93 => ⟨S4096x1, .f32⟩
  | 94 => ⟨S4096, .f32⟩
  | 95 => ⟨S4096, .f32⟩
  | 96 => ⟨S4096x1, .f32⟩
  | 97 => ⟨S4096, .f32⟩
  | 98 => ⟨S4096, .f32⟩
  | 99 => ⟨S4096x1x8, .f32⟩
  | 100 => ⟨S4096x8, .f32⟩
  | 101 => ⟨S4096x1x8, .f32⟩
  | 102 => ⟨S4096x8, .f32⟩
  | 103 => ⟨S4096x1, .f32⟩
  | 104 => ⟨S4096x8, .f32⟩
  | 105 => ⟨S4096x8, .f32⟩
  | 106 => ⟨S4096x1, .f32⟩
  | 107 => ⟨S4096x8, .f32⟩
  | 108 => ⟨S4096x8, .f32⟩
  | 109 => ⟨S4096x8, .f32⟩
  | 110 => ⟨S_, .i32⟩
  | 111 => ⟨S1, .i32⟩
  | 112 => ⟨S4096x8x8, .f32⟩
  | 113 => ⟨S4096x1, .f32⟩
  | 114 => ⟨S4096x8, .f32⟩
  | 115 => ⟨S4096x8, .f32⟩
  | 116 => ⟨S4096x1, .f32⟩
  | 117 => ⟨S4096x8, .f32⟩
  | 118 => ⟨S4096x8, .f32⟩
  | 119 => ⟨S4096x8, .f32⟩
  | 120 => ⟨S_, .i32⟩
  | 121 => ⟨S1, .i32⟩
  | 122 => ⟨S4096x8x8, .f32⟩
  | 123 => ⟨S4096x1, .f32⟩
  | 124 => ⟨S4096, .f32⟩
  | 125 => ⟨S4096, .f32⟩
  | 126 => ⟨S4096x1, .f32⟩
  | 127 => ⟨S4096, .f32⟩
  | _ => ⟨S4096x8x1024, .f32⟩

abbrev hbmTy0_3 (i : Nat) : BufTy := match i % 128 with
  | 0 => ⟨S4096, .f32⟩
  | 1 => ⟨S4096x1x8, .f32⟩
  | 2 => ⟨S4096x8, .f32⟩
  | 3 => ⟨S4096x1x8, .f32⟩
  | 4 => ⟨S4096x8, .f32⟩
  | 5 => ⟨S4096x1, .f32⟩
  | 6 => ⟨S4096x8, .f32⟩
  | 7 => ⟨S4096x8, .f32⟩
  | 8 => ⟨S4096x1, .f32⟩
  | 9 => ⟨S4096x8, .f32⟩
  | 10 => ⟨S4096x8, .f32⟩
  | 11 => ⟨S4096x8, .f32⟩
  | 12 => ⟨S_, .i32⟩
  | 13 => ⟨S1, .i32⟩
  | 14 => ⟨S4096x8x8, .f32⟩
  | 15 => ⟨S4096x1, .f32⟩
  | 16 => ⟨S4096x8, .f32⟩
  | 17 => ⟨S4096x8, .f32⟩
  | 18 => ⟨S4096x1, .f32⟩
  | 19 => ⟨S4096x8, .f32⟩
  | 20 => ⟨S4096x8, .f32⟩
  | 21 => ⟨S4096x8, .f32⟩
  | 22 => ⟨S_, .i32⟩
  | 23 => ⟨S1, .i32⟩
  | 24 => ⟨S4096x8x8, .f32⟩
  | 25 => ⟨S4096x1, .f32⟩
  | 26 => ⟨S4096, .f32⟩
  | 27 => ⟨S4096, .f32⟩
  | 28 => ⟨S4096x1, .f32⟩
  | 29 => ⟨S4096, .f32⟩
  | 30 => ⟨S4096, .f32⟩
  | 31 => ⟨S4096x1x8, .f32⟩
  | 32 => ⟨S4096x8, .f32⟩
  | 33 => ⟨S4096x1x8, .f32⟩
  | 34 => ⟨S4096x8, .f32⟩
  | 35 => ⟨S4096x1, .f32⟩
  | 36 => ⟨S4096x8, .f32⟩
  | 37 => ⟨S4096x8, .f32⟩
  | 38 => ⟨S4096x1, .f32⟩
  | 39 => ⟨S4096x8, .f32⟩
  | 40 => ⟨S4096x8, .f32⟩
  | 41 => ⟨S4096x8, .f32⟩
  | 42 => ⟨S_, .i32⟩
  | 43 => ⟨S1, .i32⟩
  | 44 => ⟨S4096x8x8, .f32⟩
  | 45 => ⟨S4096x1, .f32⟩
  | 46 => ⟨S4096x8, .f32⟩
  | 47 => ⟨S4096x8, .f32⟩
  | 48 => ⟨S4096x1, .f32⟩
  | 49 => ⟨S4096x8, .f32⟩
  | 50 => ⟨S4096x8, .f32⟩
  | 51 => ⟨S4096x8, .f32⟩
  | 52 => ⟨S_, .i32⟩
  | 53 => ⟨S1, .i32⟩
  | 54 => ⟨S4096x8x8, .f32⟩
  | 55 => ⟨S4096x1, .f32⟩
  | 56 => ⟨S4096, .f32⟩
  | 57 => ⟨S4096, .f32⟩
  | 58 => ⟨S4096x1, .f32⟩
  | 59 => ⟨S4096, .f32⟩
  | 60 => ⟨S4096, .f32⟩
  | 61 => ⟨S4096x1x8, .f32⟩
  | 62 => ⟨S4096x8, .f32⟩
  | 63 => ⟨S4096x1x8, .f32⟩
  | 64 => ⟨S4096x8, .f32⟩
  | 65 => ⟨S4096x1, .f32⟩
  | 66 => ⟨S4096x8, .f32⟩
  | 67 => ⟨S4096x8, .f32⟩
  | 68 => ⟨S4096x1, .f32⟩
  | 69 => ⟨S4096x8, .f32⟩
  | 70 => ⟨S4096x8, .f32⟩
  | 71 => ⟨S4096x8, .f32⟩
  | 72 => ⟨S_, .i32⟩
  | 73 => ⟨S1, .i32⟩
  | 74 => ⟨S4096x8x8, .f32⟩
  | 75 => ⟨S4096x1, .f32⟩
  | 76 => ⟨S4096x8, .f32⟩
  | 77 => ⟨S4096x8, .f32⟩
  | 78 => ⟨S4096x1, .f32⟩
  | 79 => ⟨S4096x8, .f32⟩
  | 80 => ⟨S4096x8, .f32⟩
  | 81 => ⟨S4096x8, .f32⟩
  | 82 => ⟨S_, .i32⟩
  | 83 => ⟨S1, .i32⟩
  | 84 => ⟨S4096x8x8, .f32⟩
  | 85 => ⟨S4096x1, .f32⟩
  | 86 => ⟨S4096, .f32⟩
  | 87 => ⟨S4096, .f32⟩
  | 88 => ⟨S4096x1, .f32⟩
  | 89 => ⟨S4096, .f32⟩
  | 90 => ⟨S4096, .f32⟩
  | 91 => ⟨S4096x1x8, .f32⟩
  | 92 => ⟨S4096x8, .f32⟩
  | 93 => ⟨S4096x1x8, .f32⟩
  | 94 => ⟨S4096x8, .f32⟩
  | 95 => ⟨S4096x1, .f32⟩
  | 96 => ⟨S4096x8, .f32⟩
  | 97 => ⟨S4096x8, .f32⟩
  | 98 => ⟨S4096x1, .f32⟩
  | 99 => ⟨S4096x8, .f32⟩
  | 100 => ⟨S4096x8, .f32⟩
  | 101 => ⟨S4096x8, .f32⟩
  | 102 => ⟨S_, .i32⟩
  | 103 => ⟨S1, .i32⟩
  | 104 => ⟨S4096x8x8, .f32⟩
  | 105 => ⟨S4096x1, .f32⟩
  | 106 => ⟨S4096x8, .f32⟩
  | 107 => ⟨S4096x8, .f32⟩
  | 108 => ⟨S4096x1, .f32⟩
  | 109 => ⟨S4096x8, .f32⟩
  | 110 => ⟨S4096x8, .f32⟩
  | 111 => ⟨S4096x8, .f32⟩
  | 112 => ⟨S_, .i32⟩
  | 113 => ⟨S1, .i32⟩
  | 114 => ⟨S4096x8x8, .f32⟩
  | 115 => ⟨S4096x1, .f32⟩
  | 116 => ⟨S4096, .f32⟩
  | 117 => ⟨S4096, .f32⟩
  | 118 => ⟨S4096x1, .f32⟩
  | 119 => ⟨S4096, .f32⟩
  | 120 => ⟨S4096, .f32⟩
  | 121 => ⟨S4096x1x8, .f32⟩
  | 122 => ⟨S4096x8, .f32⟩
  | 123 => ⟨S4096x1x8, .f32⟩
  | 124 => ⟨S4096x8, .f32⟩
  | 125 => ⟨S4096x1, .f32⟩
  | 126 => ⟨S4096x8, .f32⟩
  | 127 => ⟨S4096x8, .f32⟩
  | _ => ⟨S4096x8x1024, .f32⟩

abbrev hbmTy0_4 (i : Nat) : BufTy := match i % 128 with
  | 0 => ⟨S4096x1, .f32⟩
  | 1 => ⟨S4096x8, .f32⟩
  | 2 => ⟨S4096x8, .f32⟩
  | 3 => ⟨S4096x8, .f32⟩
  | 4 => ⟨S_, .i32⟩
  | 5 => ⟨S1, .i32⟩
  | 6 => ⟨S4096x8x8, .f32⟩
  | 7 => ⟨S4096x1, .f32⟩
  | 8 => ⟨S4096x8, .f32⟩
  | 9 => ⟨S4096x8, .f32⟩
  | 10 => ⟨S4096x1, .f32⟩
  | 11 => ⟨S4096x8, .f32⟩
  | 12 => ⟨S4096x8, .f32⟩
  | 13 => ⟨S4096x8, .f32⟩
  | 14 => ⟨S_, .i32⟩
  | 15 => ⟨S1, .i32⟩
  | 16 => ⟨S4096x8x8, .f32⟩
  | 17 => ⟨S4096x1, .f32⟩
  | 18 => ⟨S4096, .f32⟩
  | 19 => ⟨S4096, .f32⟩
  | 20 => ⟨S4096x1, .f32⟩
  | 21 => ⟨S4096, .f32⟩
  | 22 => ⟨S4096, .f32⟩
  | 23 => ⟨S4096x1x8, .f32⟩
  | 24 => ⟨S4096x8, .f32⟩
  | 25 => ⟨S4096x1x8, .f32⟩
  | 26 => ⟨S4096x8, .f32⟩
  | 27 => ⟨S4096x1, .f32⟩
  | 28 => ⟨S4096x8, .f32⟩
  | 29 => ⟨S4096x8, .f32⟩
  | 30 => ⟨S4096x1, .f32⟩
  | 31 => ⟨S4096x8, .f32⟩
  | 32 => ⟨S4096x8, .f32⟩
  | 33 => ⟨S4096x8, .f32⟩
  | 34 => ⟨S_, .i32⟩
  | 35 => ⟨S1, .i32⟩
  | 36 => ⟨S4096x8x8, .f32⟩
  | 37 => ⟨S4096x1, .f32⟩
  | 38 => ⟨S4096x8, .f32⟩
  | 39 => ⟨S4096x8, .f32⟩
  | 40 => ⟨S4096x1, .f32⟩
  | 41 => ⟨S4096x8, .f32⟩
  | 42 => ⟨S4096x8, .f32⟩
  | 43 => ⟨S4096x8, .f32⟩
  | 44 => ⟨S_, .i32⟩
  | 45 => ⟨S1, .i32⟩
  | 46 => ⟨S4096x8x8, .f32⟩
  | 47 => ⟨S4096x1, .f32⟩
  | 48 => ⟨S4096, .f32⟩
  | 49 => ⟨S4096, .f32⟩
  | 50 => ⟨S4096x1, .f32⟩
  | 51 => ⟨S4096, .f32⟩
  | 52 => ⟨S4096, .f32⟩
  | 53 => ⟨S4096x1x8, .f32⟩
  | 54 => ⟨S4096x8, .f32⟩
  | 55 => ⟨S4096x1x8, .f32⟩
  | 56 => ⟨S4096x8, .f32⟩
  | 57 => ⟨S4096x1, .f32⟩
  | 58 => ⟨S4096x8, .f32⟩
  | 59 => ⟨S4096x8, .f32⟩
  | 60 => ⟨S4096x1, .f32⟩
  | 61 => ⟨S4096x8, .f32⟩
  | 62 => ⟨S4096x8, .f32⟩
  | 63 => ⟨S4096x8, .f32⟩
  | 64 => ⟨S_, .i32⟩
  | 65 => ⟨S1, .i32⟩
  | 66 => ⟨S4096x8x8, .f32⟩
  | 67 => ⟨S4096x1, .f32⟩
  | 68 => ⟨S4096x8, .f32⟩
  | 69 => ⟨S4096x8, .f32⟩
  | 70 => ⟨S4096x1, .f32⟩
  | 71 => ⟨S4096x8, .f32⟩
  | 72 => ⟨S4096x8, .f32⟩
  | 73 => ⟨S4096x8, .f32⟩
  | 74 => ⟨S_, .i32⟩
  | 75 => ⟨S1, .i32⟩
  | 76 => ⟨S4096x8x8, .f32⟩
  | 77 => ⟨S4096x1, .f32⟩
  | 78 => ⟨S4096, .f32⟩
  | 79 => ⟨S4096, .f32⟩
  | 80 => ⟨S4096x1, .f32⟩
  | 81 => ⟨S4096, .f32⟩
  | 82 => ⟨S4096, .f32⟩
  | 83 => ⟨S4096x1x8, .f32⟩
  | 84 => ⟨S4096x8, .f32⟩
  | 85 => ⟨S4096x1x8, .f32⟩
  | 86 => ⟨S4096x8, .f32⟩
  | 87 => ⟨S4096x1, .f32⟩
  | 88 => ⟨S4096x8, .f32⟩
  | 89 => ⟨S4096x8, .f32⟩
  | 90 => ⟨S4096x1, .f32⟩
  | 91 => ⟨S4096x8, .f32⟩
  | 92 => ⟨S4096x8, .f32⟩
  | 93 => ⟨S4096x8, .f32⟩
  | 94 => ⟨S_, .i32⟩
  | 95 => ⟨S1, .i32⟩
  | 96 => ⟨S4096x8x8, .f32⟩
  | 97 => ⟨S4096x1, .f32⟩
  | 98 => ⟨S4096x8, .f32⟩
  | 99 => ⟨S4096x8, .f32⟩
  | 100 => ⟨S4096x1, .f32⟩
  | 101 => ⟨S4096x8, .f32⟩
  | 102 => ⟨S4096x8, .f32⟩
  | 103 => ⟨S4096x8, .f32⟩
  | 104 => ⟨S_, .i32⟩
  | 105 => ⟨S1, .i32⟩
  | 106 => ⟨S4096x8x8, .f32⟩
  | 107 => ⟨S4096x1, .f32⟩
  | 108 => ⟨S4096, .f32⟩
  | 109 => ⟨S4096, .f32⟩
  | 110 => ⟨S4096x1, .f32⟩
  | 111 => ⟨S4096, .f32⟩
  | 112 => ⟨S4096, .f32⟩
  | 113 => ⟨S4096x1x8, .f32⟩
  | 114 => ⟨S4096x8, .f32⟩
  | 115 => ⟨S4096x1x8, .f32⟩
  | 116 => ⟨S4096x8, .f32⟩
  | 117 => ⟨S4096x1, .f32⟩
  | 118 => ⟨S4096x8, .f32⟩
  | 119 => ⟨S4096x8, .f32⟩
  | 120 => ⟨S4096x1, .f32⟩
  | 121 => ⟨S4096x8, .f32⟩
  | 122 => ⟨S4096x8, .f32⟩
  | 123 => ⟨S4096x8, .f32⟩
  | 124 => ⟨S_, .i32⟩
  | 125 => ⟨S1, .i32⟩
  | 126 => ⟨S4096x8x8, .f32⟩
  | 127 => ⟨S4096x1, .f32⟩
  | _ => ⟨S4096x8x1024, .f32⟩

abbrev hbmTy0_5 (i : Nat) : BufTy := match i % 128 with
  | 0 => ⟨S4096x8, .f32⟩
  | 1 => ⟨S4096x8, .f32⟩
  | 2 => ⟨S4096x1, .f32⟩
  | 3 => ⟨S4096x8, .f32⟩
  | 4 => ⟨S4096x8, .f32⟩
  | 5 => ⟨S4096x8, .f32⟩
  | 6 => ⟨S_, .i32⟩
  | 7 => ⟨S1, .i32⟩
  | 8 => ⟨S4096x8x8, .f32⟩
  | 9 => ⟨S4096x1, .f32⟩
  | 10 => ⟨S4096, .f32⟩
  | 11 => ⟨S4096, .f32⟩
  | 12 => ⟨S4096x1, .f32⟩
  | 13 => ⟨S4096, .f32⟩
  | 14 => ⟨S4096, .f32⟩
  | 15 => ⟨S4096x1x8, .f32⟩
  | 16 => ⟨S4096x8, .f32⟩
  | 17 => ⟨S4096x1x8, .f32⟩
  | 18 => ⟨S4096x8, .f32⟩
  | 19 => ⟨S4096x1, .f32⟩
  | 20 => ⟨S4096x8, .f32⟩
  | 21 => ⟨S4096x8, .f32⟩
  | 22 => ⟨S4096x1, .f32⟩
  | 23 => ⟨S4096x8, .f32⟩
  | 24 => ⟨S4096x8, .f32⟩
  | 25 => ⟨S4096x8, .f32⟩
  | 26 => ⟨S_, .i32⟩
  | 27 => ⟨S1, .i32⟩
  | 28 => ⟨S4096x8x8, .f32⟩
  | 29 => ⟨S4096x1, .f32⟩
  | 30 => ⟨S4096x8, .f32⟩
  | 31 => ⟨S4096x8, .f32⟩
  | 32 => ⟨S4096x1, .f32⟩
  | 33 => ⟨S4096x8, .f32⟩
  | 34 => ⟨S4096x8, .f32⟩
  | 35 => ⟨S4096x8, .f32⟩
  | 36 => ⟨S_, .i32⟩
  | 37 => ⟨S1, .i32⟩
  | 38 => ⟨S4096x8x8, .f32⟩
  | 39 => ⟨S4096x1, .f32⟩
  | 40 => ⟨S4096, .f32⟩
  | 41 => ⟨S4096, .f32⟩
  | 42 => ⟨S4096x1, .f32⟩
  | 43 => ⟨S4096, .f32⟩
  | 44 => ⟨S4096, .f32⟩
  | 45 => ⟨S4096x1x8, .f32⟩
  | 46 => ⟨S4096x8, .f32⟩
  | 47 => ⟨S4096x1x8, .f32⟩
  | 48 => ⟨S4096x8, .f32⟩
  | 49 => ⟨S4096x1, .f32⟩
  | 50 => ⟨S4096x8, .f32⟩
  | 51 => ⟨S4096x8, .f32⟩
  | 52 => ⟨S4096x1, .f32⟩
  | 53 => ⟨S4096x8, .f32⟩
  | 54 => ⟨S4096x8, .f32⟩
  | 55 => ⟨S4096x8, .f32⟩
  | 56 => ⟨S_, .i32⟩
  | 57 => ⟨S1, .i32⟩
  | 58 => ⟨S4096x8x8, .f32⟩
  | 59 => ⟨S4096x1, .f32⟩
  | 60 => ⟨S4096x8, .f32⟩
  | 61 => ⟨S4096x8, .f32⟩
  | 62 => ⟨S4096x1, .f32⟩
  | 63 => ⟨S4096x8, .f32⟩
  | 64 => ⟨S4096x8, .f32⟩
  | 65 => ⟨S4096x8, .f32⟩
  | 66 => ⟨S_, .i32⟩
  | 67 => ⟨S1, .i32⟩
  | 68 => ⟨S4096x8x8, .f32⟩
  | 69 => ⟨S4096x1, .f32⟩
  | 70 => ⟨S4096, .f32⟩
  | 71 => ⟨S4096, .f32⟩
  | 72 => ⟨S4096x1, .f32⟩
  | 73 => ⟨S4096, .f32⟩
  | 74 => ⟨S4096, .f32⟩
  | 75 => ⟨S4096x1x8, .f32⟩
  | 76 => ⟨S4096x8, .f32⟩
  | 77 => ⟨S4096x1x8, .f32⟩
  | 78 => ⟨S4096x8, .f32⟩
  | 79 => ⟨S4096x1, .f32⟩
  | 80 => ⟨S4096x8, .f32⟩
  | 81 => ⟨S4096x8, .f32⟩
  | 82 => ⟨S4096x1, .f32⟩
  | 83 => ⟨S4096x8, .f32⟩
  | 84 => ⟨S4096x8, .f32⟩
  | 85 => ⟨S4096x8, .f32⟩
  | 86 => ⟨S_, .i32⟩
  | 87 => ⟨S1, .i32⟩
  | 88 => ⟨S4096x8x8, .f32⟩
  | 89 => ⟨S4096x1, .f32⟩
  | 90 => ⟨S4096x8, .f32⟩
  | 91 => ⟨S4096x8, .f32⟩
  | 92 => ⟨S4096x1, .f32⟩
  | 93 => ⟨S4096x8, .f32⟩
  | 94 => ⟨S4096x8, .f32⟩
  | 95 => ⟨S4096x8, .f32⟩
  | 96 => ⟨S_, .i32⟩
  | 97 => ⟨S1, .i32⟩
  | 98 => ⟨S4096x8x8, .f32⟩
  | 99 => ⟨S4096x1, .f32⟩
  | 100 => ⟨S4096, .f32⟩
  | 101 => ⟨S4096, .f32⟩
  | 102 => ⟨S4096x1, .f32⟩
  | 103 => ⟨S4096, .f32⟩
  | 104 => ⟨S4096, .f32⟩
  | 105 => ⟨S4096x1x8, .f32⟩
  | 106 => ⟨S4096x8, .f32⟩
  | 107 => ⟨S4096x1x8, .f32⟩
  | 108 => ⟨S4096x8, .f32⟩
  | 109 => ⟨S4096x1, .f32⟩
  | 110 => ⟨S4096x8, .f32⟩
  | 111 => ⟨S4096x8, .f32⟩
  | 112 => ⟨S4096x1, .f32⟩
  | 113 => ⟨S4096x8, .f32⟩
  | 114 => ⟨S4096x8, .f32⟩
  | 115 => ⟨S4096x8, .f32⟩
  | 116 => ⟨S_, .i32⟩
  | 117 => ⟨S1, .i32⟩
  | 118 => ⟨S4096x8x8, .f32⟩
  | 119 => ⟨S4096x1, .f32⟩
  | 120 => ⟨S4096x8, .f32⟩
  | 121 => ⟨S4096x8, .f32⟩
  | 122 => ⟨S4096x1, .f32⟩
  | 123 => ⟨S4096x8, .f32⟩
  | 124 => ⟨S4096x8, .f32⟩
  | 125 => ⟨S4096x8, .f32⟩
  | 126 => ⟨S_, .i32⟩
  | 127 => ⟨S1, .i32⟩
  | _ => ⟨S4096x8x1024, .f32⟩

abbrev hbmTy0_6 (i : Nat) : BufTy := match i % 128 with
  | 0 => ⟨S4096x8x8, .f32⟩
  | 1 => ⟨S4096x1, .f32⟩
  | 2 => ⟨S4096, .f32⟩
  | 3 => ⟨S4096, .f32⟩
  | 4 => ⟨S4096x1, .f32⟩
  | 5 => ⟨S4096, .f32⟩
  | 6 => ⟨S4096, .f32⟩
  | 7 => ⟨S4096x1x8, .f32⟩
  | 8 => ⟨S4096x8, .f32⟩
  | 9 => ⟨S4096x1x8, .f32⟩
  | 10 => ⟨S4096x8, .f32⟩
  | 11 => ⟨S4096x1, .f32⟩
  | 12 => ⟨S4096x8, .f32⟩
  | 13 => ⟨S4096x8, .f32⟩
  | 14 => ⟨S4096x1, .f32⟩
  | 15 => ⟨S4096x8, .f32⟩
  | 16 => ⟨S4096x8, .f32⟩
  | 17 => ⟨S4096x8, .f32⟩
  | 18 => ⟨S_, .i32⟩
  | 19 => ⟨S1, .i32⟩
  | 20 => ⟨S4096x8x8, .f32⟩
  | 21 => ⟨S4096x1, .f32⟩
  | 22 => ⟨S4096x8, .f32⟩
  | 23 => ⟨S4096x8, .f32⟩
  | 24 => ⟨S4096x1, .f32⟩
  | 25 => ⟨S4096x8, .f32⟩
  | 26 => ⟨S4096x8, .f32⟩
  | 27 => ⟨S4096x8, .f32⟩
  | 28 => ⟨S_, .i32⟩
  | 29 => ⟨S1, .i32⟩
  | 30 => ⟨S4096x8x8, .f32⟩
  | 31 => ⟨S4096x1, .f32⟩
  | 32 => ⟨S4096, .f32⟩
  | 33 => ⟨S4096, .f32⟩
  | 34 => ⟨S4096x1, .f32⟩
  | 35 => ⟨S4096, .f32⟩
  | 36 => ⟨S4096, .f32⟩
  | 37 => ⟨S4096x1x8, .f32⟩
  | 38 => ⟨S4096x8, .f32⟩
  | 39 => ⟨S4096x1x8, .f32⟩
  | 40 => ⟨S4096x8, .f32⟩
  | 41 => ⟨S4096x1, .f32⟩
  | 42 => ⟨S4096x8, .f32⟩
  | 43 => ⟨S4096x8, .f32⟩
  | 44 => ⟨S4096x1, .f32⟩
  | 45 => ⟨S4096x8, .f32⟩
  | 46 => ⟨S4096x8, .f32⟩
  | 47 => ⟨S4096x8, .f32⟩
  | 48 => ⟨S_, .i32⟩
  | 49 => ⟨S1, .i32⟩
  | 50 => ⟨S4096x8x8, .f32⟩
  | 51 => ⟨S4096x1, .f32⟩
  | 52 => ⟨S4096x8, .f32⟩
  | 53 => ⟨S4096x8, .f32⟩
  | 54 => ⟨S4096x1, .f32⟩
  | 55 => ⟨S4096x8, .f32⟩
  | 56 => ⟨S4096x8, .f32⟩
  | 57 => ⟨S4096x8, .f32⟩
  | 58 => ⟨S_, .i32⟩
  | 59 => ⟨S1, .i32⟩
  | 60 => ⟨S4096x8x8, .f32⟩
  | 61 => ⟨S4096x1, .f32⟩
  | 62 => ⟨S4096, .f32⟩
  | 63 => ⟨S4096, .f32⟩
  | 64 => ⟨S4096x1, .f32⟩
  | 65 => ⟨S4096, .f32⟩
  | 66 => ⟨S4096, .f32⟩
  | 67 => ⟨S4096x1x8, .f32⟩
  | 68 => ⟨S4096x8, .f32⟩
  | 69 => ⟨S4096x1x8, .f32⟩
  | 70 => ⟨S4096x8, .f32⟩
  | 71 => ⟨S4096x1, .f32⟩
  | 72 => ⟨S4096x8, .f32⟩
  | 73 => ⟨S4096x8, .f32⟩
  | 74 => ⟨S4096x1, .f32⟩
  | 75 => ⟨S4096x8, .f32⟩
  | 76 => ⟨S4096x8, .f32⟩
  | 77 => ⟨S4096x8, .f32⟩
  | 78 => ⟨S_, .i32⟩
  | 79 => ⟨S1, .i32⟩
  | 80 => ⟨S4096x8x8, .f32⟩
  | 81 => ⟨S4096x1, .f32⟩
  | 82 => ⟨S4096x8, .f32⟩
  | 83 => ⟨S4096x8, .f32⟩
  | 84 => ⟨S4096x1, .f32⟩
  | 85 => ⟨S4096x8, .f32⟩
  | 86 => ⟨S4096x8, .f32⟩
  | 87 => ⟨S4096x8, .f32⟩
  | 88 => ⟨S_, .i32⟩
  | 89 => ⟨S1, .i32⟩
  | 90 => ⟨S4096x8x8, .f32⟩
  | 91 => ⟨S4096x8x1, .f32⟩
  | 92 => ⟨S4096x8x8, .f32⟩
  | 93 => ⟨S4096x8x8, .f32⟩
  | 94 => ⟨S4096x8x1024, .f32⟩
  | _ => ⟨S4096x8x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x8x1024, .f32⟩

abbrev bufTy : (tb : Table) → Fin (tcTables nBuf tb) → BufTy
  | .hbm, ⟨i, _⟩ => hbmTy i
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c_0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c_1 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_c_2 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_c_3 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_c_4 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_c_5 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_c_6 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_c_7 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_c_8 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_c_9 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_c_10 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_c_11 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_c_12 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_c_13 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_c_14 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_c_15 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_c_16 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_c_17 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_c_18 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_c_19 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_c_20 : Ref sig .tc := ⟨.hbm, 336, rfl⟩
abbrev main_v312 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_c_21 : Ref sig .tc := ⟨.hbm, 346, rfl⟩
abbrev main_v321 : Ref sig .tc := ⟨.hbm, 347, rfl⟩
abbrev main_v322 : Ref sig .tc := ⟨.hbm, 348, rfl⟩
abbrev main_v323 : Ref sig .tc := ⟨.hbm, 349, rfl⟩
abbrev main_v324 : Ref sig .tc := ⟨.hbm, 350, rfl⟩
abbrev main_v325 : Ref sig .tc := ⟨.hbm, 351, rfl⟩
abbrev main_v326 : Ref sig .tc := ⟨.hbm, 352, rfl⟩
abbrev main_v327 : Ref sig .tc := ⟨.hbm, 353, rfl⟩
abbrev main_v328 : Ref sig .tc := ⟨.hbm, 354, rfl⟩
abbrev main_v329 : Ref sig .tc := ⟨.hbm, 355, rfl⟩
abbrev main_v330 : Ref sig .tc := ⟨.hbm, 356, rfl⟩
abbrev main_v331 : Ref sig .tc := ⟨.hbm, 357, rfl⟩
abbrev main_v332 : Ref sig .tc := ⟨.hbm, 358, rfl⟩
abbrev main_v333 : Ref sig .tc := ⟨.hbm, 359, rfl⟩
abbrev main_v334 : Ref sig .tc := ⟨.hbm, 360, rfl⟩
abbrev main_v335 : Ref sig .tc := ⟨.hbm, 361, rfl⟩
abbrev main_v336 : Ref sig .tc := ⟨.hbm, 362, rfl⟩
abbrev main_v337 : Ref sig .tc := ⟨.hbm, 363, rfl⟩
abbrev main_v338 : Ref sig .tc := ⟨.hbm, 364, rfl⟩
abbrev main_v339 : Ref sig .tc := ⟨.hbm, 365, rfl⟩
abbrev main_c_22 : Ref sig .tc := ⟨.hbm, 366, rfl⟩
abbrev main_v340 : Ref sig .tc := ⟨.hbm, 367, rfl⟩
abbrev main_v341 : Ref sig .tc := ⟨.hbm, 368, rfl⟩
abbrev main_v342 : Ref sig .tc := ⟨.hbm, 369, rfl⟩
abbrev main_v343 : Ref sig .tc := ⟨.hbm, 370, rfl⟩
abbrev main_v344 : Ref sig .tc := ⟨.hbm, 371, rfl⟩
abbrev main_v345 : Ref sig .tc := ⟨.hbm, 372, rfl⟩
abbrev main_v346 : Ref sig .tc := ⟨.hbm, 373, rfl⟩
abbrev main_v347 : Ref sig .tc := ⟨.hbm, 374, rfl⟩
abbrev main_v348 : Ref sig .tc := ⟨.hbm, 375, rfl⟩
abbrev main_c_23 : Ref sig .tc := ⟨.hbm, 376, rfl⟩
abbrev main_v349 : Ref sig .tc := ⟨.hbm, 377, rfl⟩
abbrev main_v350 : Ref sig .tc := ⟨.hbm, 378, rfl⟩
abbrev main_v351 : Ref sig .tc := ⟨.hbm, 379, rfl⟩
abbrev main_v352 : Ref sig .tc := ⟨.hbm, 380, rfl⟩
abbrev main_v353 : Ref sig .tc := ⟨.hbm, 381, rfl⟩
abbrev main_v354 : Ref sig .tc := ⟨.hbm, 382, rfl⟩
abbrev main_v355 : Ref sig .tc := ⟨.hbm, 383, rfl⟩
abbrev main_v356 : Ref sig .tc := ⟨.hbm, 384, rfl⟩
abbrev main_v357 : Ref sig .tc := ⟨.hbm, 385, rfl⟩
abbrev main_v358 : Ref sig .tc := ⟨.hbm, 386, rfl⟩
abbrev main_v359 : Ref sig .tc := ⟨.hbm, 387, rfl⟩
abbrev main_v360 : Ref sig .tc := ⟨.hbm, 388, rfl⟩
abbrev main_v361 : Ref sig .tc := ⟨.hbm, 389, rfl⟩
abbrev main_v362 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_v367 : Ref sig .tc := ⟨.hbm, 395, rfl⟩
abbrev main_c_24 : Ref sig .tc := ⟨.hbm, 396, rfl⟩
abbrev main_v368 : Ref sig .tc := ⟨.hbm, 397, rfl⟩
abbrev main_v369 : Ref sig .tc := ⟨.hbm, 398, rfl⟩
abbrev main_v370 : Ref sig .tc := ⟨.hbm, 399, rfl⟩
abbrev main_v371 : Ref sig .tc := ⟨.hbm, 400, rfl⟩
abbrev main_v372 : Ref sig .tc := ⟨.hbm, 401, rfl⟩
abbrev main_v373 : Ref sig .tc := ⟨.hbm, 402, rfl⟩
abbrev main_v374 : Ref sig .tc := ⟨.hbm, 403, rfl⟩
abbrev main_v375 : Ref sig .tc := ⟨.hbm, 404, rfl⟩
abbrev main_v376 : Ref sig .tc := ⟨.hbm, 405, rfl⟩
abbrev main_c_25 : Ref sig .tc := ⟨.hbm, 406, rfl⟩
abbrev main_v377 : Ref sig .tc := ⟨.hbm, 407, rfl⟩
abbrev main_v378 : Ref sig .tc := ⟨.hbm, 408, rfl⟩
abbrev main_v379 : Ref sig .tc := ⟨.hbm, 409, rfl⟩
abbrev main_v380 : Ref sig .tc := ⟨.hbm, 410, rfl⟩
abbrev main_v381 : Ref sig .tc := ⟨.hbm, 411, rfl⟩
abbrev main_v382 : Ref sig .tc := ⟨.hbm, 412, rfl⟩
abbrev main_v383 : Ref sig .tc := ⟨.hbm, 413, rfl⟩
abbrev main_v384 : Ref sig .tc := ⟨.hbm, 414, rfl⟩
abbrev main_v385 : Ref sig .tc := ⟨.hbm, 415, rfl⟩
abbrev main_v386 : Ref sig .tc := ⟨.hbm, 416, rfl⟩
abbrev main_v387 : Ref sig .tc := ⟨.hbm, 417, rfl⟩
abbrev main_v388 : Ref sig .tc := ⟨.hbm, 418, rfl⟩
abbrev main_v389 : Ref sig .tc := ⟨.hbm, 419, rfl⟩
abbrev main_v390 : Ref sig .tc := ⟨.hbm, 420, rfl⟩
abbrev main_v391 : Ref sig .tc := ⟨.hbm, 421, rfl⟩
abbrev main_v392 : Ref sig .tc := ⟨.hbm, 422, rfl⟩
abbrev main_v393 : Ref sig .tc := ⟨.hbm, 423, rfl⟩
abbrev main_v394 : Ref sig .tc := ⟨.hbm, 424, rfl⟩
abbrev main_v395 : Ref sig .tc := ⟨.hbm, 425, rfl⟩
abbrev main_c_26 : Ref sig .tc := ⟨.hbm, 426, rfl⟩
abbrev main_v396 : Ref sig .tc := ⟨.hbm, 427, rfl⟩
abbrev main_v397 : Ref sig .tc := ⟨.hbm, 428, rfl⟩
abbrev main_v398 : Ref sig .tc := ⟨.hbm, 429, rfl⟩
abbrev main_v399 : Ref sig .tc := ⟨.hbm, 430, rfl⟩
abbrev main_v400 : Ref sig .tc := ⟨.hbm, 431, rfl⟩
abbrev main_v401 : Ref sig .tc := ⟨.hbm, 432, rfl⟩
abbrev main_v402 : Ref sig .tc := ⟨.hbm, 433, rfl⟩
abbrev main_v403 : Ref sig .tc := ⟨.hbm, 434, rfl⟩
abbrev main_v404 : Ref sig .tc := ⟨.hbm, 435, rfl⟩
abbrev main_c_27 : Ref sig .tc := ⟨.hbm, 436, rfl⟩
abbrev main_v405 : Ref sig .tc := ⟨.hbm, 437, rfl⟩
abbrev main_v406 : Ref sig .tc := ⟨.hbm, 438, rfl⟩
abbrev main_v407 : Ref sig .tc := ⟨.hbm, 439, rfl⟩
abbrev main_v408 : Ref sig .tc := ⟨.hbm, 440, rfl⟩
abbrev main_v409 : Ref sig .tc := ⟨.hbm, 441, rfl⟩
abbrev main_v410 : Ref sig .tc := ⟨.hbm, 442, rfl⟩
abbrev main_v411 : Ref sig .tc := ⟨.hbm, 443, rfl⟩
abbrev main_v412 : Ref sig .tc := ⟨.hbm, 444, rfl⟩
abbrev main_v413 : Ref sig .tc := ⟨.hbm, 445, rfl⟩
abbrev main_v414 : Ref sig .tc := ⟨.hbm, 446, rfl⟩
abbrev main_v415 : Ref sig .tc := ⟨.hbm, 447, rfl⟩
abbrev main_v416 : Ref sig .tc := ⟨.hbm, 448, rfl⟩
abbrev main_v417 : Ref sig .tc := ⟨.hbm, 449, rfl⟩
abbrev main_v418 : Ref sig .tc := ⟨.hbm, 450, rfl⟩
abbrev main_v419 : Ref sig .tc := ⟨.hbm, 451, rfl⟩
abbrev main_v420 : Ref sig .tc := ⟨.hbm, 452, rfl⟩
abbrev main_v421 : Ref sig .tc := ⟨.hbm, 453, rfl⟩
abbrev main_v422 : Ref sig .tc := ⟨.hbm, 454, rfl⟩
abbrev main_v423 : Ref sig .tc := ⟨.hbm, 455, rfl⟩
abbrev main_c_28 : Ref sig .tc := ⟨.hbm, 456, rfl⟩
abbrev main_v424 : Ref sig .tc := ⟨.hbm, 457, rfl⟩
abbrev main_v425 : Ref sig .tc := ⟨.hbm, 458, rfl⟩
abbrev main_v426 : Ref sig .tc := ⟨.hbm, 459, rfl⟩
abbrev main_v427 : Ref sig .tc := ⟨.hbm, 460, rfl⟩
abbrev main_v428 : Ref sig .tc := ⟨.hbm, 461, rfl⟩
abbrev main_v429 : Ref sig .tc := ⟨.hbm, 462, rfl⟩
abbrev main_v430 : Ref sig .tc := ⟨.hbm, 463, rfl⟩
abbrev main_v431 : Ref sig .tc := ⟨.hbm, 464, rfl⟩
abbrev main_v432 : Ref sig .tc := ⟨.hbm, 465, rfl⟩
abbrev main_c_29 : Ref sig .tc := ⟨.hbm, 466, rfl⟩
abbrev main_v433 : Ref sig .tc := ⟨.hbm, 467, rfl⟩
abbrev main_v434 : Ref sig .tc := ⟨.hbm, 468, rfl⟩
abbrev main_v435 : Ref sig .tc := ⟨.hbm, 469, rfl⟩
abbrev main_v436 : Ref sig .tc := ⟨.hbm, 470, rfl⟩
abbrev main_v437 : Ref sig .tc := ⟨.hbm, 471, rfl⟩
abbrev main_v438 : Ref sig .tc := ⟨.hbm, 472, rfl⟩
abbrev main_v439 : Ref sig .tc := ⟨.hbm, 473, rfl⟩
abbrev main_v440 : Ref sig .tc := ⟨.hbm, 474, rfl⟩
abbrev main_v441 : Ref sig .tc := ⟨.hbm, 475, rfl⟩
abbrev main_v442 : Ref sig .tc := ⟨.hbm, 476, rfl⟩
abbrev main_v443 : Ref sig .tc := ⟨.hbm, 477, rfl⟩
abbrev main_v444 : Ref sig .tc := ⟨.hbm, 478, rfl⟩
abbrev main_v445 : Ref sig .tc := ⟨.hbm, 479, rfl⟩
abbrev main_v446 : Ref sig .tc := ⟨.hbm, 480, rfl⟩
abbrev main_v447 : Ref sig .tc := ⟨.hbm, 481, rfl⟩
abbrev main_v448 : Ref sig .tc := ⟨.hbm, 482, rfl⟩
abbrev main_v449 : Ref sig .tc := ⟨.hbm, 483, rfl⟩
abbrev main_v450 : Ref sig .tc := ⟨.hbm, 484, rfl⟩
abbrev main_v451 : Ref sig .tc := ⟨.hbm, 485, rfl⟩
abbrev main_c_30 : Ref sig .tc := ⟨.hbm, 486, rfl⟩
abbrev main_v452 : Ref sig .tc := ⟨.hbm, 487, rfl⟩
abbrev main_v453 : Ref sig .tc := ⟨.hbm, 488, rfl⟩
abbrev main_v454 : Ref sig .tc := ⟨.hbm, 489, rfl⟩
abbrev main_v455 : Ref sig .tc := ⟨.hbm, 490, rfl⟩
abbrev main_v456 : Ref sig .tc := ⟨.hbm, 491, rfl⟩
abbrev main_v457 : Ref sig .tc := ⟨.hbm, 492, rfl⟩
abbrev main_v458 : Ref sig .tc := ⟨.hbm, 493, rfl⟩
abbrev main_v459 : Ref sig .tc := ⟨.hbm, 494, rfl⟩
abbrev main_v460 : Ref sig .tc := ⟨.hbm, 495, rfl⟩
abbrev main_c_31 : Ref sig .tc := ⟨.hbm, 496, rfl⟩
abbrev main_v461 : Ref sig .tc := ⟨.hbm, 497, rfl⟩
abbrev main_v462 : Ref sig .tc := ⟨.hbm, 498, rfl⟩
abbrev main_v463 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_v474 : Ref sig .tc := ⟨.hbm, 510, rfl⟩
abbrev main_v475 : Ref sig .tc := ⟨.hbm, 511, rfl⟩
abbrev main_v476 : Ref sig .tc := ⟨.hbm, 512, rfl⟩
abbrev main_v477 : Ref sig .tc := ⟨.hbm, 513, rfl⟩
abbrev main_v478 : Ref sig .tc := ⟨.hbm, 514, rfl⟩
abbrev main_v479 : Ref sig .tc := ⟨.hbm, 515, rfl⟩
abbrev main_c_32 : Ref sig .tc := ⟨.hbm, 516, rfl⟩
abbrev main_v480 : Ref sig .tc := ⟨.hbm, 517, rfl⟩
abbrev main_v481 : Ref sig .tc := ⟨.hbm, 518, rfl⟩
abbrev main_v482 : Ref sig .tc := ⟨.hbm, 519, rfl⟩
abbrev main_v483 : Ref sig .tc := ⟨.hbm, 520, rfl⟩
abbrev main_v484 : Ref sig .tc := ⟨.hbm, 521, rfl⟩
abbrev main_v485 : Ref sig .tc := ⟨.hbm, 522, rfl⟩
abbrev main_v486 : Ref sig .tc := ⟨.hbm, 523, rfl⟩
abbrev main_v487 : Ref sig .tc := ⟨.hbm, 524, rfl⟩
abbrev main_v488 : Ref sig .tc := ⟨.hbm, 525, rfl⟩
abbrev main_c_33 : Ref sig .tc := ⟨.hbm, 526, rfl⟩
abbrev main_v489 : Ref sig .tc := ⟨.hbm, 527, rfl⟩
abbrev main_v490 : Ref sig .tc := ⟨.hbm, 528, rfl⟩
abbrev main_v491 : Ref sig .tc := ⟨.hbm, 529, rfl⟩
abbrev main_v492 : Ref sig .tc := ⟨.hbm, 530, rfl⟩
abbrev main_v493 : Ref sig .tc := ⟨.hbm, 531, rfl⟩
abbrev main_v494 : Ref sig .tc := ⟨.hbm, 532, rfl⟩
abbrev main_v495 : Ref sig .tc := ⟨.hbm, 533, rfl⟩
abbrev main_v496 : Ref sig .tc := ⟨.hbm, 534, rfl⟩
abbrev main_v497 : Ref sig .tc := ⟨.hbm, 535, rfl⟩
abbrev main_v498 : Ref sig .tc := ⟨.hbm, 536, rfl⟩
abbrev main_v499 : Ref sig .tc := ⟨.hbm, 537, rfl⟩
abbrev main_v500 : Ref sig .tc := ⟨.hbm, 538, rfl⟩
abbrev main_v501 : Ref sig .tc := ⟨.hbm, 539, rfl⟩
abbrev main_v502 : Ref sig .tc := ⟨.hbm, 540, rfl⟩
abbrev main_v503 : Ref sig .tc := ⟨.hbm, 541, rfl⟩
abbrev main_v504 : Ref sig .tc := ⟨.hbm, 542, rfl⟩
abbrev main_v505 : Ref sig .tc := ⟨.hbm, 543, rfl⟩
abbrev main_v506 : Ref sig .tc := ⟨.hbm, 544, rfl⟩
abbrev main_v507 : Ref sig .tc := ⟨.hbm, 545, rfl⟩
abbrev main_c_34 : Ref sig .tc := ⟨.hbm, 546, rfl⟩
abbrev main_v508 : Ref sig .tc := ⟨.hbm, 547, rfl⟩
abbrev main_v509 : Ref sig .tc := ⟨.hbm, 548, rfl⟩
abbrev main_v510 : Ref sig .tc := ⟨.hbm, 549, rfl⟩
abbrev main_v511 : Ref sig .tc := ⟨.hbm, 550, rfl⟩
abbrev main_v512 : Ref sig .tc := ⟨.hbm, 551, rfl⟩
abbrev main_v513 : Ref sig .tc := ⟨.hbm, 552, rfl⟩
abbrev main_v514 : Ref sig .tc := ⟨.hbm, 553, rfl⟩
abbrev main_v515 : Ref sig .tc := ⟨.hbm, 554, rfl⟩
abbrev main_v516 : Ref sig .tc := ⟨.hbm, 555, rfl⟩
abbrev main_c_35 : Ref sig .tc := ⟨.hbm, 556, rfl⟩
abbrev main_v517 : Ref sig .tc := ⟨.hbm, 557, rfl⟩
abbrev main_v518 : Ref sig .tc := ⟨.hbm, 558, rfl⟩
abbrev main_v519 : Ref sig .tc := ⟨.hbm, 559, rfl⟩
abbrev main_v520 : Ref sig .tc := ⟨.hbm, 560, rfl⟩
abbrev main_v521 : Ref sig .tc := ⟨.hbm, 561, rfl⟩
abbrev main_v522 : Ref sig .tc := ⟨.hbm, 562, rfl⟩
abbrev main_v523 : Ref sig .tc := ⟨.hbm, 563, rfl⟩
abbrev main_v524 : Ref sig .tc := ⟨.hbm, 564, rfl⟩
abbrev main_v525 : Ref sig .tc := ⟨.hbm, 565, rfl⟩
abbrev main_v526 : Ref sig .tc := ⟨.hbm, 566, rfl⟩
abbrev main_v527 : Ref sig .tc := ⟨.hbm, 567, rfl⟩
abbrev main_v528 : Ref sig .tc := ⟨.hbm, 568, rfl⟩
abbrev main_v529 : Ref sig .tc := ⟨.hbm, 569, rfl⟩
abbrev main_v530 : Ref sig .tc := ⟨.hbm, 570, rfl⟩
abbrev main_v531 : Ref sig .tc := ⟨.hbm, 571, rfl⟩
abbrev main_v532 : Ref sig .tc := ⟨.hbm, 572, rfl⟩
abbrev main_v533 : Ref sig .tc := ⟨.hbm, 573, rfl⟩
abbrev main_v534 : Ref sig .tc := ⟨.hbm, 574, rfl⟩
abbrev main_v535 : Ref sig .tc := ⟨.hbm, 575, rfl⟩
abbrev main_c_36 : Ref sig .tc := ⟨.hbm, 576, rfl⟩
abbrev main_v536 : Ref sig .tc := ⟨.hbm, 577, rfl⟩
abbrev main_v537 : Ref sig .tc := ⟨.hbm, 578, rfl⟩
abbrev main_v538 : Ref sig .tc := ⟨.hbm, 579, rfl⟩
abbrev main_v539 : Ref sig .tc := ⟨.hbm, 580, rfl⟩
abbrev main_v540 : Ref sig .tc := ⟨.hbm, 581, rfl⟩
abbrev main_v541 : Ref sig .tc := ⟨.hbm, 582, rfl⟩
abbrev main_v542 : Ref sig .tc := ⟨.hbm, 583, rfl⟩
abbrev main_v543 : Ref sig .tc := ⟨.hbm, 584, rfl⟩
abbrev main_v544 : Ref sig .tc := ⟨.hbm, 585, rfl⟩
abbrev main_c_37 : Ref sig .tc := ⟨.hbm, 586, rfl⟩
abbrev main_v545 : Ref sig .tc := ⟨.hbm, 587, rfl⟩
abbrev main_v546 : Ref sig .tc := ⟨.hbm, 588, rfl⟩
abbrev main_v547 : Ref sig .tc := ⟨.hbm, 589, rfl⟩
abbrev main_v548 : Ref sig .tc := ⟨.hbm, 590, rfl⟩
abbrev main_v549 : Ref sig .tc := ⟨.hbm, 591, rfl⟩
abbrev main_v550 : Ref sig .tc := ⟨.hbm, 592, rfl⟩
abbrev main_v551 : Ref sig .tc := ⟨.hbm, 593, rfl⟩
abbrev main_v552 : Ref sig .tc := ⟨.hbm, 594, rfl⟩
abbrev main_v553 : Ref sig .tc := ⟨.hbm, 595, rfl⟩
abbrev main_v554 : Ref sig .tc := ⟨.hbm, 596, rfl⟩
abbrev main_v555 : Ref sig .tc := ⟨.hbm, 597, rfl⟩
abbrev main_v556 : Ref sig .tc := ⟨.hbm, 598, rfl⟩
abbrev main_v557 : Ref sig .tc := ⟨.hbm, 599, rfl⟩
abbrev main_v558 : Ref sig .tc := ⟨.hbm, 600, rfl⟩
abbrev main_v559 : Ref sig .tc := ⟨.hbm, 601, rfl⟩
abbrev main_v560 : Ref sig .tc := ⟨.hbm, 602, rfl⟩
abbrev main_v561 : Ref sig .tc := ⟨.hbm, 603, rfl⟩
abbrev main_v562 : Ref sig .tc := ⟨.hbm, 604, rfl⟩
abbrev main_v563 : Ref sig .tc := ⟨.hbm, 605, rfl⟩
abbrev main_c_38 : Ref sig .tc := ⟨.hbm, 606, rfl⟩
abbrev main_v564 : Ref sig .tc := ⟨.hbm, 607, rfl⟩
abbrev main_v565 : Ref sig .tc := ⟨.hbm, 608, rfl⟩
abbrev main_v566 : Ref sig .tc := ⟨.hbm, 609, rfl⟩
abbrev main_v567 : Ref sig .tc := ⟨.hbm, 610, rfl⟩
abbrev main_v568 : Ref sig .tc := ⟨.hbm, 611, rfl⟩
abbrev main_v569 : Ref sig .tc := ⟨.hbm, 612, rfl⟩
abbrev main_v570 : Ref sig .tc := ⟨.hbm, 613, rfl⟩
abbrev main_v571 : Ref sig .tc := ⟨.hbm, 614, rfl⟩
abbrev main_v572 : Ref sig .tc := ⟨.hbm, 615, rfl⟩
abbrev main_c_39 : Ref sig .tc := ⟨.hbm, 616, rfl⟩
abbrev main_v573 : Ref sig .tc := ⟨.hbm, 617, rfl⟩
abbrev main_v574 : Ref sig .tc := ⟨.hbm, 618, rfl⟩
abbrev main_v575 : Ref sig .tc := ⟨.hbm, 619, rfl⟩
abbrev main_v576 : Ref sig .tc := ⟨.hbm, 620, rfl⟩
abbrev main_v577 : Ref sig .tc := ⟨.hbm, 621, rfl⟩
abbrev main_v578 : Ref sig .tc := ⟨.hbm, 622, rfl⟩
abbrev main_v579 : Ref sig .tc := ⟨.hbm, 623, rfl⟩
abbrev main_v580 : Ref sig .tc := ⟨.hbm, 624, rfl⟩
abbrev main_v581 : Ref sig .tc := ⟨.hbm, 625, rfl⟩
abbrev main_v582 : Ref sig .tc := ⟨.hbm, 626, rfl⟩
abbrev main_v583 : Ref sig .tc := ⟨.hbm, 627, rfl⟩
abbrev main_v584 : Ref sig .tc := ⟨.hbm, 628, rfl⟩
abbrev main_v585 : Ref sig .tc := ⟨.hbm, 629, rfl⟩
abbrev main_v586 : Ref sig .tc := ⟨.hbm, 630, rfl⟩
abbrev main_v587 : Ref sig .tc := ⟨.hbm, 631, rfl⟩
abbrev main_v588 : Ref sig .tc := ⟨.hbm, 632, rfl⟩
abbrev main_v589 : Ref sig .tc := ⟨.hbm, 633, rfl⟩
abbrev main_v590 : Ref sig .tc := ⟨.hbm, 634, rfl⟩
abbrev main_v591 : Ref sig .tc := ⟨.hbm, 635, rfl⟩
abbrev main_c_40 : Ref sig .tc := ⟨.hbm, 636, rfl⟩
abbrev main_v592 : Ref sig .tc := ⟨.hbm, 637, rfl⟩
abbrev main_v593 : Ref sig .tc := ⟨.hbm, 638, rfl⟩
abbrev main_v594 : Ref sig .tc := ⟨.hbm, 639, rfl⟩
abbrev main_v595 : Ref sig .tc := ⟨.hbm, 640, rfl⟩
abbrev main_v596 : Ref sig .tc := ⟨.hbm, 641, rfl⟩
abbrev main_v597 : Ref sig .tc := ⟨.hbm, 642, rfl⟩
abbrev main_v598 : Ref sig .tc := ⟨.hbm, 643, rfl⟩
abbrev main_v599 : Ref sig .tc := ⟨.hbm, 644, rfl⟩
abbrev main_v600 : Ref sig .tc := ⟨.hbm, 645, rfl⟩
abbrev main_c_41 : Ref sig .tc := ⟨.hbm, 646, rfl⟩
abbrev main_v601 : Ref sig .tc := ⟨.hbm, 647, rfl⟩
abbrev main_v602 : Ref sig .tc := ⟨.hbm, 648, rfl⟩
abbrev main_v603 : Ref sig .tc := ⟨.hbm, 649, rfl⟩
abbrev main_v604 : Ref sig .tc := ⟨.hbm, 650, rfl⟩
abbrev main_v605 : Ref sig .tc := ⟨.hbm, 651, rfl⟩
abbrev main_v606 : Ref sig .tc := ⟨.hbm, 652, rfl⟩
abbrev main_v607 : Ref sig .tc := ⟨.hbm, 653, rfl⟩
abbrev main_v608 : Ref sig .tc := ⟨.hbm, 654, rfl⟩
abbrev main_v609 : Ref sig .tc := ⟨.hbm, 655, rfl⟩
abbrev main_v610 : Ref sig .tc := ⟨.hbm, 656, rfl⟩
abbrev main_v611 : Ref sig .tc := ⟨.hbm, 657, rfl⟩
abbrev main_v612 : Ref sig .tc := ⟨.hbm, 658, rfl⟩
abbrev main_v613 : Ref sig .tc := ⟨.hbm, 659, rfl⟩
abbrev main_v614 : Ref sig .tc := ⟨.hbm, 660, rfl⟩
abbrev main_v615 : Ref sig .tc := ⟨.hbm, 661, rfl⟩
abbrev main_v616 : Ref sig .tc := ⟨.hbm, 662, rfl⟩
abbrev main_v617 : Ref sig .tc := ⟨.hbm, 663, rfl⟩
abbrev main_v618 : Ref sig .tc := ⟨.hbm, 664, rfl⟩
abbrev main_v619 : Ref sig .tc := ⟨.hbm, 665, rfl⟩
abbrev main_c_42 : Ref sig .tc := ⟨.hbm, 666, rfl⟩
abbrev main_v620 : Ref sig .tc := ⟨.hbm, 667, rfl⟩
abbrev main_v621 : Ref sig .tc := ⟨.hbm, 668, rfl⟩
abbrev main_v622 : Ref sig .tc := ⟨.hbm, 669, rfl⟩
abbrev main_v623 : Ref sig .tc := ⟨.hbm, 670, rfl⟩
abbrev main_v624 : Ref sig .tc := ⟨.hbm, 671, rfl⟩
abbrev main_v625 : Ref sig .tc := ⟨.hbm, 672, rfl⟩
abbrev main_v626 : Ref sig .tc := ⟨.hbm, 673, rfl⟩
abbrev main_v627 : Ref sig .tc := ⟨.hbm, 674, rfl⟩
abbrev main_v628 : Ref sig .tc := ⟨.hbm, 675, rfl⟩
abbrev main_c_43 : Ref sig .tc := ⟨.hbm, 676, rfl⟩
abbrev main_v629 : Ref sig .tc := ⟨.hbm, 677, rfl⟩
abbrev main_v630 : Ref sig .tc := ⟨.hbm, 678, rfl⟩
abbrev main_v631 : Ref sig .tc := ⟨.hbm, 679, rfl⟩
abbrev main_v632 : Ref sig .tc := ⟨.hbm, 680, rfl⟩
abbrev main_v633 : Ref sig .tc := ⟨.hbm, 681, rfl⟩
abbrev main_v634 : Ref sig .tc := ⟨.hbm, 682, rfl⟩
abbrev main_v635 : Ref sig .tc := ⟨.hbm, 683, rfl⟩
abbrev main_v636 : Ref sig .tc := ⟨.hbm, 684, rfl⟩
abbrev main_v637 : Ref sig .tc := ⟨.hbm, 685, rfl⟩
abbrev main_v638 : Ref sig .tc := ⟨.hbm, 686, rfl⟩
abbrev main_v639 : Ref sig .tc := ⟨.hbm, 687, rfl⟩
abbrev main_v640 : Ref sig .tc := ⟨.hbm, 688, rfl⟩
abbrev main_v641 : Ref sig .tc := ⟨.hbm, 689, rfl⟩
abbrev main_v642 : Ref sig .tc := ⟨.hbm, 690, rfl⟩
abbrev main_v643 : Ref sig .tc := ⟨.hbm, 691, rfl⟩
abbrev main_v644 : Ref sig .tc := ⟨.hbm, 692, rfl⟩
abbrev main_v645 : Ref sig .tc := ⟨.hbm, 693, rfl⟩
abbrev main_v646 : Ref sig .tc := ⟨.hbm, 694, rfl⟩
abbrev main_v647 : Ref sig .tc := ⟨.hbm, 695, rfl⟩
abbrev main_c_44 : Ref sig .tc := ⟨.hbm, 696, rfl⟩
abbrev main_v648 : Ref sig .tc := ⟨.hbm, 697, rfl⟩
abbrev main_v649 : Ref sig .tc := ⟨.hbm, 698, rfl⟩
abbrev main_v650 : Ref sig .tc := ⟨.hbm, 699, rfl⟩
abbrev main_v651 : Ref sig .tc := ⟨.hbm, 700, rfl⟩
abbrev main_v652 : Ref sig .tc := ⟨.hbm, 701, rfl⟩
abbrev main_v653 : Ref sig .tc := ⟨.hbm, 702, rfl⟩
abbrev main_v654 : Ref sig .tc := ⟨.hbm, 703, rfl⟩
abbrev main_v655 : Ref sig .tc := ⟨.hbm, 704, rfl⟩
abbrev main_v656 : Ref sig .tc := ⟨.hbm, 705, rfl⟩
abbrev main_c_45 : Ref sig .tc := ⟨.hbm, 706, rfl⟩
abbrev main_v657 : Ref sig .tc := ⟨.hbm, 707, rfl⟩
abbrev main_v658 : Ref sig .tc := ⟨.hbm, 708, rfl⟩
abbrev main_v659 : Ref sig .tc := ⟨.hbm, 709, rfl⟩
abbrev main_v660 : Ref sig .tc := ⟨.hbm, 710, rfl⟩
abbrev main_v661 : Ref sig .tc := ⟨.hbm, 711, rfl⟩
abbrev main_v662 : Ref sig .tc := ⟨.hbm, 712, rfl⟩
abbrev main_v663 : Ref sig .tc := ⟨.hbm, 713, rfl⟩
abbrev main_v664 : Ref sig .tc := ⟨.hbm, 714, rfl⟩
abbrev main_v665 : Ref sig .tc := ⟨.hbm, 715, rfl⟩
abbrev main_v666 : Ref sig .tc := ⟨.hbm, 716, rfl⟩
abbrev main_v667 : Ref sig .tc := ⟨.hbm, 717, rfl⟩
abbrev main_v668 : Ref sig .tc := ⟨.hbm, 718, rfl⟩
abbrev main_v669 : Ref sig .tc := ⟨.hbm, 719, rfl⟩
abbrev main_v670 : Ref sig .tc := ⟨.hbm, 720, rfl⟩
abbrev main_v671 : Ref sig .tc := ⟨.hbm, 721, rfl⟩
abbrev main_v672 : Ref sig .tc := ⟨.hbm, 722, rfl⟩
abbrev main_v673 : Ref sig .tc := ⟨.hbm, 723, rfl⟩
abbrev main_v674 : Ref sig .tc := ⟨.hbm, 724, rfl⟩
abbrev main_v675 : Ref sig .tc := ⟨.hbm, 725, rfl⟩
abbrev main_c_46 : Ref sig .tc := ⟨.hbm, 726, rfl⟩
abbrev main_v676 : Ref sig .tc := ⟨.hbm, 727, rfl⟩
abbrev main_v677 : Ref sig .tc := ⟨.hbm, 728, rfl⟩
abbrev main_v678 : Ref sig .tc := ⟨.hbm, 729, rfl⟩
abbrev main_v679 : Ref sig .tc := ⟨.hbm, 730, rfl⟩
abbrev main_v680 : Ref sig .tc := ⟨.hbm, 731, rfl⟩
abbrev main_v681 : Ref sig .tc := ⟨.hbm, 732, rfl⟩
abbrev main_v682 : Ref sig .tc := ⟨.hbm, 733, rfl⟩
abbrev main_v683 : Ref sig .tc := ⟨.hbm, 734, rfl⟩
abbrev main_v684 : Ref sig .tc := ⟨.hbm, 735, rfl⟩
abbrev main_c_47 : Ref sig .tc := ⟨.hbm, 736, rfl⟩
abbrev main_v685 : Ref sig .tc := ⟨.hbm, 737, rfl⟩
abbrev main_v686 : Ref sig .tc := ⟨.hbm, 738, rfl⟩
abbrev main_v687 : Ref sig .tc := ⟨.hbm, 739, rfl⟩
abbrev main_v688 : Ref sig .tc := ⟨.hbm, 740, rfl⟩
abbrev main_v689 : Ref sig .tc := ⟨.hbm, 741, rfl⟩
abbrev main_v690 : Ref sig .tc := ⟨.hbm, 742, rfl⟩
abbrev main_v691 : Ref sig .tc := ⟨.hbm, 743, rfl⟩
abbrev main_v692 : Ref sig .tc := ⟨.hbm, 744, rfl⟩
abbrev main_v693 : Ref sig .tc := ⟨.hbm, 745, rfl⟩
abbrev main_v694 : Ref sig .tc := ⟨.hbm, 746, rfl⟩
abbrev main_v695 : Ref sig .tc := ⟨.hbm, 747, rfl⟩
abbrev main_v696 : Ref sig .tc := ⟨.hbm, 748, rfl⟩
abbrev main_v697 : Ref sig .tc := ⟨.hbm, 749, rfl⟩
abbrev main_v698 : Ref sig .tc := ⟨.hbm, 750, rfl⟩
abbrev main_v699 : Ref sig .tc := ⟨.hbm, 751, rfl⟩
abbrev main_v700 : Ref sig .tc := ⟨.hbm, 752, rfl⟩
abbrev main_v701 : Ref sig .tc := ⟨.hbm, 753, rfl⟩
abbrev main_v702 : Ref sig .tc := ⟨.hbm, 754, rfl⟩
abbrev main_v703 : Ref sig .tc := ⟨.hbm, 755, rfl⟩
abbrev main_c_48 : Ref sig .tc := ⟨.hbm, 756, rfl⟩
abbrev main_v704 : Ref sig .tc := ⟨.hbm, 757, rfl⟩
abbrev main_v705 : Ref sig .tc := ⟨.hbm, 758, rfl⟩
abbrev main_v706 : Ref sig .tc := ⟨.hbm, 759, rfl⟩
abbrev main_v707 : Ref sig .tc := ⟨.hbm, 760, rfl⟩
abbrev main_v708 : Ref sig .tc := ⟨.hbm, 761, rfl⟩
abbrev main_v709 : Ref sig .tc := ⟨.hbm, 762, rfl⟩
abbrev main_v710 : Ref sig .tc := ⟨.hbm, 763, rfl⟩
abbrev main_v711 : Ref sig .tc := ⟨.hbm, 764, rfl⟩
abbrev main_v712 : Ref sig .tc := ⟨.hbm, 765, rfl⟩
abbrev main_c_49 : Ref sig .tc := ⟨.hbm, 766, rfl⟩
abbrev main_v713 : Ref sig .tc := ⟨.hbm, 767, rfl⟩
abbrev main_v714 : Ref sig .tc := ⟨.hbm, 768, rfl⟩
abbrev main_v715 : Ref sig .tc := ⟨.hbm, 769, rfl⟩
abbrev main_v716 : Ref sig .tc := ⟨.hbm, 770, rfl⟩
abbrev main_v717 : Ref sig .tc := ⟨.hbm, 771, rfl⟩
abbrev main_v718 : Ref sig .tc := ⟨.hbm, 772, rfl⟩
abbrev main_v719 : Ref sig .tc := ⟨.hbm, 773, rfl⟩
abbrev main_v720 : Ref sig .tc := ⟨.hbm, 774, rfl⟩
abbrev main_v721 : Ref sig .tc := ⟨.hbm, 775, rfl⟩
abbrev main_v722 : Ref sig .tc := ⟨.hbm, 776, rfl⟩
abbrev main_v723 : Ref sig .tc := ⟨.hbm, 777, rfl⟩
abbrev main_v724 : Ref sig .tc := ⟨.hbm, 778, rfl⟩
abbrev main_v725 : Ref sig .tc := ⟨.hbm, 779, rfl⟩
abbrev main_v726 : Ref sig .tc := ⟨.hbm, 780, rfl⟩
abbrev main_v727 : Ref sig .tc := ⟨.hbm, 781, rfl⟩
abbrev main_v728 : Ref sig .tc := ⟨.hbm, 782, rfl⟩
abbrev main_v729 : Ref sig .tc := ⟨.hbm, 783, rfl⟩
abbrev main_v730 : Ref sig .tc := ⟨.hbm, 784, rfl⟩
abbrev main_v731 : Ref sig .tc := ⟨.hbm, 785, rfl⟩
abbrev main_c_50 : Ref sig .tc := ⟨.hbm, 786, rfl⟩
abbrev main_v732 : Ref sig .tc := ⟨.hbm, 787, rfl⟩
abbrev main_v733 : Ref sig .tc := ⟨.hbm, 788, rfl⟩
abbrev main_v734 : Ref sig .tc := ⟨.hbm, 789, rfl⟩
abbrev main_v735 : Ref sig .tc := ⟨.hbm, 790, rfl⟩
abbrev main_v736 : Ref sig .tc := ⟨.hbm, 791, rfl⟩
abbrev main_v737 : Ref sig .tc := ⟨.hbm, 792, rfl⟩
abbrev main_v738 : Ref sig .tc := ⟨.hbm, 793, rfl⟩
abbrev main_v739 : Ref sig .tc := ⟨.hbm, 794, rfl⟩
abbrev main_v740 : Ref sig .tc := ⟨.hbm, 795, rfl⟩
abbrev main_c_51 : Ref sig .tc := ⟨.hbm, 796, rfl⟩
abbrev main_v741 : Ref sig .tc := ⟨.hbm, 797, rfl⟩
abbrev main_v742 : Ref sig .tc := ⟨.hbm, 798, rfl⟩
abbrev main_v743 : Ref sig .tc := ⟨.hbm, 799, rfl⟩
abbrev main_v744 : Ref sig .tc := ⟨.hbm, 800, rfl⟩
abbrev main_v745 : Ref sig .tc := ⟨.hbm, 801, rfl⟩
abbrev main_v746 : Ref sig .tc := ⟨.hbm, 802, rfl⟩
abbrev main_v747 : Ref sig .tc := ⟨.hbm, 803, rfl⟩
abbrev main_v748 : Ref sig .tc := ⟨.hbm, 804, rfl⟩
abbrev main_v749 : Ref sig .tc := ⟨.hbm, 805, rfl⟩
abbrev main_v750 : Ref sig .tc := ⟨.hbm, 806, rfl⟩
abbrev main_v751 : Ref sig .tc := ⟨.hbm, 807, rfl⟩
abbrev main_v752 : Ref sig .tc := ⟨.hbm, 808, rfl⟩
abbrev main_v753 : Ref sig .tc := ⟨.hbm, 809, rfl⟩
abbrev main_v754 : Ref sig .tc := ⟨.hbm, 810, rfl⟩
abbrev main_v755 : Ref sig .tc := ⟨.hbm, 811, rfl⟩
abbrev main_v756 : Ref sig .tc := ⟨.hbm, 812, rfl⟩
abbrev main_v757 : Ref sig .tc := ⟨.hbm, 813, rfl⟩
abbrev main_v758 : Ref sig .tc := ⟨.hbm, 814, rfl⟩
abbrev main_v759 : Ref sig .tc := ⟨.hbm, 815, rfl⟩
abbrev main_c_52 : Ref sig .tc := ⟨.hbm, 816, rfl⟩
abbrev main_v760 : Ref sig .tc := ⟨.hbm, 817, rfl⟩
abbrev main_v761 : Ref sig .tc := ⟨.hbm, 818, rfl⟩
abbrev main_v762 : Ref sig .tc := ⟨.hbm, 819, rfl⟩
abbrev main_v763 : Ref sig .tc := ⟨.hbm, 820, rfl⟩
abbrev main_v764 : Ref sig .tc := ⟨.hbm, 821, rfl⟩
abbrev main_v765 : Ref sig .tc := ⟨.hbm, 822, rfl⟩
abbrev main_v766 : Ref sig .tc := ⟨.hbm, 823, rfl⟩
abbrev main_v767 : Ref sig .tc := ⟨.hbm, 824, rfl⟩
abbrev main_v768 : Ref sig .tc := ⟨.hbm, 825, rfl⟩
abbrev main_c_53 : Ref sig .tc := ⟨.hbm, 826, rfl⟩
abbrev main_v769 : Ref sig .tc := ⟨.hbm, 827, rfl⟩
abbrev main_v770 : Ref sig .tc := ⟨.hbm, 828, rfl⟩
abbrev main_v771 : Ref sig .tc := ⟨.hbm, 829, rfl⟩
abbrev main_v772 : Ref sig .tc := ⟨.hbm, 830, rfl⟩
abbrev main_v773 : Ref sig .tc := ⟨.hbm, 831, rfl⟩
abbrev main_v774 : Ref sig .tc := ⟨.hbm, 832, rfl⟩
abbrev main_v775 : Ref sig .tc := ⟨.hbm, 833, rfl⟩
abbrev main_v776 : Ref sig .tc := ⟨.hbm, 834, rfl⟩
abbrev main_v777 : Ref sig .tc := ⟨.hbm, 835, rfl⟩
abbrev main_v778 : Ref sig .tc := ⟨.hbm, 836, rfl⟩
abbrev main_v779 : Ref sig .tc := ⟨.hbm, 837, rfl⟩
abbrev main_v780 : Ref sig .tc := ⟨.hbm, 838, rfl⟩
abbrev main_v781 : Ref sig .tc := ⟨.hbm, 839, rfl⟩
abbrev main_v782 : Ref sig .tc := ⟨.hbm, 840, rfl⟩
abbrev main_v783 : Ref sig .tc := ⟨.hbm, 841, rfl⟩
abbrev main_v784 : Ref sig .tc := ⟨.hbm, 842, rfl⟩
abbrev main_v785 : Ref sig .tc := ⟨.hbm, 843, rfl⟩
abbrev main_v786 : Ref sig .tc := ⟨.hbm, 844, rfl⟩
abbrev main_v787 : Ref sig .tc := ⟨.hbm, 845, rfl⟩
abbrev main_c_54 : Ref sig .tc := ⟨.hbm, 846, rfl⟩
abbrev main_v788 : Ref sig .tc := ⟨.hbm, 847, rfl⟩
abbrev main_v789 : Ref sig .tc := ⟨.hbm, 848, rfl⟩
abbrev main_v790 : Ref sig .tc := ⟨.hbm, 849, rfl⟩
abbrev main_v791 : Ref sig .tc := ⟨.hbm, 850, rfl⟩
abbrev main_v792 : Ref sig .tc := ⟨.hbm, 851, rfl⟩
abbrev main_v793 : Ref sig .tc := ⟨.hbm, 852, rfl⟩
abbrev main_v794 : Ref sig .tc := ⟨.hbm, 853, rfl⟩
abbrev main_v795 : Ref sig .tc := ⟨.hbm, 854, rfl⟩
abbrev main_v796 : Ref sig .tc := ⟨.hbm, 855, rfl⟩
abbrev main_c_55 : Ref sig .tc := ⟨.hbm, 856, rfl⟩
abbrev main_v797 : Ref sig .tc := ⟨.hbm, 857, rfl⟩
abbrev main_v798 : Ref sig .tc := ⟨.hbm, 858, rfl⟩
abbrev main_v799 : Ref sig .tc := ⟨.hbm, 859, rfl⟩
abbrev main_v800 : Ref sig .tc := ⟨.hbm, 860, rfl⟩
abbrev main_v801 : Ref sig .tc := ⟨.hbm, 861, rfl⟩
abbrev main_v802 : Ref sig .tc := ⟨.hbm, 862, rfl⟩

abbrev nD : Nat := 1
abbrev τ : Topo := Topo.v7x

variable {F : FTy → Type} [FloatOps F]

class Facts₀ : Prop where
  bcast_S_S8x8 : S_.BroadcastsInDim S8x8 (![] : Fin 0 → Fin S8x8.rank)
  slices_S4096x28_S4096x1_0_0 : S4096x28.Slices ![0, 0] S4096x1
  shapeCasts_S4096x1_S4096 : S4096x1.ShapeCasts S4096
  slices_S8x8_S1x8_0_0 : S8x8.Slices ![0, 0] S1x8
  shapeCasts_S1x8_S8 : S1x8.ShapeCasts S8
  slices_S8x8_S1x8_1_0 : S8x8.Slices ![1, 0] S1x8
  bcast_S8_S1x8_1 : S8.BroadcastsInDim S1x8 (![1] : Fin 1 → Fin S1x8.rank)
  bcast_S4096_S4096x1_0 : S4096.BroadcastsInDim S4096x1 (![0] : Fin 1 → Fin S4096x1.rank)
  bcast_S4096x1_S4096x8_0_1 : S4096x1.BroadcastsInDim S4096x8 (![0, 1] : Fin 2 → Fin S4096x8.rank)
  bcast_S1x8_S4096x8_0_1 : S1x8.BroadcastsInDim S4096x8 (![0, 1] : Fin 2 → Fin S4096x8.rank)
  bcast_S_S1 : S_.BroadcastsInDim S1 (![] : Fin 0 → Fin S1.rank)
  bcast_S8x8_S4096x8x8_1_2 : S8x8.BroadcastsInDim S4096x8x8 (![1, 2] : Fin 2 → Fin S4096x8x8.rank)
  slices_S4096x28_S4096x1_0_1 : S4096x28.Slices ![0, 1] S4096x1
  slices_S4096x8x8_S4096x1x8_0_0_0 : S4096x8x8.Slices ![0, 0, 0] S4096x1x8
  shapeCasts_S4096x1x8_S4096x8 : S4096x1x8.ShapeCasts S4096x8
  slices_S4096x8x8_S4096x1x8_0_2_0 : S4096x8x8.Slices ![0, 2, 0] S4096x1x8
  slices_S4096x28_S4096x1_0_2 : S4096x28.Slices ![0, 2] S4096x1
  slices_S4096x8x8_S4096x1x8_0_3_0 : S4096x8x8.Slices ![0, 3, 0] S4096x1x8
  slices_S4096x28_S4096x1_0_3 : S4096x28.Slices ![0, 3] S4096x1
  slices_S4096x8x8_S4096x1x8_0_4_0 : S4096x8x8.Slices ![0, 4, 0] S4096x1x8
  slices_S4096x28_S4096x1_0_4 : S4096x28.Slices ![0, 4] S4096x1
  slices_S4096x8x8_S4096x1x8_0_5_0 : S4096x8x8.Slices ![0, 5, 0] S4096x1x8
  slices_S4096x28_S4096x1_0_5 : S4096x28.Slices ![0, 5] S4096x1
  slices_S4096x8x8_S4096x1x8_0_6_0 : S4096x8x8.Slices ![0, 6, 0] S4096x1x8
  slices_S4096x28_S4096x1_0_6 : S4096x28.Slices ![0, 6] S4096x1
  slices_S4096x8x8_S4096x1x8_0_7_0 : S4096x8x8.Slices ![0, 7, 0] S4096x1x8
  slices_S4096x28_S4096x1_0_7 : S4096x28.Slices ![0, 7] S4096x1
  slices_S4096x8x8_S4096x1x8_0_1_0 : S4096x8x8.Slices ![0, 1, 0] S4096x1x8
  slices_S4096x28_S4096x1_0_8 : S4096x28.Slices ![0, 8] S4096x1
  slices_S4096x28_S4096x1_0_9 : S4096x28.Slices ![0, 9] S4096x1
  slices_S4096x28_S4096x1_0_10 : S4096x28.Slices ![0, 10] S4096x1
  slices_S4096x28_S4096x1_0_11 : S4096x28.Slices ![0, 11] S4096x1
  slices_S4096x28_S4096x1_0_12 : S4096x28.Slices ![0, 12] S4096x1
  slices_S4096x28_S4096x1_0_13 : S4096x28.Slices ![0, 13] S4096x1
  slices_S4096x28_S4096x1_0_14 : S4096x28.Slices ![0, 14] S4096x1
  slices_S4096x28_S4096x1_0_15 : S4096x28.Slices ![0, 15] S4096x1
  slices_S4096x28_S4096x1_0_16 : S4096x28.Slices ![0, 16] S4096x1
  slices_S4096x28_S4096x1_0_17 : S4096x28.Slices ![0, 17] S4096x1
  slices_S4096x28_S4096x1_0_18 : S4096x28.Slices ![0, 18] S4096x1
  slices_S4096x28_S4096x1_0_19 : S4096x28.Slices ![0, 19] S4096x1
  slices_S4096x28_S4096x1_0_20 : S4096x28.Slices ![0, 20] S4096x1
  slices_S4096x28_S4096x1_0_21 : S4096x28.Slices ![0, 21] S4096x1
  slices_S4096x28_S4096x1_0_22 : S4096x28.Slices ![0, 22] S4096x1
  slices_S4096x28_S4096x1_0_23 : S4096x28.Slices ![0, 23] S4096x1
  slices_S4096x28_S4096x1_0_24 : S4096x28.Slices ![0, 24] S4096x1
  slices_S4096x28_S4096x1_0_25 : S4096x28.Slices ![0, 25] S4096x1
  slices_S4096x28_S4096x1_0_26 : S4096x28.Slices ![0, 26] S4096x1
  slices_S4096x28_S4096x1_0_27 : S4096x28.Slices ![0, 27] S4096x1
  bcast_S4096x8_S4096x8x1_0_1 : S4096x8.BroadcastsInDim S4096x8x1 (![0, 1] : Fin 2 → Fin S4096x8x1.rank)
  bcast_S4096x8x1_S4096x8x8_0_1_2 : S4096x8x1.BroadcastsInDim S4096x8x8 (![0, 1, 2] : Fin 3 → Fin S4096x8x8.rank)
  scatter_S4096x8x8_S1_S4096x8_01_1_1_0_wf : ScatterDims.WF S4096x8x8 S1 S4096x8 [0, 1] [1] [1] 0
  dot_S4096x8x8_S4096x8x1024_S4096x8x1024_2_1_1_2_0_0_wf : DotDims.WF S4096x8x8 S4096x8x1024 S4096x8x1024 [2] [1] [1] [2] [0] [0]

variable [Facts₀]

def scatter_S4096x8x8_S1_S4096x8_01_1_1_0 : ScatterDims S4096x8x8 S1 S4096x8 where
  updateWindowDims := [0, 1]
  insertedWindowDims := [1]
  scatterDimsToOperandDims := [1]
  indexVectorDim := 0
  wf := scatter_S4096x8x8_S1_S4096x8_01_1_1_0_wf
def dot_S4096x8x8_S4096x8x1024_S4096x8x1024_2_1_1_2_0_0 : DotDims S4096x8x8 S4096x8x1024 S4096x8x1024 where
  lhsContracting := [2]
  rhsContracting := [1]
  lhsNonContracting := [1]
  rhsNonContracting := [2]
  lhsBatch := [0]
  rhsBatch := [0]
  wf := dot_S4096x8x8_S4096x8x1024_S4096x8x1024_2_1_1_2_0_0_wf

class Facts : Prop extends Facts₀ where

variable [Facts]
-- ==== Proof.Spec.lean ====
/-
  The mathematics both programs compute, stated once over the extended reals.

  For one block `b` the 28 angles `a 0 … a 27` build an 8×8 matrix by successive plane (Givens) rotations: starting
  from the identity, step `n` replaces rows `i = pairI n` and `j = pairJ n` (the pairs `i < j` in lexicographic
  order) by `cos (a n) · row i − sin (a n) · row j` and `sin (a n) · row i + cos (a n) · row j`, every other row kept.
  The result is `mat a 28`; row `r` is then scaled by `mu r` and the scaled matrix applied to the block's 8×1024 data:
  `out r l = Σ_j (mat a 28 r j · mu r) · x j l`.
-/
import Idealize.ShloMosaic.PureOps.Ideal
import Idealize.ShloMosaic.Lib.ValueIdx

noncomputable section

open scoped BigOperators

namespace Cert.Givens

open Idealize.ShloMosaic Idealize.ShloMosaic.ValueIdx

/-- The upper row of the `n`-th rotation pair. -/
def pairI : Fin 28 → Fin 8 := ![0, 0, 0, 0, 0, 0, 0, 1, 1, 1, 1, 1, 1, 2, 2, 2, 2, 2, 3, 3, 3, 3, 4, 4, 4, 5, 5, 6]
/-- The lower row of the `n`-th rotation pair. -/
def pairJ : Fin 28 → Fin 8 := ![1, 2, 3, 4, 5, 6, 7, 2, 3, 4, 5, 6, 7, 3, 4, 5, 6, 7, 4, 5, 6, 7, 5, 6, 7, 6, 7, 7]

/-- The identity matrix, with the entries as the real numbers 1 and 0. -/
def eye (r q : Fin 8) : EReal := if r = q then ((1 : ℝ) : EReal) else ((0 : ℝ) : EReal)

/-- One plane rotation of rows `i` and `j` by the angle whose cosine and sine are `c` and `s`. -/
def rot (c s : EReal) (i j : Fin 8) (M : Fin 8 → Fin 8 → EReal) : Fin 8 → Fin 8 → EReal :=
  fun r q => if r = i then c * M i q - s * M j q else if r = j then s * M i q + c * M j q else M r q

/-- The matrix after the first `n` rotations. -/
def mat (a : Fin 28 → EReal) : ℕ → Fin 8 → Fin 8 → EReal
  | 0 => eye
  | n + 1 => if h : n < 28 then rot (Ideal.cos (a ⟨n, h⟩)) (Ideal.sin (a ⟨n, h⟩)) (pairI ⟨n, h⟩) (pairJ ⟨n, h⟩) (mat a n)
      else mat a n

theorem mat_succ (a : Fin 28 → EReal) (n : ℕ) (h : n < 28) :
    mat a (n + 1) = rot (Ideal.cos (a ⟨n, h⟩)) (Ideal.sin (a ⟨n, h⟩)) (pairI ⟨n, h⟩) (pairJ ⟨n, h⟩) (mat a n) := by
  show (if h : n < 28 then _ else _) = _
  rw [dif_pos h]

/-- The upper rotated row. -/
theorem mat_succ_top (a : Fin 28 → EReal) (n : ℕ) (h : n < 28) (r : Fin 8) (hr : r = pairI ⟨n, h⟩) (q : Fin 8) :
    mat a (n + 1) r q = Ideal.cos (a ⟨n, h⟩) * mat a n (pairI ⟨n, h⟩) q - Ideal.sin (a ⟨n, h⟩) * mat a n (pairJ ⟨n, h⟩) q := by
  rw [mat_succ a n h]; unfold rot; rw [if_pos hr]

/-- The lower rotated row. -/
theorem mat_succ_btm (a : Fin 28 → EReal) (n : ℕ) (h : n < 28) (r : Fin 8) (hi : r ≠ pairI ⟨n, h⟩) (hr : r = pairJ ⟨n, h⟩)
    (q : Fin 8) :
    mat a (n + 1) r q = Ideal.sin (a ⟨n, h⟩) * mat a n (pairI ⟨n, h⟩) q + Ideal.cos (a ⟨n, h⟩) * mat a n (pairJ ⟨n, h⟩) q := by
  rw [mat_succ a n h]; unfold rot; rw [if_neg hi, if_pos hr]

/-- A row outside the pair is kept. -/
theorem mat_succ_keep (a : Fin 28 → EReal) (n : ℕ) (h : n < 28) (r : Fin 8) (hi : r ≠ pairI ⟨n, h⟩) (hj : r ≠ pairJ ⟨n, h⟩)
    (q : Fin 8) : mat a (n + 1) r q = mat a n r q := by
  rw [mat_succ a n h]; unfold rot; rw [if_neg hi, if_neg hj]

/-- The whole result: block `b`, output row `r`, lane `l`. -/
def G (X : (⟨3, ![4096, 8, 1024]⟩ : Shape).Idx → EReal) (A : (⟨2, ![4096, 28]⟩ : Shape).Idx → EReal)
    (Mu : (⟨2, ![4096, 8]⟩ : Shape).Idx → EReal) : (⟨3, ![4096, 8, 1024]⟩ : Shape).Idx → EReal :=
  fun i => ∑ j : Fin 8, (mat (fun k => A (ix2 (i 0) k)) 28 (i 1) j * Mu (ix2 (i 0) (i 1))) * X (ix3 (i 0) j (i 2))

end Cert.Givens

end
-- ==== Proof.KProg.lean ====
/-
  The kernel body as straight-line code over a few generic vector steps.

  A grid point holds 128 sub-blocks. The body keeps the eight rows of each sub-block's 8×8 matrix as eight 128×8
  vectors (entry (p, q) of vector r is entry (r, q) of sub-block p's matrix), starts from the identity, and applies
  the 28 plane rotations in order: rotation n of rows (i, j) replaces vector i by cos·v_i − sin·v_j and vector j by
  sin·v_i + cos·v_j, the cosine and sine of column n of the angles broadcast along the row. Each final row r is scaled
  by column r of the scale factors, and output row r is the sum over j of (column j of scaled row r) · (row j of the
  data), accumulated left to right; the eight output rows are stacked along the middle axis.
  The printed body IS this program: by unfolding definitions.
-/
import proofs.«129155_j44933947851298_2_alg».proof.Proof.Gen.KernelIdeal.Frame

noncomputable section
namespace Cert.KernelIdeal.KProg
open Cert.KernelIdeal Cert.KernelIdeal.Gen Idealize.ShloMosaic
variable {F : FTy → Type} [FloatOps F]

/-- One row of the 8×8 identity (the 0/1 comparison of two iotas), broadcast to the 128 sub-blocks. -/
def eyeRow (off : Fin 2 → ℕ) (h : S8x8.Slices off S1x8) : FVec F S128x8 .f32 :=
  broadcastTo S128x8 (shapeCast S1x8 (shapeCast S8 (extractStridedSlice S1x8 off (k0_pay1 (F := F)) h) shapeCasts_S1x8_S8) shapeCasts_S8_S1x8) broadcasts_S1x8_S128x8

/-- One column of the angles. -/
def angCol (off : Fin 2 → ℕ) (v1 : Vec F S128x28 .f32) (h : S128x28.Slices off S128x1) : FVec F S128x1 .f32 :=
  extractStridedSlice S128x1 off v1 h

/-- The upper row of a rotation: cos a · vt − sin a · vb. -/
def rotT (a : FVec F S128x1 .f32) (vt vb : FVec F S128x8 .f32) : FVec F S128x8 .f32 :=
  subf (mulf (broadcastTo S128x8 (cos a) broadcasts_S128x1_S128x8) vt) (mulf (broadcastTo S128x8 (sin a) broadcasts_S128x1_S128x8) vb)

/-- The lower row of a rotation: sin a · vt + cos a · vb. -/
def rotB (a : FVec F S128x1 .f32) (vt vb : FVec F S128x8 .f32) : FVec F S128x8 .f32 :=
  addf (mulf (broadcastTo S128x8 (sin a) broadcasts_S128x1_S128x8) vt) (mulf (broadcastTo S128x8 (cos a) broadcasts_S128x1_S128x8) vb)

/-- A row scaled by one column of the scale factors. -/
def scaleRow (row : FVec F S128x8 .f32) (mcol : FVec F S128x1 .f32) : FVec F S128x8 .f32 :=
  mulf row (broadcastTo S128x8 mcol broadcasts_S128x1_S128x8)

/-- One term of an output row: a column of the scaled row times a row of the data. -/
def term (srow : FVec F S128x8 .f32) (offr : Fin 2 → ℕ) (hr : S128x8.Slices offr S128x1) (v0 : Vec F S128x8x1024 .f32)
    (offx : Fin 3 → ℕ) (hx : S128x8x1024.Slices offx S128x1x1024) : FVec F S128x1024 .f32 :=
  mulf (broadcastTo S128x1024 (extractStridedSlice S128x1 offr srow hr) broadcasts_S128x1_S128x1024)
    (shapeCast S128x1024 (extractStridedSlice S128x1x1024 offx v0 hx) shapeCasts_S128x1x1024_S128x1024)

/-- An output row: the eight terms summed left to right. -/
def accRow (srow : FVec F S128x8 .f32) (v0 : Vec F S128x8x1024 .f32) : FVec F S128x1024 .f32 :=
  addf (addf (addf (addf (addf (addf (addf (term srow ![0, 0] slices_S128x8_o0_0_S128x1 v0 ![0, 0, 0] slices_S128x8x1024_o0_0_0_S128x1x1024) (term srow ![0, 1] slices_S128x8_o0_1_S128x1 v0 ![0, 1, 0] slices_S128x8x1024_o0_1_0_S128x1x1024)) (term srow ![0, 2] slices_S128x8_o0_2_S128x1 v0 ![0, 2, 0] slices_S128x8x1024_o0_2_0_S128x1x1024)) (term srow ![0, 3] slices_S128x8_o0_3_S128x1 v0 ![0, 3, 0] slices_S128x8x1024_o0_3_0_S128x1x1024)) (term srow ![0, 4] slices_S128x8_o0_4_S128x1 v0 ![0, 4, 0] slices_S128x8x1024_o0_4_0_S128x1x1024)) (term srow ![0, 5] slices_S128x8_o0_5_S128x1 v0 ![0, 5, 0] slices_S128x8x1024_o0_5_0_S128x1x1024)) (term srow ![0, 6] slices_S128x8_o0_6_S128x1 v0 ![0, 6, 0] slices_S128x8x1024_o0_6_0_S128x1x1024)) (term srow ![0, 7] slices_S128x8_o0_7_S128x1 v0 ![0, 7, 0] slices_S128x8x1024_o0_7_0_S128x1x1024)

/-- Row 0 of the identity, on every one of the 128 sub-blocks. -/
def e0 : FVec F S128x8 .f32 := eyeRow ![0, 0] slices_S8x8_o0_0_S1x8

/-- Row 1 of the identity, on every one of the 128 sub-blocks. -/
def e1 : FVec F S128x8 .f32 := eyeRow ![1, 0] slices_S8x8_o1_0_S1x8

/-- Row 2 of the identity, on every one of the 128 sub-blocks. -/
def e2 : FVec F S128x8 .f32 := eyeRow ![2, 0] slices_S8x8_o2_0_S1x8

/-- Row 3 of the identity, on every one of the 128 sub-blocks. -/
def e3 : FVec F S128x8 .f32 := eyeRow ![3, 0] slices_S8x8_o3_0_S1x8

/-- Row 4 of the identity, on every one of the 128 sub-blocks. -/
def e4 : FVec F S128x8 .f32 := eyeRow ![4, 0] slices_S8x8_o4_0_S1x8

/-- Row 5 of the identity, on every one of the 128 sub-blocks. -/
def e5 : FVec F S128x8 .f32 := eyeRow ![5, 0] slices_S8x8_o5_0_S1x8

/-- Row 6 of the identity, on every one of the 128 sub-blocks. -/
def e6 : FVec F S128x8 .f32 := eyeRow ![6, 0] slices_S8x8_o6_0_S1x8

/-- Row 7 of the identity, on every one of the 128 sub-blocks. -/
def e7 : FVec F S128x8 .f32 := eyeRow ![7, 0] slices_S8x8_o7_0_S1x8

/-- Rotation 0, rows (0, 1): the new upper and lower rows. -/
def t0 (v1 : Vec F S128x28 .f32) : FVec F S128x8 .f32 := rotT (angCol ![0, 0] v1 slices_S128x28_o0_0_S128x1) (e0 (F := F)) (e1 (F := F))
def b0 (v1 : Vec F S128x28 .f32) : FVec F S128x8 .f32 := rotB (angCol ![0, 0] v1 slices_S128x28_o0_0_S128x1) (e0 (F := F)) (e1 (F := F))

/-- Rotation 1, rows (0, 2): the new upper and lower rows. -/
def t1 (v1 : Vec F S128x28 .f32) : FVec F S128x8 .f32 := rotT (angCol ![0, 1] v1 slices_S128x28_o0_1_S128x1) (t0 v1) (e2 (F := F))
def b1 (v1 : Vec F S128x28 .f32) : FVec F S128x8 .f32 := rotB (angCol ![0, 1] v1 slices_S128x28_o0_1_S128x1) (t0 v1) (e2 (F := F))

/-- Rotation 2, rows (0, 3): the new upper and lower rows. -/
def t2 (v1 : Vec F S128x28 .f32) : FVec F S128x8 .f32 := rotT (angCol ![0, 2] v1 slices_S128x28_o0_2_S128x1) (t1 v1) (e3 (F := F))
def b2 (v1 : Vec F S128x28 .f32) : FVec F S128x8 .f32 := rotB (angCol ![0, 2] v1 slices_S128x28_o0_2_S128x1) (t1 v1) (e3 (F := F))

/-- Rotation 3, rows (0, 4): the new upper and lower rows. -/
def t3 (v1 : Vec F S128x28 .f32) : FVec F S128x8 .f32 := rotT (angCol ![0, 3] v1 slices_S128x28_o0_3_S128x1) (t2 v1) (e4 (F := F))
def b3 (v1 : Vec F S128x28 .f32) : FVec F S128x8 .f32 := rotB (angCol ![0, 3] v1 slices_S128x28_o0_3_S128x1) (t2 v1) (e4 (F := F))

/-- Rotation 4, rows (0, 5): the new upper and lower rows. -/
def t4 (v1 : Vec F S128x28 .f32) : FVec F S128x8 .f32 := rotT (angCol ![0, 4] v1 slices_S128x28_o0_4_S128x1) (t3 v1) (e5 (F := F))
def b4 (v1 : Vec F S128x28 .f32) : FVec F S128x8 .f32 := rotB (angCol ![0, 4] v1 slices_S128x28_o0_4_S128x1) (t3 v1) (e5 (F := F))

/-- Rotation 5, rows (0, 6): the new upper and lower rows. -/
def t5 (v1 : Vec F S128x28 .f32) : FVec F S128x8 .f32 := rotT (angCol ![0, 5] v1 slices_S128x28_o0_5_S128x1) (t4 v1) (e6 (F := F))
def b5 (v1 : Vec F S128x28 .f32) : FVec F S128x8 .f32 := rotB (angCol ![0, 5] v1 slices_S128x28_o0_5_S128x1) (t4 v1) (e6 (F := F))

/-- Rotation 6, rows (0, 7): the new upper and lower rows. -/
def t6 (v1 : Vec F S128x28 .f32) : FVec F S128x8 .f32 := rotT (angCol ![0, 6] v1 slices_S128x28_o0_6_S128x1) (t5 v1) (e7 (F := F))
def b6 (v1 : Vec F S128x28 .f32) : FVec F S128x8 .f32 := rotB (angCol ![0, 6] v1 slices_S128x28_o0_6_S128x1) (t5 v1) (e7 (F := F))

/-- Rotation 7, rows (1, 2): the new upper and lower rows. -/
def t7 (v1 : Vec F S128x28 .f32) : FVec F S128x8 .f32 := rotT (angCol ![0, 7] v1 slices_S128x28_o0_7_S128x1) (b0 v1) (b1 v1)
def b7 (v1 : Vec F S128x28 .f32) : FVec F S128x8 .f32 := rotB (angCol ![0, 7] v1 slices_S128x28_o0_7_S128x1) (b0 v1) (b1 v1)

/-- Rotation 8, rows (1, 3): the new upper and lower rows. -/
def t8 (v1 : Vec F S128x28 .f32) : FVec F S128x8 .f32 := rotT (angCol ![0, 8] v1 slices_S128x28_o0_8_S128x1) (t7 v1) (b2 v1)
def b8 (v1 : Vec F S128x28 .f32) : FVec F S128x8 .f32 := rotB (angCol ![0, 8] v1 slices_S128x28_o0_8_S128x1) (t7 v1) (b2 v1)

/-- Rotation 9, rows (1, 4): the new upper and lower rows. -/
def t9 (v1 : Vec F S128x28 .f32) : FVec F S128x8 .f32 := rotT (angCol ![0, 9] v1 slices_S128x28_o0_9_S128x1) (t8 v1) (b3 v1)
def b9 (v1 : Vec F S128x28 .f32) : FVec F S128x8 .f32 := rotB (angCol ![0, 9] v1 slices_S128x28_o0_9_S128x1) (t8 v1) (b3 v1)

/-- Rotation 10, rows (1, 5): the new upper and lower rows. -/
def t10 (v1 : Vec F S128x28 .f32) : FVec F S128x8 .f32 := rotT (angCol ![0, 10] v1 slices_S128x28_o0_10_S128x1) (t9 v1) (b4 v1)
def b10 (v1 : Vec F S128x28 .f32) : FVec F S128x8 .f32 := rotB (angCol ![0, 10] v1 slices_S128x28_o0_10_S128x1) (t9 v1) (b4 v1)

/-- Rotation 11, rows (1, 6): the new upper and lower rows. -/
def t11 (v1 : Vec F S128x28 .f32) : FVec F S128x8 .f32 := rotT (angCol ![0, 11] v1 slices_S128x28_o0_11_S128x1) (t10 v1) (b5 v1)
def b11 (v1 : Vec F S128x28 .f32) : FVec F S128x8 .f32 := rotB (angCol ![0, 11] v1 slices_S128x28_o0_11_S128x1) (t10 v1) (b5 v1)

/-- Rotation 12, rows (1, 7): the new upper and lower rows. -/
def t12 (v1 : Vec F S128x28 .f32) : FVec F S128x8 .f32 := rotT (angCol ![0, 12] v1 slices_S128x28_o0_12_S128x1) (t11 v1) (b6 v1)
def b12 (v1 : Vec F S128x28 .f32) : FVec F S128x8 .f32 := rotB (angCol ![0, 12] v1 slices_S128x28_o0_12_S128x1) (t11 v1) (b6 v1)

/-- Rotation 13, rows (2, 3): the new upper and lower rows. -/
def t13 (v1 : Vec F S128x28 .f32) : FVec F S128x8 .f32 := rotT (angCol ![0, 13] v1 slices_S128x28_o0_13_S128x1) (b7 v1) (b8 v1)
def b13 (v1 : Vec F S128x28 .f32) : FVec F S128x8 .f32 := rotB (angCol ![0, 13] v1 slices_S128x28_o0_13_S128x1) (b7 v1) (b8 v1)

/-- Rotation 14, rows (2, 4): the new upper and lower rows. -/
def t14 (v1 : Vec F S128x28 .f32) : FVec F S128x8 .f32 := rotT (angCol ![0, 14] v1 slices_S128x28_o0_14_S128x1) (t13 v1) (b9 v1)
def b14 (v1 : Vec F S128x28 .f32) : FVec F S128x8 .f32 := rotB (angCol ![0, 14] v1 slices_S128x28_o0_14_S128x1) (t13 v1) (b9 v1)

/-- Rotation 15, rows (2, 5): the new upper and lower rows. -/
def t15 (v1 : Vec F S128x28 .f32) : FVec F S128x8 .f32 := rotT (angCol ![0, 15] v1 slices_S128x28_o0_15_S128x1) (t14 v1) (b10 v1)
def b15 (v1 : Vec F S128x28 .f32) : FVec F S128x8 .f32 := rotB (angCol ![0, 15] v1 slices_S128x28_o0_15_S128x1) (t14 v1) (b10 v1)

/-- Rotation 16, rows (2, 6): the new upper and lower rows. -/
def t16 (v1 : Vec F S128x28 .f32) : FVec F S128x8 .f32 := rotT (angCol ![0, 16] v1 slices_S128x28_o0_16_S128x1) (t15 v1) (b11 v1)
def b16 (v1 : Vec F S128x28 .f32) : FVec F S128x8 .f32 := rotB (angCol ![0, 16] v1 slices_S128x28_o0_16_S128x1) (t15 v1) (b11 v1)

/-- Rotation 17, rows (2, 7): the new upper and lower rows. -/
def t17 (v1 : Vec F S128x28 .f32) : FVec F S128x8 .f32 := rotT (angCol ![0, 17] v1 slices_S128x28_o0_17_S128x1) (t16 v1) (b12 v1)
def b17 (v1 : Vec F S128x28 .f32) : FVec F S128x8 .f32 := rotB (angCol ![0, 17] v1 slices_S128x28_o0_17_S128x1) (t16 v1) (b12 v1)

/-- Rotation 18, rows (3, 4): the new upper and lower rows. -/
def t18 (v1 : Vec F S128x28 .f32) : FVec F S128x8 .f32 := rotT (angCol ![0, 18] v1 slices_S128x28_o0_18_S128x1) (b13 v1) (b14 v1)
def b18 (v1 : Vec F S128x28 .f32) : FVec F S128x8 .f32 := rotB (angCol ![0, 18] v1 slices_S128x28_o0_18_S128x1) (b13 v1) (b14 v1)

/-- Rotation 19, rows (3, 5): the new upper and lower rows. -/
def t19 (v1 : Vec F S128x28 .f32) : FVec F S128x8 .f32 := rotT (angCol ![0, 19] v1 slices_S128x28_o0_19_S128x1) (t18 v1) (b15 v1)
def b19 (v1 : Vec F S128x28 .f32) : FVec F S128x8 .f32 := rotB (angCol ![0, 19] v1 slices_S128x28_o0_19_S128x1) (t18 v1) (b15 v1)

/-- Rotation 20, rows (3, 6): the new upper and lower rows. -/
def t20 (v1 : Vec F S128x28 .f32) : FVec F S128x8 .f32 := rotT (angCol ![0, 20] v1 slices_S128x28_o0_20_S128x1) (t19 v1) (b16 v1)
def b20 (v1 : Vec F S128x28 .f32) : FVec F S128x8 .f32 := rotB (angCol ![0, 20] v1 slices_S128x28_o0_20_S128x1) (t19 v1) (b16 v1)

/-- Rotation 21, rows (3, 7): the new upper and lower rows. -/
def t21 (v1 : Vec F S128x28 .f32) : FVec F S128x8 .f32 := rotT (angCol ![0, 21] v1 slices_S128x28_o0_21_S128x1) (t20 v1) (b17 v1)
def b21 (v1 : Vec F S128x28 .f32) : FVec F S128x8 .f32 := rotB (angCol ![0, 21] v1 slices_S128x28_o0_21_S128x1) (t20 v1) (b17 v1)

/-- Rotation 22, rows (4, 5): the new upper and lower rows. -/
def t22 (v1 : Vec F S128x28 .f32) : FVec F S128x8 .f32 := rotT (angCol ![0, 22] v1 slices_S128x28_o0_22_S128x1) (b18 v1) (b19 v1)
def b22 (v1 : Vec F S128x28 .f32) : FVec F S128x8 .f32 := rotB (angCol ![0, 22] v1 slices_S128x28_o0_22_S128x1) (b18 v1) (b19 v1)

/-- Rotation 23, rows (4, 6): the new upper and lower rows. -/
def t23 (v1 : Vec F S128x28 .f32) : FVec F S128x8 .f32 := rotT (angCol ![0, 23] v1 slices_S128x28_o0_23_S128x1) (t22 v1) (b20 v1)
def b23 (v1 : Vec F S128x28 .f32) : FVec F S128x8 .f32 := rotB (angCol ![0, 23] v1 slices_S128x28_o0_23_S128x1) (t22 v1) (b20 v1)

/-- Rotation 24, rows (4, 7): the new upper and lower rows. -/
def t24 (v1 : Vec F S128x28 .f32) : FVec F S128x8 .f32 := rotT (angCol ![0, 24] v1 slices_S128x28_o0_24_S128x1) (t23 v1) (b21 v1)
def b24 (v1 : Vec F S128x28 .f32) : FVec F S128x8 .f32 := rotB (angCol ![0, 24] v1 slices_S128x28_o0_24_S128x1) (t23 v1) (b21 v1)

/-- Rotation 25, rows (5, 6): the new upper and lower rows. -/
def t25 (v1 : Vec F S128x28 .f32) : FVec F S128x8 .f32 := rotT (angCol ![0, 25] v1 slices_S128x28_o0_25_S128x1) (b22 v1) (b23 v1)
def b25 (v1 : Vec F S128x28 .f32) : FVec F S128x8 .f32 := rotB (angCol ![0, 25] v1 slices_S128x28_o0_25_S128x1) (b22 v1) (b23 v1)

/-- Rotation 26, rows (5, 7): the new upper and lower rows. -/
def t26 (v1 : Vec F S128x28 .f32) : FVec F S128x8 .f32 := rotT (angCol ![0, 26] v1 slices_S128x28_o0_26_S128x1) (t25 v1) (b24 v1)
def b26 (v1 : Vec F S128x28 .f32) : FVec F S128x8 .f32 := rotB (angCol ![0, 26] v1 slices_S128x28_o0_26_S128x1) (t25 v1) (b24 v1)

/-- Rotation 27, rows (6, 7): the new upper and lower rows. -/
def t27 (v1 : Vec F S128x28 .f32) : FVec F S128x8 .f32 := rotT (angCol ![0, 27] v1 slices_S128x28_o0_27_S128x1) (b25 v1) (b26 v1)
def b27 (v1 : Vec F S128x28 .f32) : FVec F S128x8 .f32 := rotB (angCol ![0, 27] v1 slices_S128x28_o0_27_S128x1) (b25 v1) (b26 v1)

/-- Final row 0, scaled by column 0 of the block's scale factors. -/
def s0 (v1 : Vec F S128x28 .f32) (v2 : Vec F S128x8 .f32) : FVec F S128x8 .f32 := scaleRow (t6 v1) (extractStridedSlice S128x1 ![0, 0] v2 slices_S128x8_o0_0_S128x1)

/-- Final row 1, scaled by column 1 of the block's scale factors. -/
def s1 (v1 : Vec F S128x28 .f32) (v2 : Vec F S128x8 .f32) : FVec F S128x8 .f32 := scaleRow (t12 v1) (extractStridedSlice S128x1 ![0, 1] v2 slices_S128x8_o0_1_S128x1)

/-- Final row 2, scaled by column 2 of the block's scale factors. -/
def s2 (v1 : Vec F S128x28 .f32) (v2 : Vec F S128x8 .f32) : FVec F S128x8 .f32 := scaleRow (t17 v1) (extractStridedSlice S128x1 ![0, 2] v2 slices_S128x8_o0_2_S128x1)

/-- Final row 3, scaled by column 3 of the block's scale factors. -/
def s3 (v1 : Vec F S128x28 .f32) (v2 : Vec F S128x8 .f32) : FVec F S128x8 .f32 := scaleRow (t21 v1) (extractStridedSlice S128x1 ![0, 3] v2 slices_S128x8_o0_3_S128x1)

/-- Final row 4, scaled by column 4 of the block's scale factors. -/
def s4 (v1 : Vec F S128x28 .f32) (v2 : Vec F S128x8 .f32) : FVec F S128x8 .f32 := scaleRow (t24 v1) (extractStridedSlice S128x1 ![0, 4] v2 slices_S128x8_o0_4_S128x1)

/-- Final row 5, scaled by column 5 of the block's scale factors. -/
def s5 (v1 : Vec F S128x28 .f32) (v2 : Vec F S128x8 .f32) : FVec F S128x8 .f32 := scaleRow (t26 v1) (extractStridedSlice S128x1 ![0, 5] v2 slices_S128x8_o0_5_S128x1)

/-- Final row 6, scaled by column 6 of the block's scale factors. -/
def s6 (v1 : Vec F S128x28 .f32) (v2 : Vec F S128x8 .f32) : FVec F S128x8 .f32 := scaleRow (t27 v1) (extractStridedSlice S128x1 ![0, 6] v2 slices_S128x8_o0_6_S128x1)

/-- Final row 7, scaled by column 7 of the block's scale factors. -/
def s7 (v1 : Vec F S128x28 .f32) (v2 : Vec F S128x8 .f32) : FVec F S128x8 .f32 := scaleRow (b27 v1) (extractStridedSlice S128x1 ![0, 7] v2 slices_S128x8_o0_7_S128x1)

/-- The whole block the body stores. -/
def kOut (v0 : Vec F S128x8x1024 .f32) (v1 : Vec F S128x28 .f32) (v2 : Vec F S128x8 .f32) : FVec F S128x8x1024 .f32 :=
  concatenate S128x8x1024 1 [⟨S128x1x1024, shapeCast S128x1x1024 (accRow (s0 v1 v2) v0) shapeCasts_S128x1024_S128x1x1024⟩, ⟨S128x1x1024, shapeCast S128x1x1024 (accRow (s1 v1 v2) v0) shapeCasts_S128x1024_S128x1x1024⟩, ⟨S128x1x1024, shapeCast S128x1x1024 (accRow (s2 v1 v2) v0) shapeCasts_S128x1024_S128x1x1024⟩, ⟨S128x1x1024, shapeCast S128x1x1024 (accRow (s3 v1 v2) v0) shapeCasts_S128x1024_S128x1x1024⟩, ⟨S128x1x1024, shapeCast S128x1x1024 (accRow (s4 v1 v2) v0) shapeCasts_S128x1024_S128x1x1024⟩, ⟨S128x1x1024, shapeCast S128x1x1024 (accRow (s5 v1 v2) v0) shapeCasts_S128x1024_S128x1x1024⟩, ⟨S128x1x1024, shapeCast S128x1x1024 (accRow (s6 v1 v2) v0) shapeCasts_S128x1024_S128x1x1024⟩, ⟨S128x1x1024, shapeCast S128x1x1024 (accRow (s7 v1 v2) v0) shapeCasts_S128x1024_S128x1x1024⟩] concatenates_S128x1x1024_S128x1x1024_S128x1x1024_S128x1x1024_S128x1x1024_S128x1x1024_S128x1x1024_S128x1x1024_S128x8x1024_d1

set_option maxRecDepth 65536 in
/-- What the body leaves in the output buffer is this program of the three loaded blocks. -/
theorem out0_3_eq (x0 : Vec F S128x8x1024 .f32) (x1 : Vec F S128x28 .f32) (x2 : Vec F S128x8 .f32) :
    out0_3 x0 x1 x2 = View.canon [⟨r0_0, kOut (View.ld x0 r0_0) (View.ld x1 r0_1) (View.ld x2 r0_2)⟩] := rfl

end Cert.KernelIdeal.KProg
end
-- ==== Proof.KSem.lean ====
import proofs.«129155_j44933947851298_2_alg».proof.Proof.KProg
import proofs.«129155_j44933947851298_2_alg».proof.Proof.Spec
import Idealize.ShloMosaic.Lib.ValueIdx
import Idealize.ShloMosaic.Lib.Pipeline.Value
import Idealize.ShloMosaic.Lib.ValueLayout

noncomputable section
open scoped BigOperators
namespace Cert.KernelIdeal.KSem
open Cert.KernelIdeal Cert.KernelIdeal.Gen Cert.KernelIdeal.KProg Idealize.ShloMosaic Idealize.ShloMosaic.ValueIdx Cert.Givens

/-! ## The generic steps read at an index -/

theorem hz2 : (![0, 0] : Fin 2 → Nat) = fun _ => 0 := funext fun a => by fin_cases a <;> rfl
theorem hz3 : (![0, 0, 0] : Fin 3 → Nat) = fun _ => 0 := funext fun a => by fin_cases a <;> rfl

/-- The 0/1 comparison of the two iotas is the identity matrix. -/
theorem eye_entry (r q : Fin 8) : (k0_pay1 (F := Ideal)) (ix2 r q) = eye r q := by
  unfold k0_pay1 eye
  simp only [sitofp_apply, extui_apply]
  rw [show ∀ b : BitVec 32, FloatOps.sitofp (F := Ideal) .f32 b = ((b.toInt : ℝ) : EReal) from fun _ => rfl]
  fin_cases r <;> fin_cases q <;> simp [cmpi, addi, iota, broadcast, IntOp.cmpi, IntOp.addi]

/-- Row `r` of the identity on every sub-block. -/
theorem eyeRow_apply (r : Fin 8) (off : Fin 2 → ℕ) (hoff : off = ![r.val, 0]) (h : S8x8.Slices off S1x8) (p : Fin 128) (q : Fin 8) :
    eyeRow (F := Ideal) off h (ix2 p q) = eye r q := by
  subst hoff
  unfold eyeRow
  rw [broadcastTo_apply _ _ (ix2 p q) (ix2 (0 : Fin 1) q) (fun x => by match x with | ⟨0, _⟩ => rfl | ⟨1, _⟩ => rfl)]
  rw [shapeCast_apply _ _ (ix2 (0 : Fin 1) q) (ix1 q) (by rw [Shape.rowMajor_val_one, Shape.rowMajor_val_two]; show q.val = 0 * 8 + q.val; omega)]
  rw [shapeCast_apply _ _ (ix1 q) (ix2 (0 : Fin 1) q) (by rw [Shape.rowMajor_val_one, Shape.rowMajor_val_two]; show 0 * 8 + q.val = q.val; omega)]
  rw [extractStridedSlice_apply _ _ _ (ix2 (0 : Fin 1) q) (ix2 r q) (fun x => by
    match x with
    | ⟨0, _⟩ => show r.val = r.val + 0; omega
    | ⟨1, _⟩ => show q.val = 0 + q.val; omega)]
  exact eye_entry r q

/-- Column `k` of the angles at sub-block `p`. -/
theorem angCol_apply (k : Fin 28) (off : Fin 2 → ℕ) (hoff : off = ![0, k.val]) (v1 : Vec Ideal S128x28 .f32) (h : S128x28.Slices off S128x1) (p : Fin 128) :
    angCol off v1 h (ix2 p 0) = v1 (ix2 p k) := by
  subst hoff
  unfold angCol
  refine extractStridedSlice_apply _ _ _ _ _ (fun a => ?_)
  match a with
  | ⟨0, _⟩ => show p.val = 0 + p.val; omega
  | ⟨1, _⟩ => show k.val = k.val + 0; omega

theorem rotT_apply (a : FVec Ideal S128x1 .f32) (vt vb : FVec Ideal S128x8 .f32) (p : Fin 128) (q : Fin 8) :
    rotT a vt vb (ix2 p q) = Ideal.cos (a (ix2 p 0)) * vt (ix2 p q) - Ideal.sin (a (ix2 p 0)) * vb (ix2 p q) := by
  unfold rotT
  rw [subf_apply, mulf_apply, mulf_apply]
  rw [broadcastTo_apply (cos a) _ (ix2 p q) (ix2 p 0) (fun x => by match x with | ⟨0, _⟩ => rfl | ⟨1, _⟩ => rfl),
      broadcastTo_apply (sin a) _ (ix2 p q) (ix2 p 0) (fun x => by match x with | ⟨0, _⟩ => rfl | ⟨1, _⟩ => rfl)]
  rfl

theorem rotB_apply (a : FVec Ideal S128x1 .f32) (vt vb : FVec Ideal S128x8 .f32) (p : Fin 128) (q : Fin 8) :
    rotB a vt vb (ix2 p q) = Ideal.sin (a (ix2 p 0)) * vt (ix2 p q) + Ideal.cos (a (ix2 p 0)) * vb (ix2 p q) := by
  unfold rotB
  rw [addf_apply, mulf_apply, mulf_apply]
  rw [broadcastTo_apply (cos a) _ (ix2 p q) (ix2 p 0) (fun x => by match x with | ⟨0, _⟩ => rfl | ⟨1, _⟩ => rfl),
      broadcastTo_apply (sin a) _ (ix2 p q) (ix2 p 0) (fun x => by match x with | ⟨0, _⟩ => rfl | ⟨1, _⟩ => rfl)]
  rfl

theorem scaleRow_apply (row : FVec Ideal S128x8 .f32) (mcol : FVec Ideal S128x1 .f32) (p : Fin 128) (q : Fin 8) :
    scaleRow row mcol (ix2 p q) = row (ix2 p q) * mcol (ix2 p 0) := by
  unfold scaleRow
  rw [mulf_apply, broadcastTo_apply mcol _ (ix2 p q) (ix2 p 0) (fun x => by match x with | ⟨0, _⟩ => rfl | ⟨1, _⟩ => rfl)]

/-- One term of an output row: column `j` of the scaled row times row `j` of the data. -/
theorem term_apply (srow : FVec Ideal S128x8 .f32) (j : Fin 8) (offr : Fin 2 → ℕ) (hoffr : offr = ![0, j.val]) (hr : S128x8.Slices offr S128x1)
    (v0 : Vec Ideal S128x8x1024 .f32) (offx : Fin 3 → ℕ) (hoffx : offx = ![0, j.val, 0]) (hx : S128x8x1024.Slices offx S128x1x1024)
    (p : Fin 128) (l : Fin 1024) :
    term srow offr hr v0 offx hx (ix2 p l) = srow (ix2 p j) * v0 (ix3 p j l) := by
  subst hoffr hoffx
  unfold term
  rw [mulf_apply]
  rw [broadcastTo_apply _ _ (ix2 p l) (ix2 p 0) (fun x => by match x with | ⟨0, _⟩ => rfl | ⟨1, _⟩ => rfl)]
  rw [extractStridedSlice_apply _ srow _ (ix2 p 0) (ix2 p j) (fun x => by
    match x with
    | ⟨0, _⟩ => show p.val = 0 + p.val; omega
    | ⟨1, _⟩ => show j.val = j.val + 0; omega)]
  rw [shapeCast_apply _ _ (ix2 p l) (ix3 p (0 : Fin 1) l) (by
    rw [Shape.rowMajor_val_three, Shape.rowMajor_val_two]; show (p.val * 1 + 0) * 1024 + l.val = p.val * 1024 + l.val; omega)]
  rw [extractStridedSlice_apply _ v0 _ (ix3 p (0 : Fin 1) l) (ix3 p j l) (fun x => by
    match x with
    | ⟨0, _⟩ => show p.val = 0 + p.val; omega
    | ⟨1, _⟩ => show j.val = j.val + 0; omega
    | ⟨2, _⟩ => show l.val = 0 + l.val; omega)]

/-- An output row is the sum over the eight columns, in the order of the index. -/
theorem accRow_apply (srow : FVec Ideal S128x8 .f32) (v0 : Vec Ideal S128x8x1024 .f32) (p : Fin 128) (l : Fin 1024) :
    accRow srow v0 (ix2 p l) = ∑ j : Fin 8, srow (ix2 p j) * v0 (ix3 p j l) := by
  unfold accRow
  simp only [addf_apply]
  have e0 : term srow ![0, 0] slices_S128x8_o0_0_S128x1 v0 ![0, 0, 0] slices_S128x8x1024_o0_0_0_S128x1x1024 (ix2 p l)
      = srow (ix2 p 0) * v0 (ix3 p 0 l) := term_apply srow 0 _ rfl _ v0 _ rfl _ p l
  have e1 : term srow ![0, 1] slices_S128x8_o0_1_S128x1 v0 ![0, 1, 0] slices_S128x8x1024_o0_1_0_S128x1x1024 (ix2 p l)
      = srow (ix2 p 1) * v0 (ix3 p 1 l) := term_apply srow 1 _ rfl _ v0 _ rfl _ p l
  have e2 : term srow ![0, 2] slices_S128x8_o0_2_S128x1 v0 ![0, 2, 0] slices_S128x8x1024_o0_2_0_S128x1x1024 (ix2 p l)
      = srow (ix2 p 2) * v0 (ix3 p 2 l) := term_apply srow 2 _ rfl _ v0 _ rfl _ p l
  have e3 : term srow ![0, 3] slices_S128x8_o0_3_S128x1 v0 ![0, 3, 0] slices_S128x8x1024_o0_3_0_S128x1x1024 (ix2 p l)
      = srow (ix2 p 3) * v0 (ix3 p 3 l) := term_apply srow 3 _ rfl _ v0 _ rfl _ p l
  have e4 : term srow ![0, 4] slices_S128x8_o0_4_S128x1 v0 ![0, 4, 0] slices_S128x8x1024_o0_4_0_S128x1x1024 (ix2 p l)
      = srow (ix2 p 4) * v0 (ix3 p 4 l) := term_apply srow 4 _ rfl _ v0 _ rfl _ p l
  have e5 : term srow ![0, 5] slices_S128x8_o0_5_S128x1 v0 ![0, 5, 0] slices_S128x8x1024_o0_5_0_S128x1x1024 (ix2 p l)
      = srow (ix2 p 5) * v0 (ix3 p 5 l) := term_apply srow 5 _ rfl _ v0 _ rfl _ p l
  have e6 : term srow ![0, 6] slices_S128x8_o0_6_S128x1 v0 ![0, 6, 0] slices_S128x8x1024_o0_6_0_S128x1x1024 (ix2 p l)
      = srow (ix2 p 6) * v0 (ix3 p 6 l) := term_apply srow 6 _ rfl _ v0 _ rfl _ p l
  have e7 : term srow ![0, 7] slices_S128x8_o0_7_S128x1 v0 ![0, 7, 0] slices_S128x8x1024_o0_7_0_S128x1x1024 (ix2 p l)
      = srow (ix2 p 7) * v0 (ix3 p 7 l) := term_apply srow 7 _ rfl _ v0 _ rfl _ p l
  rw [e0, e1, e2, e3, e4, e5, e6, e7, Fin.sum_univ_eight]

/-! ## Rows that a stretch of rotations does not touch -/

theorem mat_stable (a : Fin 28 → EReal) (r : Fin 8) (lo : ℕ) : ∀ (hi : ℕ), lo ≤ hi → hi ≤ 28 →
    (∀ n : Fin 28, lo ≤ n.val → n.val < hi → r ≠ pairI n ∧ r ≠ pairJ n) → ∀ q, mat a hi r q = mat a lo r q := by
  intro hi
  induction hi with
  | zero => intro h _ _ q; have : lo = 0 := by omega
            subst this; rfl
  | succ n ih =>
    intro hlo h28 H q
    by_cases hEq : lo = n + 1
    · subst hEq; rfl
    · have hn : n < 28 := by omega
      have hk := H ⟨n, hn⟩ (by show lo ≤ n; omega) (by show n < n + 1; omega)
      rw [mat_succ_keep a n hn r hk.1 hk.2 q]
      exact ih (by omega) (by omega) (fun m h1 h2 => H m h1 (by omega)) q

/-- The upper row of rotation `n`, from the two rows it reads, each known since the step that last wrote it. -/
theorem top_step (a : Fin 28 → EReal) (n : ℕ) (h : n < 28) (i j : Fin 8) (hi : pairI ⟨n, h⟩ = i) (hj : pairJ ⟨n, h⟩ = j)
    (li lj : ℕ) (hli : li ≤ n) (hlj : lj ≤ n)
    (si : ∀ m : Fin 28, li ≤ m.val → m.val < n → i ≠ pairI m ∧ i ≠ pairJ m)
    (sj : ∀ m : Fin 28, lj ≤ m.val → m.val < n → j ≠ pairI m ∧ j ≠ pairJ m)
    (col : FVec Ideal S128x1 .f32) (vt vb : FVec Ideal S128x8 .f32) (p : Fin 128)
    (hc : col (ix2 p 0) = a ⟨n, h⟩) (ht : ∀ q, vt (ix2 p q) = mat a li i q) (hb : ∀ q, vb (ix2 p q) = mat a lj j q) (q : Fin 8) :
    rotT col vt vb (ix2 p q) = mat a (n + 1) i q := by
  rw [rotT_apply, hc, ht, hb, mat_succ_top a n h i hi.symm q, hi, hj, mat_stable a i li n hli (by omega) si q,
    mat_stable a j lj n hlj (by omega) sj q]

/-- The lower row of rotation `n`. -/
theorem btm_step (a : Fin 28 → EReal) (n : ℕ) (h : n < 28) (i j : Fin 8) (hi : pairI ⟨n, h⟩ = i) (hj : pairJ ⟨n, h⟩ = j) (hij : j ≠ i)
    (li lj : ℕ) (hli : li ≤ n) (hlj : lj ≤ n)
    (si : ∀ m : Fin 28, li ≤ m.val → m.val < n → i ≠ pairI m ∧ i ≠ pairJ m)
    (sj : ∀ m : Fin 28, lj ≤ m.val → m.val < n → j ≠ pairI m ∧ j ≠ pairJ m)
    (col : FVec Ideal S128x1 .f32) (vt vb : FVec Ideal S128x8 .f32) (p : Fin 128)
    (hc : col (ix2 p 0) = a ⟨n, h⟩) (ht : ∀ q, vt (ix2 p q) = mat a li i q) (hb : ∀ q, vb (ix2 p q) = mat a lj j q) (q : Fin 8) :
    rotB col vt vb (ix2 p q) = mat a (n + 1) j q := by
  rw [rotB_apply, hc, ht, hb, mat_succ_btm a n h j (by rw [hi]; exact hij) hj.symm q, hi, hj, mat_stable a i li n hli (by omega) si q,
    mat_stable a j lj n hlj (by omega) sj q]

/-- A final row scaled by its scale factor. -/
theorem scale_step (a : Fin 28 → EReal) (r : Fin 8) (lr : ℕ) (hlr : lr ≤ 28)
    (sr : ∀ m : Fin 28, lr ≤ m.val → m.val < 28 → r ≠ pairI m ∧ r ≠ pairJ m)
    (row : FVec Ideal S128x8 .f32) (off : Fin 2 → ℕ) (hoff : off = ![0, r.val]) (v2 : Vec Ideal S128x8 .f32) (h : S128x8.Slices off S128x1)
    (p : Fin 128) (hrow : ∀ q, row (ix2 p q) = mat a lr r q) (q : Fin 8) :
    scaleRow row (extractStridedSlice S128x1 off v2 h) (ix2 p q) = mat a 28 r q * v2 (ix2 p r) := by
  subst hoff
  rw [scaleRow_apply, hrow, mat_stable a r lr 28 hlr (le_refl _) sr q]
  rw [extractStridedSlice_apply _ v2 _ (ix2 p 0) (ix2 p r) (fun x => by
    match x with
    | ⟨0, _⟩ => show p.val = 0 + p.val; omega
    | ⟨1, _⟩ => show r.val = r.val + 0; omega)]

/-! ## The 28 rotations, one after the other -/

theorem e0_spec (a : Fin 28 → EReal) (p : Fin 128) (q : Fin 8) : (e0 (F := Ideal)) (ix2 p q) = mat a 0 0 q :=
  eyeRow_apply 0 _ rfl _ p q

theorem e1_spec (a : Fin 28 → EReal) (p : Fin 128) (q : Fin 8) : (e1 (F := Ideal)) (ix2 p q) = mat a 0 1 q :=
  eyeRow_apply 1 _ rfl _ p q

theorem e2_spec (a : Fin 28 → EReal) (p : Fin 128) (q : Fin 8) : (e2 (F := Ideal)) (ix2 p q) = mat a 0 2 q :=
  eyeRow_apply 2 _ rfl _ p q

theorem e3_spec (a : Fin 28 → EReal) (p : Fin 128) (q : Fin 8) : (e3 (F := Ideal)) (ix2 p q) = mat a 0 3 q :=
  eyeRow_apply 3 _ rfl _ p q

theorem e4_spec (a : Fin 28 → EReal) (p : Fin 128) (q : Fin 8) : (e4 (F := Ideal)) (ix2 p q) = mat a 0 4 q :=
  eyeRow_apply 4 _ rfl _ p q

theorem e5_spec (a : Fin 28 → EReal) (p : Fin 128) (q : Fin 8) : (e5 (F := Ideal)) (ix2 p q) = mat a 0 5 q :=
  eyeRow_apply 5 _ rfl _ p q

theorem e6_spec (a : Fin 28 → EReal) (p : Fin 128) (q : Fin 8) : (e6 (F := Ideal)) (ix2 p q) = mat a 0 6 q :=
  eyeRow_apply 6 _ rfl _ p q

theorem e7_spec (a : Fin 28 → EReal) (p : Fin 128) (q : Fin 8) : (e7 (F := Ideal)) (ix2 p q) = mat a 0 7 q :=
  eyeRow_apply 7 _ rfl _ p q

theorem t0_spec (v1 : Vec Ideal S128x28 .f32) (p : Fin 128) (q : Fin 8) :
    t0 v1 (ix2 p q) = mat (fun n => v1 (ix2 p n)) 1 0 q :=
  top_step _ 0 (by decide) 0 1 rfl rfl 0 0 (by decide) (by decide) (by decide) (by decide) _ _ _ p
    (angCol_apply ⟨0, by decide⟩ _ rfl v1 _ p) (e0_spec _ p) (e1_spec _ p) q
theorem b0_spec (v1 : Vec Ideal S128x28 .f32) (p : Fin 128) (q : Fin 8) :
    b0 v1 (ix2 p q) = mat (fun n => v1 (ix2 p n)) 1 1 q :=
  btm_step _ 0 (by decide) 0 1 rfl rfl (by decide) 0 0 (by decide) (by decide) (by decide) (by decide) _ _ _ p
    (angCol_apply ⟨0, by decide⟩ _ rfl v1 _ p) (e0_spec _ p) (e1_spec _ p) q

theorem t1_spec (v1 : Vec Ideal S128x28 .f32) (p : Fin 128) (q : Fin 8) :
    t1 v1 (ix2 p q) = mat (fun n => v1 (ix2 p n)) 2 0 q :=
  top_step _ 1 (by decide) 0 2 rfl rfl 1 0 (by decide) (by decide) (by decide) (by decide) _ _ _ p
    (angCol_apply ⟨1, by decide⟩ _ rfl v1 _ p) (t0_spec v1 p) (e2_spec _ p) q
theorem b1_spec (v1 : Vec Ideal S128x28 .f32) (p : Fin 128) (q : Fin 8) :
    b1 v1 (ix2 p q) = mat (fun n => v1 (ix2 p n)) 2 2 q :=
  btm_step _ 1 (by decide) 0 2 rfl rfl (by decide) 1 0 (by decide) (by decide) (by decide) (by decide) _ _ _ p
    (angCol_apply ⟨1, by decide⟩ _ rfl v1 _ p) (t0_spec v1 p) (e2_spec _ p) q

theorem t2_spec (v1 : Vec Ideal S128x28 .f32) (p : Fin 128) (q : Fin 8) :
    t2 v1 (ix2 p q) = mat (fun n => v1 (ix2 p n)) 3 0 q :=
  top_step _ 2 (by decide) 0 3 rfl rfl 2 0 (by decide) (by decide) (by decide) (by decide) _ _ _ p
    (angCol_apply ⟨2, by decide⟩ _ rfl v1 _ p) (t1_spec v1 p) (e3_spec _ p) q
theorem b2_spec (v1 : Vec Ideal S128x28 .f32) (p : Fin 128) (q : Fin 8) :
    b2 v1 (ix2 p q) = mat (fun n => v1 (ix2 p n)) 3 3 q :=
  btm_step _ 2 (by decide) 0 3 rfl rfl (by decide) 2 0 (by decide) (by decide) (by decide) (by decide) _ _ _ p
    (angCol_apply ⟨2, by decide⟩ _ rfl v1 _ p) (t1_spec v1 p) (e3_spec _ p) q

theorem t3_spec (v1 : Vec Ideal S128x28 .f32) (p : Fin 128) (q : Fin 8) :
    t3 v1 (ix2 p q) = mat (fun n => v1 (ix2 p n)) 4 0 q :=
  top_step _ 3 (by decide) 0 4 rfl rfl 3 0 (by decide) (by decide) (by decide) (by decide) _ _ _ p
    (angCol_apply ⟨3, by decide⟩ _ rfl v1 _ p) (t2_spec v1 p) (e4_spec _ p) q
theorem b3_spec (v1 : Vec Ideal S128x28 .f32) (p : Fin 128) (q : Fin 8) :
    b3 v1 (ix2 p q) = mat (fun n => v1 (ix2 p n)) 4 4 q :=
  btm_step _ 3 (by decide) 0 4 rfl rfl (by decide) 3 0 (by decide) (by decide) (by decide) (by decide) _ _ _ p
    (angCol_apply ⟨3, by decide⟩ _ rfl v1 _ p) (t2_spec v1 p) (e4_spec _ p) q

theorem t4_spec (v1 : Vec Ideal S128x28 .f32) (p : Fin 128) (q : Fin 8) :
    t4 v1 (ix2 p q) = mat (fun n => v1 (ix2 p n)) 5 0 q :=
  top_step _ 4 (by decide) 0 5 rfl rfl 4 0 (by decide) (by decide) (by decide) (by decide) _ _ _ p
    (angCol_apply ⟨4, by decide⟩ _ rfl v1 _ p) (t3_spec v1 p) (e5_spec _ p) q
theorem b4_spec (v1 : Vec Ideal S128x28 .f32) (p : Fin 128) (q : Fin 8) :
    b4 v1 (ix2 p q) = mat (fun n => v1 (ix2 p n)) 5 5 q :=
  btm_step _ 4 (by decide) 0 5 rfl rfl (by decide) 4 0 (by decide) (by decide) (by decide) (by decide) _ _ _ p
    (angCol_apply ⟨4, by decide⟩ _ rfl v1 _ p) (t3_spec v1 p) (e5_spec _ p) q

theorem t5_spec (v1 : Vec Ideal S128x28 .f32) (p : Fin 128) (q : Fin 8) :
    t5 v1 (ix2 p q) = mat (fun n => v1 (ix2 p n)) 6 0 q :=
  top_step _ 5 (by decide) 0 6 rfl rfl 5 0 (by decide) (by decide) (by decide) (by decide) _ _ _ p
    (angCol_apply ⟨5, by decide⟩ _ rfl v1 _ p) (t4_spec v1 p) (e6_spec _ p) q
theorem b5_spec (v1 : Vec Ideal S128x28 .f32) (p : Fin 128) (q : Fin 8) :
    b5 v1 (ix2 p q) = mat (fun n => v1 (ix2 p n)) 6 6 q :=
  btm_step _ 5 (by decide) 0 6 rfl rfl (by decide) 5 0 (by decide) (by decide) (by decide) (by decide) _ _ _ p
    (angCol_apply ⟨5, by decide⟩ _ rfl v1 _ p) (t4_spec v1 p) (e6_spec _ p) q

theorem t6_spec (v1 : Vec Ideal S128x28 .f32) (p : Fin 128) (q : Fin 8) :
    t6 v1 (ix2 p q) = mat (fun n => v1 (ix2 p n)) 7 0 q :=
  top_step _ 6 (by decide) 0 7 rfl rfl 6 0 (by decide) (by decide) (by decide) (by decide) _ _ _ p
    (angCol_apply ⟨6, by decide⟩ _ rfl v1 _ p) (t5_spec v1 p) (e7_spec _ p) q
theorem b6_spec (v1 : Vec Ideal S128x28 .f32) (p : Fin 128) (q : Fin 8) :
    b6 v1 (ix2 p q) = mat (fun n => v1 (ix2 p n)) 7 7 q :=
  btm_step _ 6 (by decide) 0 7 rfl rfl (by decide) 6 0 (by decide) (by decide) (by decide) (by decide) _ _ _ p
    (angCol_apply ⟨6, by decide⟩ _ rfl v1 _ p) (t5_spec v1 p) (e7_spec _ p) q

theorem t7_spec (v1 : Vec Ideal S128x28 .f32) (p : Fin 128) (q : Fin 8) :
    t7 v1 (ix2 p q) = mat (fun n => v1 (ix2 p n)) 8 1 q :=
  top_step _ 7 (by decide) 1 2 rfl rfl 1 2 (by decide) (by decide) (by decide) (by decide) _ _ _ p
    (angCol_apply ⟨7, by decide⟩ _ rfl v1 _ p) (b0_spec v1 p) (b1_spec v1 p) q
theorem b7_spec (v1 : Vec Ideal S128x28 .f32) (p : Fin 128) (q : Fin 8) :
    b7 v1 (ix2 p q) = mat (fun n => v1 (ix2 p n)) 8 2 q :=
  btm_step _ 7 (by decide) 1 2 rfl rfl (by decide) 1 2 (by decide) (by decide) (by decide) (by decide) _ _ _ p
    (angCol_apply ⟨7, by decide⟩ _ rfl v1 _ p) (b0_spec v1 p) (b1_spec v1 p) q

theorem t8_spec (v1 : Vec Ideal S128x28 .f32) (p : Fin 128) (q : Fin 8) :
    t8 v1 (ix2 p q) = mat (fun n => v1 (ix2 p n)) 9 1 q :=
  top_step _ 8 (by decide) 1 3 rfl rfl 8 3 (by decide) (by decide) (by decide) (by decide) _ _ _ p
    (angCol_apply ⟨8, by decide⟩ _ rfl v1 _ p) (t7_spec v1 p) (b2_spec v1 p) q
theorem b8_spec (v1 : Vec Ideal S128x28 .f32) (p : Fin 128) (q : Fin 8) :
    b8 v1 (ix2 p q) = mat (fun n => v1 (ix2 p n)) 9 3 q :=
  btm_step _ 8 (by decide) 1 3 rfl rfl (by decide) 8 3 (by decide) (by decide) (by decide) (by decide) _ _ _ p
    (angCol_apply ⟨8, by decide⟩ _ rfl v1 _ p) (t7_spec v1 p) (b2_spec v1 p) q

theorem t9_spec (v1 : Vec Ideal S128x28 .f32) (p : Fin 128) (q : Fin 8) :
    t9 v1 (ix2 p q) = mat (fun n => v1 (ix2 p n)) 10 1 q :=
  top_step _ 9 (by decide) 1 4 rfl rfl 9 4 (by decide) (by decide) (by decide) (by decide) _ _ _ p
    (angCol_apply ⟨9, by decide⟩ _ rfl v1 _ p) (t8_spec v1 p) (b3_spec v1 p) q
theorem b9_spec (v1 : Vec Ideal S128x28 .f32) (p : Fin 128) (q : Fin 8) :
    b9 v1 (ix2 p q) = mat (fun n => v1 (ix2 p n)) 10 4 q :=
  btm_step _ 9 (by decide) 1 4 rfl rfl (by decide) 9 4 (by decide) (by decide) (by decide) (by decide) _ _ _ p
    (angCol_apply ⟨9, by decide⟩ _ rfl v1 _ p) (t8_spec v1 p) (b3_spec v1 p) q

theorem t10_spec (v1 : Vec Ideal S128x28 .f32) (p : Fin 128) (q : Fin 8) :
    t10 v1 (ix2 p q) = mat (fun n => v1 (ix2 p n)) 11 1 q :=
  top_step _ 10 (by decide) 1 5 rfl rfl 10 5 (by decide) (by decide) (by decide) (by decide) _ _ _ p
    (angCol_apply ⟨10, by decide⟩ _ rfl v1 _ p) (t9_spec v1 p) (b4_spec v1 p) q
theorem b10_spec (v1 : Vec Ideal S128x28 .f32) (p : Fin 128) (q : Fin 8) :
    b10 v1 (ix2 p q) = mat (fun n => v1 (ix2 p n)) 11 5 q :=
  btm_step _ 10 (by decide) 1 5 rfl rfl (by decide) 10 5 (by decide) (by decide) (by decide) (by decide) _ _ _ p
    (angCol_apply ⟨10, by decide⟩ _ rfl v1 _ p) (t9_spec v1 p) (b4_spec v1 p) q

theorem t11_spec (v1 : Vec Ideal S128x28 .f32) (p : Fin 128) (q : Fin 8) :
    t11 v1 (ix2 p q) = mat (fun n => v1 (ix2 p n)) 12 1 q :=
  top_step _ 11 (by decide) 1 6 rfl rfl 11 6 (by decide) (by decide) (by decide) (by decide) _ _ _ p
    (angCol_apply ⟨11, by decide⟩ _ rfl v1 _ p) (t10_spec v1 p) (b5_spec v1 p) q
theorem b11_spec (v1 : Vec Ideal S128x28 .f32) (p : Fin 128) (q : Fin 8) :
    b11 v1 (ix2 p q) = mat (fun n => v1 (ix2 p n)) 12 6 q :=
  btm_step _ 11 (by decide) 1 6 rfl rfl (by decide) 11 6 (by decide) (by decide) (by decide) (by decide) _ _ _ p
    (angCol_apply ⟨11, by decide⟩ _ rfl v1 _ p) (t10_spec v1 p) (b5_spec v1 p) q

theorem t12_spec (v1 : Vec Ideal S128x28 .f32) (p : Fin 128) (q : Fin 8) :
    t12 v1 (ix2 p q) = mat (fun n => v1 (ix2 p n)) 13 1 q :=
  top_step _ 12 (by decide) 1 7 rfl rfl 12 7 (by decide) (by decide) (by decide) (by decide) _ _ _ p
    (angCol_apply ⟨12, by decide⟩ _ rfl v1 _ p) (t11_spec v1 p) (b6_spec v1 p) q
theorem b12_spec (v1 : Vec Ideal S128x28 .f32) (p : Fin 128) (q : Fin 8) :
    b12 v1 (ix2 p q) = mat (fun n => v1 (ix2 p n)) 13 7 q :=
  btm_step _ 12 (by decide) 1 7 rfl rfl (by decide) 12 7 (by decide) (by decide) (by decide) (by decide) _ _ _ p
    (angCol_apply ⟨12, by decide⟩ _ rfl v1 _ p) (t11_spec v1 p) (b6_spec v1 p) q

theorem t13_spec (v1 : Vec Ideal S128x28 .f32) (p : Fin 128) (q : Fin 8) :
    t13 v1 (ix2 p q) = mat (fun n => v1 (ix2 p n)) 14 2 q :=
  top_step _ 13 (by decide) 2 3 rfl rfl 8 9 (by decide) (by decide) (by decide) (by decide) _ _ _ p
    (angCol_apply ⟨13, by decide⟩ _ rfl v1 _ p) (b7_spec v1 p) (b8_spec v1 p) q
theorem b13_spec (v1 : Vec Ideal S128x28 .f32) (p : Fin 128) (q : Fin 8) :
    b13 v1 (ix2 p q) = mat (fun n => v1 (ix2 p n)) 14 3 q :=
  btm_step _ 13 (by decide) 2 3 rfl rfl (by decide) 8 9 (by decide) (by decide) (by decide) (by decide) _ _ _ p
    (angCol_apply ⟨13, by decide⟩ _ rfl v1 _ p) (b7_spec v1 p) (b8_spec v1 p) q

theorem t14_spec (v1 : Vec Ideal S128x28 .f32) (p : Fin 128) (q : Fin 8) :
    t14 v1 (ix2 p q) = mat (fun n => v1 (ix2 p n)) 15 2 q :=
  top_step _ 14 (by decide) 2 4 rfl rfl 14 10 (by decide) (by decide) (by decide) (by decide) _ _ _ p
    (angCol_apply ⟨14, by decide⟩ _ rfl v1 _ p) (t13_spec v1 p) (b9_spec v1 p) q
theorem b14_spec (v1 : Vec Ideal S128x28 .f32) (p : Fin 128) (q : Fin 8) :
    b14 v1 (ix2 p q) = mat (fun n => v1 (ix2 p n)) 15 4 q :=
  btm_step _ 14 (by decide) 2 4 rfl rfl (by decide) 14 10 (by decide) (by decide) (by decide) (by decide) _ _ _ p
    (angCol_apply ⟨14, by decide⟩ _ rfl v1 _ p) (t13_spec v1 p) (b9_spec v1 p) q

theorem t15_spec (v1 : Vec Ideal S128x28 .f32) (p : Fin 128) (q : Fin 8) :
    t15 v1 (ix2 p q) = mat (fun n => v1 (ix2 p n)) 16 2 q :=
  top_step _ 15 (by decide) 2 5 rfl rfl 15 11 (by decide) (by decide) (by decide) (by decide) _ _ _ p
    (angCol_apply ⟨15, by decide⟩ _ rfl v1 _ p) (t14_spec v1 p) (b10_spec v1 p) q
theorem b15_spec (v1 : Vec Ideal S128x28 .f32) (p : Fin 128) (q : Fin 8) :
    b15 v1 (ix2 p q) = mat (fun n => v1 (ix2 p n)) 16 5 q :=
  btm_step _ 15 (by decide) 2 5 rfl rfl (by decide) 15 11 (by decide) (by decide) (by decide) (by decide) _ _ _ p
    (angCol_apply ⟨15, by decide⟩ _ rfl v1 _ p) (t14_spec v1 p) (b10_spec v1 p) q

theorem t16_spec (v1 : Vec Ideal S128x28 .f32) (p : Fin 128) (q : Fin 8) :
    t16 v1 (ix2 p q) = mat (fun n => v1 (ix2 p n)) 17 2 q :=
  top_step _ 16 (by decide) 2 6 rfl rfl 16 12 (by decide) (by decide) (by decide) (by decide) _ _ _ p
    (angCol_apply ⟨16, by decide⟩ _ rfl v1 _ p) (t15_spec v1 p) (b11_spec v1 p) q
theorem b16_spec (v1 : Vec Ideal S128x28 .f32) (p : Fin 128) (q : Fin 8) :
    b16 v1 (ix2 p q) = mat (fun n => v1 (ix2 p n)) 17 6 q :=
  btm_step _ 16 (by decide) 2 6 rfl rfl (by decide) 16 12 (by decide) (by decide) (by decide) (by decide) _ _ _ p
    (angCol_apply ⟨16, by decide⟩ _ rfl v1 _ p) (t15_spec v1 p) (b11_spec v1 p) q

theorem t17_spec (v1 : Vec Ideal S128x28 .f32) (p : Fin 128) (q : Fin 8) :
    t17 v1 (ix2 p q) = mat (fun n => v1 (ix2 p n)) 18 2 q :=
  top_step _ 17 (by decide) 2 7 rfl rfl 17 13 (by decide) (by decide) (by decide) (by decide) _ _ _ p
    (angCol_apply ⟨17, by decide⟩ _ rfl v1 _ p) (t16_spec v1 p) (b12_spec v1 p) q
theorem b17_spec (v1 : Vec Ideal S128x28 .f32) (p : Fin 128) (q : Fin 8) :
    b17 v1 (ix2 p q) = mat (fun n => v1 (ix2 p n)) 18 7 q :=
  btm_step _ 17 (by decide) 2 7 rfl rfl (by decide) 17 13 (by decide) (by decide) (by decide) (by decide) _ _ _ p
    (angCol_apply ⟨17, by decide⟩ _ rfl v1 _ p) (t16_spec v1 p) (b12_spec v1 p) q

theorem t18_spec (v1 : Vec Ideal S128x28 .f32) (p : Fin 128) (q : Fin 8) :
    t18 v1 (ix2 p q) = mat (fun n => v1 (ix2 p n)) 19 3 q :=
  top_step _ 18 (by decide) 3 4 rfl rfl 14 15 (by decide) (by decide) (by decide) (by decide) _ _ _ p
    (angCol_apply ⟨18, by decide⟩ _ rfl v1 _ p) (b13_spec v1 p) (b14_spec v1 p) q
theorem b18_spec (v1 : Vec Ideal S128x28 .f32) (p : Fin 128) (q : Fin 8) :
    b18 v1 (ix2 p q) = mat (fun n => v1 (ix2 p n)) 19 4 q :=
  btm_step _ 18 (by decide) 3 4 rfl rfl (by decide) 14 15 (by decide) (by decide) (by decide) (by decide) _ _ _ p
    (angCol_apply ⟨18, by decide⟩ _ rfl v1 _ p) (b13_spec v1 p) (b14_spec v1 p) q

theorem t19_spec (v1 : Vec Ideal S128x28 .f32) (p : Fin 128) (q : Fin 8) :
    t19 v1 (ix2 p q) = mat (fun n => v1 (ix2 p n)) 20 3 q :=
  top_step _ 19 (by decide) 3 5 rfl rfl 19 16 (by decide) (by decide) (by decide) (by decide) _ _ _ p
    (angCol_apply ⟨19, by decide⟩ _ rfl v1 _ p) (t18_spec v1 p) (b15_spec v1 p) q
theorem b19_spec (v1 : Vec Ideal S128x28 .f32) (p : Fin 128) (q : Fin 8) :
    b19 v1 (ix2 p q) = mat (fun n => v1 (ix2 p n)) 20 5 q :=
  btm_step _ 19 (by decide) 3 5 rfl rfl (by decide) 19 16 (by decide) (by decide) (by decide) (by decide) _ _ _ p
    (angCol_apply ⟨19, by decide⟩ _ rfl v1 _ p) (t18_spec v1 p) (b15_spec v1 p) q

theorem t20_spec (v1 : Vec Ideal S128x28 .f32) (p : Fin 128) (q : Fin 8) :
    t20 v1 (ix2 p q) = mat (fun n => v1 (ix2 p n)) 21 3 q :=
  top_step _ 20 (by decide) 3 6 rfl rfl 20 17 (by decide) (by decide) (by decide) (by decide) _ _ _ p
    (angCol_apply ⟨20, by decide⟩ _ rfl v1 _ p) (t19_spec v1 p) (b16_spec v1 p) q
theorem b20_spec (v1 : Vec Ideal S128x28 .f32) (p : Fin 128) (q : Fin 8) :
    b20 v1 (ix2 p q) = mat (fun n => v1 (ix2 p n)) 21 6 q :=
  btm_step _ 20 (by decide) 3 6 rfl rfl (by decide) 20 17 (by decide) (by decide) (by decide) (by decide) _ _ _ p
    (angCol_apply ⟨20, by decide⟩ _ rfl v1 _ p) (t19_spec v1 p) (b16_spec v1 p) q

theorem t21_spec (v1 : Vec Ideal S128x28 .f32) (p : Fin 128) (q : Fin 8) :
    t21 v1 (ix2 p q) = mat (fun n => v1 (ix2 p n)) 22 3 q :=
  top_step _ 21 (by decide) 3 7 rfl rfl 21 18 (by decide) (by decide) (by decide) (by decide) _ _ _ p
    (angCol_apply ⟨21, by decide⟩ _ rfl v1 _ p) (t20_spec v1 p) (b17_spec v1 p) q
theorem b21_spec (v1 : Vec Ideal S128x28 .f32) (p : Fin 128) (q : Fin 8) :
    b21 v1 (ix2 p q) = mat (fun n => v1 (ix2 p n)) 22 7 q :=
  btm_step _ 21 (by decide) 3 7 rfl rfl (by decide) 21 18 (by decide) (by decide) (by decide) (by decide) _ _ _ p
    (angCol_apply ⟨21, by decide⟩ _ rfl v1 _ p) (t20_spec v1 p) (b17_spec v1 p) q

theorem t22_spec (v1 : Vec Ideal S128x28 .f32) (p : Fin 128) (q : Fin 8) :
    t22 v1 (ix2 p q) = mat (fun n => v1 (ix2 p n)) 23 4 q :=
  top_step _ 22 (by decide) 4 5 rfl rfl 19 20 (by decide) (by decide) (by decide) (by decide) _ _ _ p
    (angCol_apply ⟨22, by decide⟩ _ rfl v1 _ p) (b18_spec v1 p) (b19_spec v1 p) q
theorem b22_spec (v1 : Vec Ideal S128x28 .f32) (p : Fin 128) (q : Fin 8) :
    b22 v1 (ix2 p q) = mat (fun n => v1 (ix2 p n)) 23 5 q :=
  btm_step _ 22 (by decide) 4 5 rfl rfl (by decide) 19 20 (by decide) (by decide) (by decide) (by decide) _ _ _ p
    (angCol_apply ⟨22, by decide⟩ _ rfl v1 _ p) (b18_spec v1 p) (b19_spec v1 p) q

theorem t23_spec (v1 : Vec Ideal S128x28 .f32) (p : Fin 128) (q : Fin 8) :
    t23 v1 (ix2 p q) = mat (fun n => v1 (ix2 p n)) 24 4 q :=
  top_step _ 23 (by decide) 4 6 rfl rfl 23 21 (by decide) (by decide) (by decide) (by decide) _ _ _ p
    (angCol_apply ⟨23, by decide⟩ _ rfl v1 _ p) (t22_spec v1 p) (b20_spec v1 p) q
theorem b23_spec (v1 : Vec Ideal S128x28 .f32) (p : Fin 128) (q : Fin 8) :
    b23 v1 (ix2 p q) = mat (fun n => v1 (ix2 p n)) 24 6 q :=
  btm_step _ 23 (by decide) 4 6 rfl rfl (by decide) 23 21 (by decide) (by decide) (by decide) (by decide) _ _ _ p
    (angCol_apply ⟨23, by decide⟩ _ rfl v1 _ p) (t22_spec v1 p) (b20_spec v1 p) q

theorem t24_spec (v1 : Vec Ideal S128x28 .f32) (p : Fin 128) (q : Fin 8) :
    t24 v1 (ix2 p q) = mat (fun n => v1 (ix2 p n)) 25 4 q :=
  top_step _ 24 (by decide) 4 7 rfl rfl 24 22 (by decide) (by decide) (by decide) (by decide) _ _ _ p
    (angCol_apply ⟨24, by decide⟩ _ rfl v1 _ p) (t23_spec v1 p) (b21_spec v1 p) q
theorem b24_spec (v1 : Vec Ideal S128x28 .f32) (p : Fin 128) (q : Fin 8) :
    b24 v1 (ix2 p q) = mat (fun n => v1 (ix2 p n)) 25 7 q :=
  btm_step _ 24 (by decide) 4 7 rfl rfl (by decide) 24 22 (by decide) (by decide) (by decide) (by decide) _ _ _ p
    (angCol_apply ⟨24, by decide⟩ _ rfl v1 _ p) (t23_spec v1 p) (b21_spec v1 p) q

theorem t25_spec (v1 : Vec Ideal S128x28 .f32) (p : Fin 128) (q : Fin 8) :
    t25 v1 (ix2 p q) = mat (fun n => v1 (ix2 p n)) 26 5 q :=
  top_step _ 25 (by decide) 5 6 rfl rfl 23 24 (by decide) (by decide) (by decide) (by decide) _ _ _ p
    (angCol_apply ⟨25, by decide⟩ _ rfl v1 _ p) (b22_spec v1 p) (b23_spec v1 p) q
theorem b25_spec (v1 : Vec Ideal S128x28 .f32) (p : Fin 128) (q : Fin 8) :
    b25 v1 (ix2 p q) = mat (fun n => v1 (ix2 p n)) 26 6 q :=
  btm_step _ 25 (by decide) 5 6 rfl rfl (by decide) 23 24 (by decide) (by decide) (by decide) (by decide) _ _ _ p
    (angCol_apply ⟨25, by decide⟩ _ rfl v1 _ p) (b22_spec v1 p) (b23_spec v1 p) q

theorem t26_spec (v1 : Vec Ideal S128x28 .f32) (p : Fin 128) (q : Fin 8) :
    t26 v1 (ix2 p q) = mat (fun n => v1 (ix2 p n)) 27 5 q :=
  top_step _ 26 (by decide) 5 7 rfl rfl 26 25 (by decide) (by decide) (by decide) (by decide) _ _ _ p
    (angCol_apply ⟨26, by decide⟩ _ rfl v1 _ p) (t25_spec v1 p) (b24_spec v1 p) q
theorem b26_spec (v1 : Vec Ideal S128x28 .f32) (p : Fin 128) (q : Fin 8) :
    b26 v1 (ix2 p q) = mat (fun n => v1 (ix2 p n)) 27 7 q :=
  btm_step _ 26 (by decide) 5 7 rfl rfl (by decide) 26 25 (by decide) (by decide) (by decide) (by decide) _ _ _ p
    (angCol_apply ⟨26, by decide⟩ _ rfl v1 _ p) (t25_spec v1 p) (b24_spec v1 p) q

theorem t27_spec (v1 : Vec Ideal S128x28 .f32) (p : Fin 128) (q : Fin 8) :
    t27 v1 (ix2 p q) = mat (fun n => v1 (ix2 p n)) 28 6 q :=
  top_step _ 27 (by decide) 6 7 rfl rfl 26 27 (by decide) (by decide) (by decide) (by decide) _ _ _ p
    (angCol_apply ⟨27, by decide⟩ _ rfl v1 _ p) (b25_spec v1 p) (b26_spec v1 p) q
theorem b27_spec (v1 : Vec Ideal S128x28 .f32) (p : Fin 128) (q : Fin 8) :
    b27 v1 (ix2 p q) = mat (fun n => v1 (ix2 p n)) 28 7 q :=
  btm_step _ 27 (by decide) 6 7 rfl rfl (by decide) 26 27 (by decide) (by decide) (by decide) (by decide) _ _ _ p
    (angCol_apply ⟨27, by decide⟩ _ rfl v1 _ p) (b25_spec v1 p) (b26_spec v1 p) q

theorem s0_spec (v1 : Vec Ideal S128x28 .f32) (v2 : Vec Ideal S128x8 .f32) (p : Fin 128) (q : Fin 8) :
    s0 v1 v2 (ix2 p q) = mat (fun n => v1 (ix2 p n)) 28 0 q * v2 (ix2 p 0) :=
  scale_step _ 0 7 (by decide) (by decide) _ _ rfl v2 _ p (t6_spec v1 p) q

theorem s1_spec (v1 : Vec Ideal S128x28 .f32) (v2 : Vec Ideal S128x8 .f32) (p : Fin 128) (q : Fin 8) :
    s1 v1 v2 (ix2 p q) = mat (fun n => v1 (ix2 p n)) 28 1 q * v2 (ix2 p 1) :=
  scale_step _ 1 13 (by decide) (by decide) _ _ rfl v2 _ p (t12_spec v1 p) q

theorem s2_spec (v1 : Vec Ideal S128x28 .f32) (v2 : Vec Ideal S128x8 .f32) (p : Fin 128) (q : Fin 8) :
    s2 v1 v2 (ix2 p q) = mat (fun n => v1 (ix2 p n)) 28 2 q * v2 (ix2 p 2) :=
  scale_step _ 2 18 (by decide) (by decide) _ _ rfl v2 _ p (t17_spec v1 p) q

theorem s3_spec (v1 : Vec Ideal S128x28 .f32) (v2 : Vec Ideal S128x8 .f32) (p : Fin 128) (q : Fin 8) :
    s3 v1 v2 (ix2 p q) = mat (fun n => v1 (ix2 p n)) 28 3 q * v2 (ix2 p 3) :=
  scale_step _ 3 22 (by decide) (by decide) _ _ rfl v2 _ p (t21_spec v1 p) q

theorem s4_spec (v1 : Vec Ideal S128x28 .f32) (v2 : Vec Ideal S128x8 .f32) (p : Fin 128) (q : Fin 8) :
    s4 v1 v2 (ix2 p q) = mat (fun n => v1 (ix2 p n)) 28 4 q * v2 (ix2 p 4) :=
  scale_step _ 4 25 (by decide) (by decide) _ _ rfl v2 _ p (t24_spec v1 p) q

theorem s5_spec (v1 : Vec Ideal S128x28 .f32) (v2 : Vec Ideal S128x8 .f32) (p : Fin 128) (q : Fin 8) :
    s5 v1 v2 (ix2 p q) = mat (fun n => v1 (ix2 p n)) 28 5 q * v2 (ix2 p 5) :=
  scale_step _ 5 27 (by decide) (by decide) _ _ rfl v2 _ p (t26_spec v1 p) q

theorem s6_spec (v1 : Vec Ideal S128x28 .f32) (v2 : Vec Ideal S128x8 .f32) (p : Fin 128) (q : Fin 8) :
    s6 v1 v2 (ix2 p q) = mat (fun n => v1 (ix2 p n)) 28 6 q * v2 (ix2 p 6) :=
  scale_step _ 6 28 (by decide) (by decide) _ _ rfl v2 _ p (t27_spec v1 p) q

theorem s7_spec (v1 : Vec Ideal S128x28 .f32) (v2 : Vec Ideal S128x8 .f32) (p : Fin 128) (q : Fin 8) :
    s7 v1 v2 (ix2 p q) = mat (fun n => v1 (ix2 p n)) 28 7 q * v2 (ix2 p 7) :=
  scale_step _ 7 28 (by decide) (by decide) _ _ rfl v2 _ p (b27_spec v1 p) q

end Cert.KernelIdeal.KSem
end
-- ==== Proof.KBlock.lean ====
/-
  What one grid point leaves in its output block: entry (p, r, l) of the block is row r of sub-block p's rotation
  matrix, scaled by the sub-block's r-th scale factor, applied to column l of the sub-block's data.
-/
import proofs.«129155_j44933947851298_2_alg».proof.Proof.KSem

noncomputable section
open scoped BigOperators
namespace Cert.KernelIdeal.KValue
open Cert.KernelIdeal Cert.KernelIdeal.Gen Cert.KernelIdeal.KProg Cert.KernelIdeal.KSem Idealize.ShloMosaic Idealize.ShloMosaic.ValueIdx Cert.Givens

/-- The eight scaled rows as a family over the output row. -/
def srows (v1 : Vec Ideal S128x28 .f32) (v2 : Vec Ideal S128x8 .f32) : Fin 8 → FVec Ideal S128x8 .f32 := fun r =>
  match r with
  | ⟨0, _⟩ => s0 v1 v2 | ⟨1, _⟩ => s1 v1 v2 | ⟨2, _⟩ => s2 v1 v2 | ⟨3, _⟩ => s3 v1 v2
  | ⟨4, _⟩ => s4 v1 v2 | ⟨5, _⟩ => s5 v1 v2 | ⟨6, _⟩ => s6 v1 v2 | ⟨7, _⟩ => s7 v1 v2

theorem srows_spec (v1 : Vec Ideal S128x28 .f32) (v2 : Vec Ideal S128x8 .f32) (p : Fin 128) (r q : Fin 8) :
    srows v1 v2 r (ix2 p q) = mat (fun n => v1 (ix2 p n)) 28 r q * v2 (ix2 p r) := by
  match r with
  | ⟨0, _⟩ => exact s0_spec v1 v2 p q
  | ⟨1, _⟩ => exact s1_spec v1 v2 p q
  | ⟨2, _⟩ => exact s2_spec v1 v2 p q
  | ⟨3, _⟩ => exact s3_spec v1 v2 p q
  | ⟨4, _⟩ => exact s4_spec v1 v2 p q
  | ⟨5, _⟩ => exact s5_spec v1 v2 p q
  | ⟨6, _⟩ => exact s6_spec v1 v2 p q
  | ⟨7, _⟩ => exact s7_spec v1 v2 p q

/-- The stacked block at (p, r, l) is output row r at (p, l). -/
theorem kOut_apply (v0 : Vec Ideal S128x8x1024 .f32) (v1 : Vec Ideal S128x28 .f32) (v2 : Vec Ideal S128x8 .f32)
    (p : Fin 128) (r : Fin 8) (l : Fin 1024) :
    kOut v0 v1 v2 (ix3 p r l) = accRow (srows v1 v2 r) v0 (ix2 p l) := by
  unfold kOut
  show concatenate S128x8x1024 1 (List.ofFn fun n : Fin 8 =>
    (⟨S128x1x1024, shapeCast S128x1x1024 (accRow (srows v1 v2 n) v0) shapeCasts_S128x1024_S128x1x1024⟩ : (s : Shape) × (s.Idx → _))) _ (ix3 p r l) = _
  refine (concatenate_ofFn_unit_apply (t := S128x8x1024) (s₁ := S128x1x1024) (1 : Fin 3)
    (fun n => shapeCast S128x1x1024 (accRow (srows v1 v2 n) v0) shapeCasts_S128x1024_S128x1x1024) _ rfl rfl (ix3 p r l) r rfl
    (ix3 p (0 : Fin 1) l) (fun b hb => by
      match b with
      | ⟨0, _⟩ => rfl
      | ⟨1, _⟩ => exact absurd rfl hb
      | ⟨2, _⟩ => rfl)).trans ?_
  exact shapeCast_apply _ _ (ix3 p (0 : Fin 1) l) (ix2 p l) (by
    rw [Shape.rowMajor_val_three, Shape.rowMajor_val_two]; show p.val * 1024 + l.val = (p.val * 1 + 0) * 1024 + l.val; omega)

theorem block_eq (x0 : Vec Ideal S128x8x1024 .f32) (x1 : Vec Ideal S128x28 .f32) (x2 : Vec Ideal S128x8 .f32)
    (p : Fin 128) (r : Fin 8) (l : Fin 1024) :
    out0_3 x0 x1 x2 (ix3 p r l)
      = ∑ j : Fin 8, (mat (fun k => x1 (ix2 p k)) 28 r j * x2 (ix2 p r)) * x0 (ix3 p j l) := by
  rw [out0_3_eq, View.canon_unit_zero hz3]
  simp only [View.ld_unit_zero (S := S128x8x1024) hz3, View.ld_unit_zero (S := S128x28) hz2, View.ld_unit_zero (S := S128x8) hz2]
  rw [kOut_apply, accRow_apply]
  exact Finset.sum_congr rfl (fun j _ => by rw [srows_spec])

end Cert.KernelIdeal.KValue
end
-- ==== Proof.KArray.lean ====
/-
  From the blocks to the whole array: grid point t writes rows 128·t … 128·t + 127 of the result, and what it writes is
  the specification's function of the three argument arrays restricted to those rows; the 32 blocks cover the array, so
  after the run the result array is that function.
-/
import proofs.«129155_j44933947851298_2_alg».proof.Proof.KBlock
import Idealize.ShloMosaic.Lib.Pipeline.Value

noncomputable section
open scoped BigOperators
namespace Cert.KernelIdeal.KValue
open Cert.KernelIdeal Cert.KernelIdeal.Gen Idealize.ShloMosaic Idealize.ShloMosaic.TcCoe Idealize.SL.Sem
open Idealize.ShloMosaic.ValueIdx Cert.Givens
open Idealize.ShloMosaic.Pipeline (Dat)

variable (m : (ℓ : Loc nD τ sig) → Buf (Elt Ideal) ℓ) (ρ : Dev nD → PrngReg)

/-- The index maps, decided over the 32 grid points: every window's block index is (t, 0, …). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Block t of the data: entry x of the block is entry (128·t + x₀, x₁, x₂) of the array. -/
theorem iblk0_apply (c : Dev nD) (t : Fin cfg0.N) (x : S128x8x1024.Idx) (k : S4096x8x1024.Idx)
    (hk0 : (k 0).val = 128 * t.val + (x 0).val) (hk1 : (k 1).val = (x 1).val) (hk2 : (k 2).val = (x 2).val) :
    (iblk m c 0 t : Vec Ideal S128x8x1024 .f32) x = (V m c main_arg0 : S4096x8x1024.Idx → EReal) k := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 128 + 1 * (x 0).val = (k 0).val; rw [e0, hk0]; omega
  | ⟨1, _⟩ => show win0_0.index t (1 : Fin 3) * 8 + 1 * (x 1).val = (k 1).val; rw [e1, hk1]; omega
  | ⟨2, _⟩ => show win0_0.index t (2 : Fin 3) * 1024 + 1 * (x 2).val = (k 2).val; rw [e2, hk2]; omega

/-- Block t of the angles: entry x of the block is entry (128·t + x₀, x₁) of the array. -/
theorem iblk1_apply (c : Dev nD) (t : Fin cfg0.N) (x : S128x28.Idx) (k : S4096x28.Idx)
    (hk0 : (k 0).val = 128 * t.val + (x 0).val) (hk1 : (k 1).val = (x 1).val) :
    (iblk m c 1 t : Vec Ideal S128x28 .f32) x = (V m c main_arg1 : S4096x28.Idx → EReal) k := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 128 + 1 * (x 0).val = (k 0).val; rw [e0, hk0]; omega
  | ⟨1, _⟩ => show win0_1.index t (1 : Fin 2) * 28 + 1 * (x 1).val = (k 1).val; rw [e1, hk1]; omega

/-- Block t of the scales: entry x of the block is entry (128·t + x₀, x₁) of the array. -/
theorem iblk2_apply (c : Dev nD) (t : Fin cfg0.N) (x : S128x8.Idx) (k : S4096x8.Idx)
    (hk0 : (k 0).val = 128 * t.val + (x 0).val) (hk1 : (k 1).val = (x 1).val) :
    (iblk m c 2 t : Vec Ideal S128x8 .f32) x = (V m c main_arg2 : S4096x8.Idx → EReal) k := by
  obtain ⟨-, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 128 + 1 * (x 0).val = (k 0).val; rw [e0, hk0]; omega
  | ⟨1, _⟩ => show win0_2.index t (1 : Fin 2) * 8 + 1 * (x 1).val = (k 1).val; rw [e1, hk1]; omega

/-- What a point leaves at an entry of its output block, the entry given as one index. -/
theorem out_at (x0 : Vec Ideal S128x8x1024 .f32) (x1 : Vec Ideal S128x28 .f32) (x2 : Vec Ideal S128x8 .f32)
    (y : S128x8x1024.Idx) :
    out0_3 x0 x1 x2 y
      = ∑ j : Fin 8, (mat (fun k => x1 (ix2 (y 0) k)) 28 (y 1) j * x2 (ix2 (y 0) (y 1))) * x0 (ix3 (y 0) j (y 2)) := by
  obtain ⟨p, r, l, rfl⟩ : ∃ (p : Fin 128) (r : Fin 8) (l : Fin 1024), y = ix3 p r l := ⟨y 0, y 1, y 2, eq_ix3 y⟩
  exact block_eq x0 x1 x2 p r l

/-- If the three blocks are the arrays' rows at the block's place, the block's entry is the specification's entry. -/
theorem point_eq (x0 : Vec Ideal S128x8x1024 .f32) (x1 : Vec Ideal S128x28 .f32) (x2 : Vec Ideal S128x8 .f32)
    (X : S4096x8x1024.Idx → EReal) (A : S4096x28.Idx → EReal) (Mu : S4096x8.Idx → EReal)
    (y : S128x8x1024.Idx) (i : S4096x8x1024.Idx) (h1 : y 1 = i 1) (h2 : y 2 = i 2)
    (hx0 : ∀ j : Fin 8, x0 (ix3 (y 0) j (y 2)) = X (ix3 (i 0) j (i 2)))
    (hx1 : ∀ k : Fin 28, x1 (ix2 (y 0) k) = A (ix2 (i 0) k))
    (hx2 : x2 (ix2 (y 0) (y 1)) = Mu (ix2 (i 0) (i 1))) :
    out0_3 x0 x1 x2 y = G X A Mu i := by
  rw [out_at]
  show _ = ∑ j : Fin 8, (mat (fun k => A (ix2 (i 0) k)) 28 (i 1) j * Mu (ix2 (i 0) (i 1))) * X (ix3 (i 0) j (i 2))
  rw [hx2, (funext hx1 : (fun k => x1 (ix2 (y 0) k)) = fun k => A (ix2 (i 0) k)), h1]
  exact Finset.sum_congr rfl fun j _ => by rw [hx0 j]

/-- What point t writes back is block t of the specification's function of the three argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  show (cfg0.win 3).cut (grid0.coords t) ((dats m 0 c).after 3 t) = _
  rw [after0_3]
  obtain ⟨-, -, -, -, -, -, -, e0, e1, e2⟩ := idx_facts t
  funext j
  rw [View.read_apply]
  have hj0 : (j 0).val < 128 := (j 0).isLt
  have hj1 : (j 1).val < 8 := (j 1).isLt
  have hj2 : (j 2).val < 1024 := (j 2).isLt
  have k0 : ((((cfg0.win 3).blk t).view.emb j) 0).val = 128 * t.val + (j 0).val := by
    show win0_3.index t (0 : Fin 3) * 128 + 1 * (j 0).val = _; rw [e0]; omega
  have k1 : ((((cfg0.win 3).blk t).view.emb j) 1).val = (j 1).val := by
    show win0_3.index t (1 : Fin 3) * 8 + 1 * (j 1).val = _; rw [e1]; omega
  have k2 : ((((cfg0.win 3).blk t).view.emb j) 2).val = (j 2).val := by
    show win0_3.index t (2 : Fin 3) * 1024 + 1 * (j 2).val = _; rw [e2]; omega
  exact point_eq (iblk m c 0 t) (iblk m c 1 t) (iblk m c 2 t) (V m c main_arg0) (V m c main_arg1) (V m c main_arg2)
    ((cfg0.win 3).xinj (grid0.coords t) j) (((cfg0.win 3).blk t).view.emb j)
    (Fin.ext k1.symm) (Fin.ext k2.symm)
    (fun q => iblk0_apply m c t _ _ k0 rfl k2)
    (fun k => iblk1_apply m c t _ _ k0 rfl)
    (iblk2_apply m c t _ _ k0 k1)

/-- An index of the array is in point t's block iff each coordinate is in the block's range on its axis. -/
theorem mem_blk (t : Fin cfg0.N) (i : S4096x8x1024.Idx) :
    i ∈ ((cfg0.win 3).blk t).view.set
      ↔ ∀ a : Fin 3, win0_3.index t a * S128x8x1024.size a ≤ (i a).val
          ∧ (i a).val < win0_3.index t a * S128x8x1024.size a + S128x8x1024.size a := by
  show i ∈ ((View.whole main_v0).slice (win0_3.rect t)).set ↔ _
  rw [View.set_slice_whole, Rect.mem_set_unit]
  exact Iff.rfl

/-- Every index of the result array is in some point's block: row b is in block b / 128. -/
theorem cover (i : S4096x8x1024.Idx) :
    ∃ t : Fin cfg0.N, (cfg0.win 3).flush t = true ∧ i ∈ ((cfg0.win 3).blk t).view.set := by
  have hN : cfg0.N = 32 := N_0
  have hi0 : (i 0).val < 4096 := (i 0).isLt
  have hi1 : (i 1).val < 8 := (i 1).isLt
  have hi2 : (i 2).val < 1024 := (i 2).isLt
  have ht : (i 0).val / 128 < cfg0.N := by rw [hN]; omega
  refine ⟨⟨(i 0).val / 128, ht⟩, flush0_3 _, ?_⟩
  obtain ⟨-, -, -, -, -, -, -, e0, e1, e2⟩ := idx_facts ⟨(i 0).val / 128, ht⟩
  rw [mem_blk]
  intro a
  match a with
  | ⟨0, _⟩ =>
    show win0_3.index ⟨(i 0).val / 128, ht⟩ (0 : Fin 3) * 128 ≤ (i 0).val
      ∧ (i 0).val < win0_3.index ⟨(i 0).val / 128, ht⟩ (0 : Fin 3) * 128 + 128
    rw [e0]; show (i 0).val / 128 * 128 ≤ (i 0).val ∧ (i 0).val < (i 0).val / 128 * 128 + 128; omega
  | ⟨1, _⟩ =>
    show win0_3.index ⟨(i 0).val / 128, ht⟩ (1 : Fin 3) * 8 ≤ (i 1).val
      ∧ (i 1).val < win0_3.index ⟨(i 0).val / 128, ht⟩ (1 : Fin 3) * 8 + 8
    rw [e1]; omega
  | ⟨2, _⟩ =>
    show win0_3.index ⟨(i 0).val / 128, ht⟩ (2 : Fin 3) * 1024 ≤ (i 2).val
      ∧ (i 2).val < win0_3.index ⟨(i 0).val / 128, ht⟩ (2 : Fin 3) * 1024 + 1024
    rw [e2]; omega

/-- So the result array ends holding the specification's function of the argument arrays as the region finds them. -/
theorem final (c : Dev nD) :
    (dats m 0 c).arrAt 3 cfg0.N = G (V m c main_arg0) (V m c main_arg1) (V m c main_arg2) :=
  (dats m 0 c).arrAt_eq_of_cover 3 (G (V m c main_arg0) (V m c main_arg1) (V m c main_arg2))
    (fun t _ => flushed_eq m c t) cover

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue
end
-- ==== Proof.RefScatter.lean ====
/-
  The reference's row update, read at an index.

  The reference program replaces one row of every 8×8 block by a scatter whose single scatter index names the row:
  the update array has one row per block, and update element `(b, q)` lands at `(b, k, q)`. The scatter is a left
  fold of pointwise overwrites over the update's elements. Read at `(b, r, q)` the fold gives the update's `(b, q)`
  when `r = k` (exactly one step writes there) and the operand's element otherwise (no step writes there).
-/
import proofs.«129155_j44933947851298_2_alg».proof.Proof.Gen.ReferenceIdeal.Run
import Idealize.ShloMosaic.Lib.ValueIdx

noncomputable section

namespace Cert.ReferenceIdeal.RefValue

open Cert.ReferenceIdeal Cert.ReferenceIdeal.Gen Idealize.ShloMosaic Idealize.ShloMosaic.ValueIdx

/-! ## A left fold of pointwise overwrites, read at one index -/

section Fold
variable {ι κ β : Type} [DecidableEq κ]

/-- No step of the fold writes at `i'`: the fold keeps the initial value there. -/
theorem foldl_overwrite_miss (tgt : ι → κ) (v : ι → β) (L : List ι) (x : κ → β) (i' : κ)
    (h : ∀ n ∈ L, tgt n ≠ i') :
    L.foldl (fun r n => fun i => if i = tgt n then v n else r i) x i' = x i' := by
  induction L generalizing x with
  | nil => rfl
  | cons a L ih =>
    rw [List.foldl_cons, ih _ (fun n hn => h n (List.mem_cons_of_mem _ hn))]
    exact if_neg (fun e => h a List.mem_cons_self e.symm)

/-- Exactly one step `n0` of the fold writes at `i'`: the fold holds that step's value there. -/
theorem foldl_overwrite_hit (tgt : ι → κ) (v : ι → β) (L : List ι) (x : κ → β) (i' : κ) (n0 : ι)
    (hmem : n0 ∈ L) (ht : tgt n0 = i') (huniq : ∀ n ∈ L, tgt n = i' → n = n0) :
    L.foldl (fun r n => fun i => if i = tgt n then v n else r i) x i' = v n0 := by
  induction L generalizing x with
  | nil => cases hmem
  | cons a L ih =>
    rw [List.foldl_cons]
    by_cases hL : n0 ∈ L
    · exact ih _ hL (fun n hn => huniq n (List.mem_cons_of_mem _ hn))
    · have ha : a = n0 := by
        rcases List.mem_cons.1 hmem with h | h
        · exact h.symm
        · exact absurd h hL
      subst ha
      rw [foldl_overwrite_miss tgt v L _ i'
        (fun n hn e => hL (huniq n (List.mem_cons_of_mem _ hn) e ▸ hn))]
      exact if_pos ht.symm

end Fold

/-! ## The scatter of one row: where an update element lands -/

/-- With the one scatter index equal to the row `k`, update element `j = (b, q)` lands at `(b, k, q)`. -/
theorem resultIdx_eq (idx : IVec S1 32) (k : Fin 8) (hidx : ∀ t, (idx t).toInt = (k.val : ℤ)) (j : S4096x8.Idx) :
    scatter_S4096x8x8_S1_S4096x8_01_1_1_0.resultIdx? j idx = some (ix3 (j 0 : Fin 4096) k (j 1 : Fin 8)) := by
  have hs0 : scatter_S4096x8x8_S1_S4096x8_01_1_1_0.start j idx (0 : Fin 3) = 0 := by
    unfold ScatterDims.start; rw [dif_neg (by decide)]
  have hs1 : scatter_S4096x8x8_S1_S4096x8_01_1_1_0.start j idx (1 : Fin 3) = (k.val : ℤ) := by
    unfold ScatterDims.start; rw [dif_pos (by decide)]; exact hidx _
  have hs2 : scatter_S4096x8x8_S1_S4096x8_01_1_1_0.start j idx (2 : Fin 3) = 0 := by
    unfold ScatterDims.start; rw [dif_neg (by decide)]
  have hw0 : scatter_S4096x8x8_S1_S4096x8_01_1_1_0.window j (0 : Fin 3) = (j 0).val := by
    unfold ScatterDims.window; rw [dif_pos (by decide)]; rfl
  have hw1 : scatter_S4096x8x8_S1_S4096x8_01_1_1_0.window j (1 : Fin 3) = 0 := by
    unfold ScatterDims.window; rw [dif_neg (by decide)]
  have hw2 : scatter_S4096x8x8_S1_S4096x8_01_1_1_0.window j (2 : Fin 3) = (j 1).val := by
    unfold ScatterDims.window; rw [dif_pos (by decide)]; rfl
  have hb0 : (j 0).val < 4096 := (j 0).isLt
  have hb1 : (j 1).val < 8 := (j 1).isLt
  have hk : k.val < 8 := k.isLt
  unfold ScatterDims.resultIdx?
  rw [dif_pos (fun a => match a with
    | ⟨0, _⟩ => by
        show 0 ≤ scatter_S4096x8x8_S1_S4096x8_01_1_1_0.start j idx (0 : Fin 3) + ((scatter_S4096x8x8_S1_S4096x8_01_1_1_0.window j (0 : Fin 3) : ℕ) : ℤ) ∧ scatter_S4096x8x8_S1_S4096x8_01_1_1_0.start j idx (0 : Fin 3) + ((scatter_S4096x8x8_S1_S4096x8_01_1_1_0.window j (0 : Fin 3) : ℕ) : ℤ) < (4096 : ℤ)
        rw [hs0, hw0]; omega
    | ⟨1, _⟩ => by
        show 0 ≤ scatter_S4096x8x8_S1_S4096x8_01_1_1_0.start j idx (1 : Fin 3) + ((scatter_S4096x8x8_S1_S4096x8_01_1_1_0.window j (1 : Fin 3) : ℕ) : ℤ) ∧ scatter_S4096x8x8_S1_S4096x8_01_1_1_0.start j idx (1 : Fin 3) + ((scatter_S4096x8x8_S1_S4096x8_01_1_1_0.window j (1 : Fin 3) : ℕ) : ℤ) < (8 : ℤ)
        rw [hs1, hw1]; omega
    | ⟨2, _⟩ => by
        show 0 ≤ scatter_S4096x8x8_S1_S4096x8_01_1_1_0.start j idx (2 : Fin 3) + ((scatter_S4096x8x8_S1_S4096x8_01_1_1_0.window j (2 : Fin 3) : ℕ) : ℤ) ∧ scatter_S4096x8x8_S1_S4096x8_01_1_1_0.start j idx (2 : Fin 3) + ((scatter_S4096x8x8_S1_S4096x8_01_1_1_0.window j (2 : Fin 3) : ℕ) : ℤ) < (8 : ℤ)
        rw [hs2, hw2]; omega)]
  refine congrArg some (funext fun a => ?_)
  match a with
  | ⟨0, _⟩ =>
    refine Fin.ext ?_
    show (scatter_S4096x8x8_S1_S4096x8_01_1_1_0.start j idx (0 : Fin 3) + ((scatter_S4096x8x8_S1_S4096x8_01_1_1_0.window j (0 : Fin 3) : ℕ) : ℤ)).toNat = (j 0).val
    rw [hs0, hw0]; omega
  | ⟨1, _⟩ =>
    refine Fin.ext ?_
    show (scatter_S4096x8x8_S1_S4096x8_01_1_1_0.start j idx (1 : Fin 3) + ((scatter_S4096x8x8_S1_S4096x8_01_1_1_0.window j (1 : Fin 3) : ℕ) : ℤ)).toNat = k.val
    rw [hs1, hw1]; omega
  | ⟨2, _⟩ =>
    refine Fin.ext ?_
    show (scatter_S4096x8x8_S1_S4096x8_01_1_1_0.start j idx (2 : Fin 3) + ((scatter_S4096x8x8_S1_S4096x8_01_1_1_0.window j (2 : Fin 3) : ℕ) : ℤ)).toNat = (j 1).val
    rw [hs2, hw2]; omega

/-! ## The scatter of one row, read at an index -/

/-- Scattering the rank-2 update `upd` into row `k` (the one scatter index) of every block of `x`: row `k` of each
    block is replaced by the block's update row, every other row kept. -/
theorem scatter_row {α : Type} (x : S4096x8x8.Idx → α) (idx : IVec S1 32) (upd : S4096x8.Idx → α) (k : Fin 8)
    (hidx : ∀ t, (idx t).toInt = (k.val : ℤ)) (b : Fin 4096) (r q : Fin 8) :
    Host.scatter scatter_S4096x8x8_S1_S4096x8_01_1_1_0 (fun _ c => c) x idx upd (ix3 b r q)
      = if r = k then upd (ix2 b q) else x (ix3 b r q) := by
  unfold Host.scatter
  simp only [resultIdx_eq idx k hidx]
  by_cases hr : r = k
  · subst hr
    rw [if_pos rfl]
    refine (foldl_overwrite_hit
      (fun n : Fin S4096x8.numel => (ix3 ((S4096x8.rowMajor.symm n) 0 : Fin 4096) r ((S4096x8.rowMajor.symm n) 1 : Fin 8) : S4096x8x8.Idx))
      (fun n => upd (S4096x8.rowMajor.symm n)) _ x (ix3 b r q) (S4096x8.rowMajor (ix2 b q)) (List.mem_finRange _) ?_ ?_).trans ?_
    · show (ix3 ((S4096x8.rowMajor.symm (S4096x8.rowMajor (ix2 b q))) 0 : Fin 4096) r
        ((S4096x8.rowMajor.symm (S4096x8.rowMajor (ix2 b q))) 1 : Fin 8) : S4096x8x8.Idx) = ix3 b r q
      rw [Equiv.symm_apply_apply]
    · intro n _ hn
      refine (Equiv.symm_apply_eq _).1 ?_
      have h0 : ((S4096x8.rowMajor.symm n) 0 : Fin 4096) = b := congrFun hn (0 : Fin 3)
      have h1 : ((S4096x8.rowMajor.symm n) 1 : Fin 8) = q := congrFun hn (2 : Fin 3)
      refine (eq_ix2 (S4096x8.rowMajor.symm n)).trans ?_
      show (ix2 ((S4096x8.rowMajor.symm n) 0 : Fin 4096) ((S4096x8.rowMajor.symm n) 1 : Fin 8) : S4096x8.Idx) = ix2 b q
      rw [h0, h1]
    · show upd (S4096x8.rowMajor.symm (S4096x8.rowMajor (ix2 b q))) = upd (ix2 b q)
      rw [Equiv.symm_apply_apply]
  · rw [if_neg hr]
    refine foldl_overwrite_miss
      (fun n : Fin S4096x8.numel => (ix3 ((S4096x8.rowMajor.symm n) 0 : Fin 4096) k ((S4096x8.rowMajor.symm n) 1 : Fin 8) : S4096x8x8.Idx))
      (fun n => upd (S4096x8.rowMajor.symm n)) _ x (ix3 b r q) (fun n _ e => hr ?_)
    have h1 : k = r := congrFun e (1 : Fin 3)
    exact h1.symm

end Cert.ReferenceIdeal.RefValue

end
-- ==== Proof.RefSteps.lean ====
/-
  One rotation of the reference program, read at an index.

  Each of the 28 steps of the reference takes the cosine and sine of one column of the angles (one angle per block),
  reads rows `i` and `j` of every block's 8×8 matrix, and writes `cos · row i − sin · row j` back into row `i`, then
  `sin · row i + cos · row j` (of the rows as they were before the step) into row `j`, by two row scatters. This module
  reads the slices, broadcasts and the two scatters at an index, and shows that the step carries the matrix after `n`
  plane rotations to the matrix after `n + 1`.
-/
import proofs.«129155_j44933947851298_2_alg».proof.Proof.RefScatter
import proofs.«129155_j44933947851298_2_alg».proof.Proof.Spec
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.ValueIdx Cert.Givens

/-! ## The small reads -/

/-- A per-block scalar broadcast along a block's row reads the block's scalar. -/
theorem bc_apply {α : Type} (v : S4096.Idx → α) (b : Fin 4096) (q : Fin 8) :
    broadcastInDim S4096x8 ![0, 1] bcast_S4096x1_S4096x8_0_1 (broadcastInDim S4096x1 ![0] bcast_S4096_S4096x1_0 v) (ix2 b q)
      = v (ix1 b) :=
  (broadcastInDim_apply _ _ _ (ix2 b q) (ix2 b (0 : Fin 1)) (fun a => match a with | ⟨0, _⟩ => rfl | ⟨1, _⟩ => rfl)).trans
    (broadcastInDim_apply _ _ _ (ix2 b (0 : Fin 1)) (ix1 b) (fun a => match a with | ⟨0, _⟩ => rfl))

/-- Row `o` of every block, sliced out and flattened to one row per block. -/
theorem row_apply {α : Type} (M : S4096x8x8.Idx → α) (o : ℕ) (ho : o < 8) (hs : S4096x8x8.Slices ![0, o, 0] S4096x1x8)
    (hc : S4096x1x8.ShapeCasts S4096x8) (b : Fin 4096) (q : Fin 8) :
    shapeCast S4096x8 (extractStridedSlice S4096x1x8 ![0, o, 0] M hs) hc (ix2 b q) = M (ix3 b (⟨o, ho⟩ : Fin 8) q) :=
  (shapeCast_apply _ hc (ix2 b q) (ix3 b (0 : Fin 1) q) (by
      rw [Shape.rowMajor_val_three, Shape.rowMajor_val_two]
      show (b.val * 1 + 0) * 8 + q.val = b.val * 8 + q.val
      omega)).trans
    (extractStridedSlice_apply _ M hs (ix3 b (0 : Fin 1) q) (ix3 b (⟨o, ho⟩ : Fin 8) q) (fun a => match a with
      | ⟨0, _⟩ => (Nat.zero_add _).symm | ⟨1, _⟩ => (Nat.add_zero _).symm | ⟨2, _⟩ => (Nat.zero_add _).symm))

/-- Column `n` of the angles, sliced out and flattened to one angle per block. -/
theorem col_apply {α : Type} (A : S4096x28.Idx → α) (n : ℕ) (hn : n < 28) (hs : S4096x28.Slices ![0, n] S4096x1)
    (hc : S4096x1.ShapeCasts S4096) (b : Fin 4096) :
    shapeCast S4096 (extractStridedSlice S4096x1 ![0, n] A hs) hc (ix1 b) = A (ix2 b (⟨n, hn⟩ : Fin 28)) :=
  (shapeCast_apply _ hc (ix1 b) (ix2 b (0 : Fin 1)) (by
      rw [Shape.rowMajor_val_two, Shape.rowMajor_val_one]
      show b.val * 1 + 0 = b.val
      omega)).trans
    (extractStridedSlice_apply _ A hs (ix2 b (0 : Fin 1)) (ix2 b (⟨n, hn⟩ : Fin 28)) (fun a => match a with
      | ⟨0, _⟩ => (Nat.zero_add _).symm | ⟨1, _⟩ => (Nat.add_zero _).symm))

/-- The cosine of column `n` of the angles. -/
theorem cos_col_apply (A : S4096x28.Idx → EReal) (n : ℕ) (hn : n < 28) (hs : S4096x28.Slices ![0, n] S4096x1)
    (hc : S4096x1.ShapeCasts S4096) (b : Fin 4096) :
    Host.cos (F := Ideal) (φ := .f32) (shapeCast S4096 (extractStridedSlice S4096x1 ![0, n] A hs) hc) (ix1 b)
      = Ideal.cos (A (ix2 b (⟨n, hn⟩ : Fin 28))) :=
  congrArg Ideal.cos (col_apply A n hn hs hc b)

/-- The sine of column `n` of the angles. -/
theorem sin_col_apply (A : S4096x28.Idx → EReal) (n : ℕ) (hn : n < 28) (hs : S4096x28.Slices ![0, n] S4096x1)
    (hc : S4096x1.ShapeCasts S4096) (b : Fin 4096) :
    Host.sin (F := Ideal) (φ := .f32) (shapeCast S4096 (extractStridedSlice S4096x1 ![0, n] A hs) hc) (ix1 b)
      = Ideal.sin (A (ix2 b (⟨n, hn⟩ : Fin 28))) :=
  congrArg Ideal.sin (col_apply A n hn hs hc b)

/-- One 8×8 matrix repeated in every block. -/
theorem rep_apply {α : Type} (E : S8x8.Idx → α) (b : Fin 4096) (r q : Fin 8) :
    broadcastInDim S4096x8x8 ![1, 2] bcast_S8x8_S4096x8x8_1_2 E (ix3 b r q) = E (ix2 r q) :=
  broadcastInDim_apply _ _ _ (ix3 b r q) (ix2 r q) (fun a => match a with | ⟨0, _⟩ => rfl | ⟨1, _⟩ => rfl)

/-- Row `o` of one 8×8 matrix, sliced out, flattened and repeated in every block. -/
theorem row0_apply {α : Type} (E : S8x8.Idx → α) (o : ℕ) (ho : o < 8) (hs : S8x8.Slices ![o, 0] S1x8)
    (hc : S1x8.ShapeCasts S8) (b : Fin 4096) (q : Fin 8) :
    broadcastInDim S4096x8 ![0, 1] bcast_S1x8_S4096x8_0_1
        (broadcastInDim S1x8 ![1] bcast_S8_S1x8_1 (shapeCast S8 (extractStridedSlice S1x8 ![o, 0] E hs) hc)) (ix2 b q)
      = E (ix2 (⟨o, ho⟩ : Fin 8) q) :=
  (broadcastInDim_apply _ _ _ (ix2 b q) (ix2 (0 : Fin 1) q) (fun a => match a with | ⟨0, _⟩ => rfl | ⟨1, _⟩ => rfl)).trans
    ((broadcastInDim_apply _ _ _ (ix2 (0 : Fin 1) q) (ix1 q) (fun a => match a with | ⟨0, _⟩ => rfl)).trans
      ((shapeCast_1a_a_apply _ hc q).trans
        (extractStridedSlice_apply _ E hs (ix2 (0 : Fin 1) q) (ix2 (⟨o, ho⟩ : Fin 8) q) (fun a => match a with
          | ⟨0, _⟩ => (Nat.add_zero _).symm | ⟨1, _⟩ => (Nat.zero_add _).symm))))

/-! ## One rotation -/

/-- The two scatters of one rotation, read at an index: row `j` holds `sin · row i + cos · row j`, row `i` holds
    `cos · row i − sin · row j` (unless `i = j`, when the later scatter wins), every other row is kept. -/
theorem step_apply (M : S4096x8x8.Idx → EReal) (cosv sinv : S4096.Idx → EReal) (rowi rowj : S4096x8.Idx → EReal)
    (idxi idxj : IVec S1 32) (i j : Fin 8) (hi : ∀ t, (idxi t).toInt = (i.val : ℤ)) (hj : ∀ t, (idxj t).toInt = (j.val : ℤ))
    (b : Fin 4096) (r q : Fin 8) :
    Host.scatter scatter_S4096x8x8_S1_S4096x8_01_1_1_0 (fun _ c => c)
      (Host.scatter scatter_S4096x8x8_S1_S4096x8_01_1_1_0 (fun _ c => c) M idxi
        (subf (F := Ideal) (φ := .f32) (mulf (broadcastInDim S4096x8 ![0, 1] bcast_S4096x1_S4096x8_0_1 (broadcastInDim S4096x1 ![0] bcast_S4096_S4096x1_0 cosv)) rowi) (mulf (broadcastInDim S4096x8 ![0, 1] bcast_S4096x1_S4096x8_0_1 (broadcastInDim S4096x1 ![0] bcast_S4096_S4096x1_0 sinv)) rowj)))
      idxj (addf (F := Ideal) (φ := .f32) (mulf (broadcastInDim S4096x8 ![0, 1] bcast_S4096x1_S4096x8_0_1 (broadcastInDim S4096x1 ![0] bcast_S4096_S4096x1_0 sinv)) rowi) (mulf (broadcastInDim S4096x8 ![0, 1] bcast_S4096x1_S4096x8_0_1 (broadcastInDim S4096x1 ![0] bcast_S4096_S4096x1_0 cosv)) rowj)) (ix3 b r q)
      = if r = j then sinv (ix1 b) * rowi (ix2 b q) + cosv (ix1 b) * rowj (ix2 b q)
        else if r = i then cosv (ix1 b) * rowi (ix2 b q) - sinv (ix1 b) * rowj (ix2 b q)
        else M (ix3 b r q) := by
  rw [scatter_row _ _ _ j hj]
  by_cases h1 : r = j
  · rw [if_pos h1, if_pos h1]
    show (broadcastInDim S4096x8 ![0, 1] bcast_S4096x1_S4096x8_0_1 (broadcastInDim S4096x1 ![0] bcast_S4096_S4096x1_0 sinv)) (ix2 b q) * rowi (ix2 b q) + (broadcastInDim S4096x8 ![0, 1] bcast_S4096x1_S4096x8_0_1 (broadcastInDim S4096x1 ![0] bcast_S4096_S4096x1_0 cosv)) (ix2 b q) * rowj (ix2 b q) = _
    rw [bc_apply, bc_apply]
  · rw [if_neg h1, if_neg h1, scatter_row _ _ _ i hi]
    by_cases h2 : r = i
    · rw [if_pos h2, if_pos h2]
      show (broadcastInDim S4096x8 ![0, 1] bcast_S4096x1_S4096x8_0_1 (broadcastInDim S4096x1 ![0] bcast_S4096_S4096x1_0 cosv)) (ix2 b q) * rowi (ix2 b q) - (broadcastInDim S4096x8 ![0, 1] bcast_S4096x1_S4096x8_0_1 (broadcastInDim S4096x1 ![0] bcast_S4096_S4096x1_0 sinv)) (ix2 b q) * rowj (ix2 b q) = _
      rw [bc_apply, bc_apply]
    · rw [if_neg h2, if_neg h2]

/-- One rotation carries the matrix after `n` steps to the matrix after `n + 1` steps. -/
theorem step_mat (A : S4096x28.Idx → EReal) (n : ℕ) (hn : n < 28) (M : S4096x8x8.Idx → EReal)
    (hM : ∀ b r q, M (ix3 b r q) = mat (fun k => A (ix2 b k)) n r q)
    (cosv sinv : S4096.Idx → EReal)
    (hc : ∀ b, cosv (ix1 b) = Ideal.cos (A (ix2 b (⟨n, hn⟩ : Fin 28))))
    (hs : ∀ b, sinv (ix1 b) = Ideal.sin (A (ix2 b (⟨n, hn⟩ : Fin 28))))
    (oi oj : ℕ) (hoi : oi < 8) (hoj : oj < 8) (hi : pairI ⟨n, hn⟩ = ⟨oi, hoi⟩) (hj : pairJ ⟨n, hn⟩ = ⟨oj, hoj⟩)
    (hij : oj ≠ oi)
    (rowi rowj : S4096x8.Idx → EReal)
    (hri : ∀ b q, rowi (ix2 b q) = M (ix3 b (⟨oi, hoi⟩ : Fin 8) q))
    (hrj : ∀ b q, rowj (ix2 b q) = M (ix3 b (⟨oj, hoj⟩ : Fin 8) q))
    (idxi idxj : IVec S1 32) (hidxi : ∀ t, (idxi t).toInt = (oi : ℤ)) (hidxj : ∀ t, (idxj t).toInt = (oj : ℤ))
    (b : Fin 4096) (r q : Fin 8) :
    Host.scatter scatter_S4096x8x8_S1_S4096x8_01_1_1_0 (fun _ c => c)
      (Host.scatter scatter_S4096x8x8_S1_S4096x8_01_1_1_0 (fun _ c => c) M idxi
        (subf (F := Ideal) (φ := .f32) (mulf (broadcastInDim S4096x8 ![0, 1] bcast_S4096x1_S4096x8_0_1 (broadcastInDim S4096x1 ![0] bcast_S4096_S4096x1_0 cosv)) rowi) (mulf (broadcastInDim S4096x8 ![0, 1] bcast_S4096x1_S4096x8_0_1 (broadcastInDim S4096x1 ![0] bcast_S4096_S4096x1_0 sinv)) rowj)))
      idxj (addf (F := Ideal) (φ := .f32) (mulf (broadcastInDim S4096x8 ![0, 1] bcast_S4096x1_S4096x8_0_1 (broadcastInDim S4096x1 ![0] bcast_S4096_S4096x1_0 sinv)) rowi) (mulf (broadcastInDim S4096x8 ![0, 1] bcast_S4096x1_S4096x8_0_1 (broadcastInDim S4096x1 ![0] bcast_S4096_S4096x1_0 cosv)) rowj)) (ix3 b r q)
      = mat (fun k => A (ix2 b k)) (n + 1) r q := by
  rw [step_apply M cosv sinv rowi rowj idxi idxj ⟨oi, hoi⟩ ⟨oj, hoj⟩ hidxi hidxj b r q, hc, hs, hri, hrj, hM, hM]
  by_cases h1 : r = ⟨oj, hoj⟩
  · rw [if_pos h1]
    have hne : r ≠ pairI ⟨n, hn⟩ := by
      rw [hi, h1]; intro e; exact hij (congrArg Fin.val e)
    rw [mat_succ_btm _ n hn r hne (h1.trans hj.symm) q, hi, hj]
  · rw [if_neg h1]
    by_cases h2 : r = ⟨oi, hoi⟩
    · rw [if_pos h2, mat_succ_top _ n hn r (h2.trans hi.symm) q, hi, hj]
    · rw [if_neg h2, hM, mat_succ_keep _ n hn r (by rw [hi]; exact h2) (by rw [hj]; exact h1) q]

end Cert.ReferenceIdeal.RefValue

end
-- ==== Proof.RefDot.lean ====
/-
  Two readings of the reference's last operations at an index: the batched contraction over the middle axis as a sum
  over the eight columns, and the scale factors broadcast along each row.
-/
import proofs.«129155_j44933947851298_2_alg».proof.Proof.Gen.ReferenceIdeal
import Idealize.ShloMosaic.Lib.ValueIdx
import Idealize.ShloMosaic.Lib.Pipeline.Value
import Idealize.ShloMosaic.PureOps.Ideal.Laws

noncomputable section
open scoped BigOperators
namespace Cert.ReferenceIdeal.RefValue
open Cert.ReferenceIdeal Cert.ReferenceIdeal.Gen Idealize.ShloMosaic Idealize.ShloMosaic.ValueIdx

/-- The contraction `bij,bjl->bil` at (b, r, l): the sum over j of L(b, r, j) · X(b, j, l). -/
theorem dot_apply (L : S4096x8x8.Idx → EReal) (X : S4096x8x1024.Idx → EReal) (b : Fin 4096) (r : Fin 8) (l : Fin 1024) :
    Host.dotGeneral (F := Ideal) (φ₁ := .f32) (φ₂ := .f32) dot_S4096x8x8_S4096x8x1024_S4096x8x1024_2_1_1_2_0_0 none L X (ix3 b r l)
      = ∑ j : Fin 8, L (ix3 b r j) * X (ix3 b j l) := by
  simp only [Host.dotGeneral]
  rw [Ideal.dotGeneral_apply]
  rw [← Equiv.sum_comp (contrEquiv1 dot_S4096x8x8_S4096x8x1024_S4096x8x1024_2_1_1_2_0_0 8 rfl rfl).symm]
  refine Finset.sum_congr rfl (fun i _ => ?_)
  have hl : dot_S4096x8x8_S4096x8x1024_S4096x8x1024_2_1_1_2_0_0.lhsIdx (ix3 b r l)
      ((contrEquiv1 dot_S4096x8x8_S4096x8x1024_S4096x8x1024_2_1_1_2_0_0 8 rfl rfl).symm i) = ix3 b r i := by
    funext a; apply Fin.ext
    match a with
    | ⟨0, _⟩ => rfl
    | ⟨1, _⟩ => rfl
    | ⟨2, _⟩ => exact (DotDims.lhsIdx_val_of_single _ rfl _ _).trans (contrEquiv1_symm_val _ 8 rfl rfl i)
  have hr : dot_S4096x8x8_S4096x8x1024_S4096x8x1024_2_1_1_2_0_0.rhsIdx (ix3 b r l)
      ((contrEquiv1 dot_S4096x8x8_S4096x8x1024_S4096x8x1024_2_1_1_2_0_0 8 rfl rfl).symm i) = ix3 b i l := by
    funext a; apply Fin.ext
    match a with
    | ⟨0, _⟩ => rfl
    | ⟨1, _⟩ => exact (DotDims.rhsIdx_val_of_single _ rfl _ _).trans (contrEquiv1_symm_val _ 8 rfl rfl i)
    | ⟨2, _⟩ => rfl
  rw [hl, hr]

/-- The scale factors, broadcast along each row, times a matrix entry. -/
theorem musScale_apply (Mu : S4096x8.Idx → EReal) (M : S4096x8x8.Idx → EReal) (b : Fin 4096) (r j : Fin 8) :
    mulf (F := Ideal) (φ := .f32) (broadcastInDim S4096x8x8 ![0, 1, 2] bcast_S4096x8x1_S4096x8x8_0_1_2
      (broadcastInDim S4096x8x1 ![0, 1] bcast_S4096x8_S4096x8x1_0_1 Mu)) M (ix3 b r j) = Mu (ix2 b r) * M (ix3 b r j) := by
  rw [mulf_apply]
  rw [broadcastInDim_apply _ _ _ (ix3 b r j) (ix3 b r (0 : Fin 1)) (fun a => by
    match a with
    | ⟨0, _⟩ => rfl
    | ⟨1, _⟩ => rfl
    | ⟨2, _⟩ => rfl)]
  rw [broadcastInDim_apply _ _ _ (ix3 b r (0 : Fin 1)) (ix2 b r) (fun a => by
    match a with
    | ⟨0, _⟩ => rfl
    | ⟨1, _⟩ => rfl)]

end Cert.ReferenceIdeal.RefValue
end
-- ==== Proof.RefChain.lean ====
/-
  The reference's 28 rotations, one after another.

  The reference starts from the identity matrix in every block and applies the 28 plane rotations in the order of the
  pairs `(i, j)`, `i < j`, lexicographic. The run names the matrix after each rotation; each theorem here reads one
  of them at an index as the matrix after that many rotations, from the one before it.
-/
import proofs.«129155_j44933947851298_2_alg».proof.Proof.RefSteps
import proofs.«129155_j44933947851298_2_alg».proof.Proof.RefDot

noncomputable section

open scoped BigOperators

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Givens

/-- The angles, as an array over blocks and steps. -/
abbrev argA (V0 : Valuation τ sig (Elt Ideal)) : S4096x28.Idx → EReal := V0 (Proc.devRef .tc main_arg1)

/-! ## The identity the reference starts from -/

/-- The 8×8 array of 0/1 comparisons of the row and column numbers, converted to floats, is the identity matrix. -/
theorem eye_apply (V0 : Valuation τ sig (Elt Ideal)) (r q : Fin 8) : res_main_v5 V0 (ix2 r q) = eye r q := by
  have key : ∀ r q : Fin 8, IntOp.cmpi .eq (IntOp.addi (BitVec.ofNat 32 r.val) 0#32) (BitVec.ofNat 32 q.val)
      = if r = q then 1#1 else 0#1 := by decide
  show (((IntOp.cmpi .eq (IntOp.addi (BitVec.ofNat 32 r.val) 0#32) (BitVec.ofNat 32 q.val)).toNat : ℝ) : EReal) = eye r q
  rw [key r q]; unfold eye
  by_cases h : r = q
  · rw [if_pos h, if_pos h]; norm_num
  · rw [if_neg h, if_neg h]; norm_num

/-! ## The 28 rotations

Each theorem below reads one named matrix of the reference's run: the matrix after rotation `n + 1` is the double
row scatter of the matrix after rotation `n`, with the cosine and sine of column `n` of the angles and rows
`pairI n`, `pairJ n` of the previous matrix. -/

/-- After rotation 1 (rows 0 and 1). -/
theorem mat_v42 (V0 : Valuation τ sig (Elt Ideal)) (b : Fin 4096) (r q : Fin 8) :
    res_main_v42 V0 (ix3 b r q) = mat (fun k => argA V0 (ix2 b k)) 1 r q := by
  have h1 := step_mat (argA V0) 0 (by decide) (broadcastInDim S4096x8x8 ![1, 2] bcast_S8x8_S4096x8x8_1_2 (res_main_v5 V0))
  have h2 := h1 (fun b r q => (rep_apply _ b r q).trans (eye_apply V0 r q))
  have h3 := h2 (res_main_v8 V0) (res_main_v11 V0)
  have h4 := h3 (fun b => cos_col_apply _ 0 _ _ _ b) (fun b => sin_col_apply _ 0 _ _ _ b)
  have h5 := h4 0 1 (by decide) (by decide) (by decide) (by decide) (by decide)
  have h6 := h5 (broadcastInDim S4096x8 ![0, 1] bcast_S1x8_S4096x8_0_1 (broadcastInDim S1x8 ![1] bcast_S8_S1x8_1 (res_main_v13 V0))) (broadcastInDim S4096x8 ![0, 1] bcast_S1x8_S4096x8_0_1 (broadcastInDim S1x8 ![1] bcast_S8_S1x8_1 (res_main_v15 V0)))
  have h7 := h6 (fun b q => (row0_apply _ 0 _ _ _ b q).trans (rep_apply _ b _ q).symm) (fun b q => (row0_apply _ 1 _ _ _ b q).trans (rep_apply _ b _ q).symm)
  have h8 := h7 (broadcastInDim S1 ![] bcast_S_S1 (constantI S_ 32 0#32)) (broadcastInDim S1 ![] bcast_S_S1 (constantI S_ 32 1#32))
  have h9 := h8 (fun _ => rfl) (fun _ => rfl) b r q
  unfold res_main_v42
  exact h9

/-- After rotation 2 (rows 0 and 2). -/
theorem mat_v70 (V0 : Valuation τ sig (Elt Ideal)) (b : Fin 4096) (r q : Fin 8) :
    res_main_v70 V0 (ix3 b r q) = mat (fun k => argA V0 (ix2 b k)) 2 r q := by
  have h1 := step_mat (argA V0) 1 (by decide) (res_main_v42 V0)
  have h2 := h1 (mat_v42 V0)
  have h3 := h2 (res_main_v45 V0) (res_main_v48 V0)
  have h4 := h3 (fun b => cos_col_apply _ 1 _ _ _ b) (fun b => sin_col_apply _ 1 _ _ _ b)
  have h5 := h4 0 2 (by decide) (by decide) (by decide) (by decide) (by decide)
  have h6 := h5 (res_main_v50 V0) (res_main_v52 V0)
  have h7 := h6 (fun b q => row_apply _ 0 _ _ _ b q) (fun b q => row_apply _ 2 _ _ _ b q)
  have h8 := h7 (broadcastInDim S1 ![] bcast_S_S1 (constantI S_ 32 0#32)) (broadcastInDim S1 ![] bcast_S_S1 (constantI S_ 32 2#32))
  have h9 := h8 (fun _ => rfl) (fun _ => rfl) b r q
  unfold res_main_v70
  exact h9

/-- After rotation 3 (rows 0 and 3). -/
theorem mat_v98 (V0 : Valuation τ sig (Elt Ideal)) (b : Fin 4096) (r q : Fin 8) :
    res_main_v98 V0 (ix3 b r q) = mat (fun k => argA V0 (ix2 b k)) 3 r q := by
  have h1 := step_mat (argA V0) 2 (by decide) (res_main_v70 V0)
  have h2 := h1 (mat_v70 V0)
  have h3 := h2 (res_main_v73 V0) (res_main_v76 V0)
  have h4 := h3 (fun b => cos_col_apply _ 2 _ _ _ b) (fun b => sin_col_apply _ 2 _ _ _ b)
  have h5 := h4 0 3 (by decide) (by decide) (by decide) (by decide) (by decide)
  have h6 := h5 (res_main_v78 V0) (res_main_v80 V0)
  have h7 := h6 (fun b q => row_apply _ 0 _ _ _ b q) (fun b q => row_apply _ 3 _ _ _ b q)
  have h8 := h7 (broadcastInDim S1 ![] bcast_S_S1 (constantI S_ 32 0#32)) (broadcastInDim S1 ![] bcast_S_S1 (constantI S_ 32 3#32))
  have h9 := h8 (fun _ => rfl) (fun _ => rfl) b r q
  unfold res_main_v98
  exact h9

/-- After rotation 4 (rows 0 and 4). -/
theorem mat_v126 (V0 : Valuation τ sig (Elt Ideal)) (b : Fin 4096) (r q : Fin 8) :
    res_main_v126 V0 (ix3 b r q) = mat (fun k => argA V0 (ix2 b k)) 4 r q := by
  have h1 := step_mat (argA V0) 3 (by decide) (res_main_v98 V0)
  have h2 := h1 (mat_v98 V0)
  have h3 := h2 (res_main_v101 V0) (res_main_v104 V0)
  have h4 := h3 (fun b => cos_col_apply _ 3 _ _ _ b) (fun b => sin_col_apply _ 3 _ _ _ b)
  have h5 := h4 0 4 (by decide) (by decide) (by decide) (by decide) (by decide)
  have h6 := h5 (res_main_v106 V0) (res_main_v108 V0)
  have h7 := h6 (fun b q => row_apply _ 0 _ _ _ b q) (fun b q => row_apply _ 4 _ _ _ b q)
  have h8 := h7 (broadcastInDim S1 ![] bcast_S_S1 (constantI S_ 32 0#32)) (broadcastInDim S1 ![] bcast_S_S1 (constantI S_ 32 4#32))
  have h9 := h8 (fun _ => rfl) (fun _ => rfl) b r q
  unfold res_main_v126
  exact h9

/-- After rotation 5 (rows 0 and 5). -/
theorem mat_v154 (V0 : Valuation τ sig (Elt Ideal)) (b : Fin 4096) (r q : Fin 8) :
    res_main_v154 V0 (ix3 b r q) = mat (fun k => argA V0 (ix2 b k)) 5 r q := by
  have h1 := step_mat (argA V0) 4 (by decide) (res_main_v126 V0)
  have h2 := h1 (mat_v126 V0)
  have h3 := h2 (res_main_v129 V0) (res_main_v132 V0)
  have h4 := h3 (fun b => cos_col_apply _ 4 _ _ _ b) (fun b => sin_col_apply _ 4 _ _ _ b)
  have h5 := h4 0 5 (by decide) (by decide) (by decide) (by decide) (by decide)
  have h6 := h5 (res_main_v134 V0) (res_main_v136 V0)
  have h7 := h6 (fun b q => row_apply _ 0 _ _ _ b q) (fun b q => row_apply _ 5 _ _ _ b q)
  have h8 := h7 (broadcastInDim S1 ![] bcast_S_S1 (constantI S_ 32 0#32)) (broadcastInDim S1 ![] bcast_S_S1 (constantI S_ 32 5#32))
  have h9 := h8 (fun _ => rfl) (fun _ => rfl) b r q
  unfold res_main_v154
  exact h9

/-- After rotation 6 (rows 0 and 6). -/
theorem mat_v182 (V0 : Valuation τ sig (Elt Ideal)) (b : Fin 4096) (r q : Fin 8) :
    res_main_v182 V0 (ix3 b r q) = mat (fun k => argA V0 (ix2 b k)) 6 r q := by
  have h1 := step_mat (argA V0) 5 (by decide) (res_main_v154 V0)
  have h2 := h1 (mat_v154 V0)
  have h3 := h2 (res_main_v157 V0) (res_main_v160 V0)
  have h4 := h3 (fun b => cos_col_apply _ 5 _ _ _ b) (fun b => sin_col_apply _ 5 _ _ _ b)
  have h5 := h4 0 6 (by decide) (by decide) (by decide) (by decide) (by decide)
  have h6 := h5 (res_main_v162 V0) (res_main_v164 V0)
  have h7 := h6 (fun b q => row_apply _ 0 _ _ _ b q) (fun b q => row_apply _ 6 _ _ _ b q)
  have h8 := h7 (broadcastInDim S1 ![] bcast_S_S1 (constantI S_ 32 0#32)) (broadcastInDim S1 ![] bcast_S_S1 (constantI S_ 32 6#32))
  have h9 := h8 (fun _ => rfl) (fun _ => rfl) b r q
  unfold res_main_v182
  exact h9

/-- After rotation 7 (rows 0 and 7). -/
theorem mat_v210 (V0 : Valuation τ sig (Elt Ideal)) (b : Fin 4096) (r q : Fin 8) :
    res_main_v210 V0 (ix3 b r q) = mat (fun k => argA V0 (ix2 b k)) 7 r q := by
  have h1 := step_mat (argA V0) 6 (by decide) (res_main_v182 V0)
  have h2 := h1 (mat_v182 V0)
  have h3 := h2 (res_main_v185 V0) (res_main_v188 V0)
  have h4 := h3 (fun b => cos_col_apply _ 6 _ _ _ b) (fun b => sin_col_apply _ 6 _ _ _ b)
  have h5 := h4 0 7 (by decide) (by decide) (by decide) (by decide) (by decide)
  have h6 := h5 (res_main_v190 V0) (res_main_v192 V0)
  have h7 := h6 (fun b q => row_apply _ 0 _ _ _ b q) (fun b q => row_apply _ 7 _ _ _ b q)
  have h8 := h7 (broadcastInDim S1 ![] bcast_S_S1 (constantI S_ 32 0#32)) (broadcastInDim S1 ![] bcast_S_S1 (constantI S_ 32 7#32))
  have h9 := h8 (fun _ => rfl) (fun _ => rfl) b r q
  unfold res_main_v210
  exact h9

/-- After rotation 8 (rows 1 and 2). -/
theorem mat_v238 (V0 : Valuation τ sig (Elt Ideal)) (b : Fin 4096) (r q : Fin 8) :
    res_main_v238 V0 (ix3 b r q) = mat (fun k => argA V0 (ix2 b k)) 8 r q := by
  have h1 := step_mat (argA V0) 7 (by decide) (res_main_v210 V0)
  have h2 := h1 (mat_v210 V0)
  have h3 := h2 (res_main_v213 V0) (res_main_v216 V0)
  have h4 := h3 (fun b => cos_col_apply _ 7 _ _ _ b) (fun b => sin_col_apply _ 7 _ _ _ b)
  have h5 := h4 1 2 (by decide) (by decide) (by decide) (by decide) (by decide)
  have h6 := h5 (res_main_v218 V0) (res_main_v220 V0)
  have h7 := h6 (fun b q => row_apply _ 1 _ _ _ b q) (fun b q => row_apply _ 2 _ _ _ b q)
  have h8 := h7 (broadcastInDim S1 ![] bcast_S_S1 (constantI S_ 32 1#32)) (broadcastInDim S1 ![] bcast_S_S1 (constantI S_ 32 2#32))
  have h9 := h8 (fun _ => rfl) (fun _ => rfl) b r q
  unfold res_main_v238
  exact h9

/-- After rotation 9 (rows 1 and 3). -/
theorem mat_v266 (V0 : Valuation τ sig (Elt Ideal)) (b : Fin 4096) (r q : Fin 8) :
    res_main_v266 V0 (ix3 b r q) = mat (fun k => argA V0 (ix2 b k)) 9 r q := by
  have h1 := step_mat (argA V0) 8 (by decide) (res_main_v238 V0)
  have h2 := h1 (mat_v238 V0)
  have h3 := h2 (res_main_v241 V0) (res_main_v244 V0)
  have h4 := h3 (fun b => cos_col_apply _ 8 _ _ _ b) (fun b => sin_col_apply _ 8 _ _ _ b)
  have h5 := h4 1 3 (by decide) (by decide) (by decide) (by decide) (by decide)
  have h6 := h5 (res_main_v246 V0) (res_main_v248 V0)
  have h7 := h6 (fun b q => row_apply _ 1 _ _ _ b q) (fun b q => row_apply _ 3 _ _ _ b q)
  have h8 := h7 (broadcastInDim S1 ![] bcast_S_S1 (constantI S_ 32 1#32)) (broadcastInDim S1 ![] bcast_S_S1 (constantI S_ 32 3#32))
  have h9 := h8 (fun _ => rfl) (fun _ => rfl) b r q
  unfold res_main_v266
  exact h9

/-- After rotation 10 (rows 1 and 4). -/
theorem mat_v294 (V0 : Valuation τ sig (Elt Ideal)) (b : Fin 4096) (r q : Fin 8) :
    res_main_v294 V0 (ix3 b r q) = mat (fun k => argA V0 (ix2 b k)) 10 r q := by
  have h1 := step_mat (argA V0) 9 (by decide) (res_main_v266 V0)
  have h2 := h1 (mat_v266 V0)
  have h3 := h2 (res_main_v269 V0) (res_main_v272 V0)
  have h4 := h3 (fun b => cos_col_apply _ 9 _ _ _ b) (fun b => sin_col_apply _ 9 _ _ _ b)
  have h5 := h4 1 4 (by decide) (by decide) (by decide) (by decide) (by decide)
  have h6 := h5 (res_main_v274 V0) (res_main_v276 V0)
  have h7 := h6 (fun b q => row_apply _ 1 _ _ _ b q) (fun b q => row_apply _ 4 _ _ _ b q)
  have h8 := h7 (broadcastInDim S1 ![] bcast_S_S1 (constantI S_ 32 1#32)) (broadcastInDim S1 ![] bcast_S_S1 (constantI S_ 32 4#32))
  have h9 := h8 (fun _ => rfl) (fun _ => rfl) b r q
  unfold res_main_v294
  exact h9

/-- After rotation 11 (rows 1 and 5). -/
theorem mat_v322 (V0 : Valuation τ sig (Elt Ideal)) (b : Fin 4096) (r q : Fin 8) :
    res_main_v322 V0 (ix3 b r q) = mat (fun k => argA V0 (ix2 b k)) 11 r q := by
  have h1 := step_mat (argA V0) 10 (by decide) (res_main_v294 V0)
  have h2 := h1 (mat_v294 V0)
  have h3 := h2 (res_main_v297 V0) (res_main_v300 V0)
  have h4 := h3 (fun b => cos_col_apply _ 10 _ _ _ b) (fun b => sin_col_apply _ 10 _ _ _ b)
  have h5 := h4 1 5 (by decide) (by decide) (by decide) (by decide) (by decide)
  have h6 := h5 (res_main_v302 V0) (res_main_v304 V0)
  have h7 := h6 (fun b q => row_apply _ 1 _ _ _ b q) (fun b q => row_apply _ 5 _ _ _ b q)
  have h8 := h7 (broadcastInDim S1 ![] bcast_S_S1 (constantI S_ 32 1#32)) (broadcastInDim S1 ![] bcast_S_S1 (constantI S_ 32 5#32))
  have h9 := h8 (fun _ => rfl) (fun _ => rfl) b r q
  unfold res_main_v322
  exact h9

/-- After rotation 12 (rows 1 and 6). -/
theorem mat_v350 (V0 : Valuation τ sig (Elt Ideal)) (b : Fin 4096) (r q : Fin 8) :
    res_main_v350 V0 (ix3 b r q) = mat (fun k => argA V0 (ix2 b k)) 12 r q := by
  have h1 := step_mat (argA V0) 11 (by decide) (res_main_v322 V0)
  have h2 := h1 (mat_v322 V0)
  have h3 := h2 (res_main_v325 V0) (res_main_v328 V0)
  have h4 := h3 (fun b => cos_col_apply _ 11 _ _ _ b) (fun b => sin_col_apply _ 11 _ _ _ b)
  have h5 := h4 1 6 (by decide) (by decide) (by decide) (by decide) (by decide)
  have h6 := h5 (res_main_v330 V0) (res_main_v332 V0)
  have h7 := h6 (fun b q => row_apply _ 1 _ _ _ b q) (fun b q => row_apply _ 6 _ _ _ b q)
  have h8 := h7 (broadcastInDim S1 ![] bcast_S_S1 (constantI S_ 32 1#32)) (broadcastInDim S1 ![] bcast_S_S1 (constantI S_ 32 6#32))
  have h9 := h8 (fun _ => rfl) (fun _ => rfl) b r q
  unfold res_main_v350
  exact h9

/-- After rotation 13 (rows 1 and 7). -/
theorem mat_v378 (V0 : Valuation τ sig (Elt Ideal)) (b : Fin 4096) (r q : Fin 8) :
    res_main_v378 V0 (ix3 b r q) = mat (fun k => argA V0 (ix2 b k)) 13 r q := by
  have h1 := step_mat (argA V0) 12 (by decide) (res_main_v350 V0)
  have h2 := h1 (mat_v350 V0)
  have h3 := h2 (res_main_v353 V0) (res_main_v356 V0)
  have h4 := h3 (fun b => cos_col_apply _ 12 _ _ _ b) (fun b => sin_col_apply _ 12 _ _ _ b)
  have h5 := h4 1 7 (by decide) (by decide) (by decide) (by decide) (by decide)
  have h6 := h5 (res_main_v358 V0) (res_main_v360 V0)
  have h7 := h6 (fun b q => row_apply _ 1 _ _ _ b q) (fun b q => row_apply _ 7 _ _ _ b q)
  have h8 := h7 (broadcastInDim S1 ![] bcast_S_S1 (constantI S_ 32 1#32)) (broadcastInDim S1 ![] bcast_S_S1 (constantI S_ 32 7#32))
  have h9 := h8 (fun _ => rfl) (fun _ => rfl) b r q
  unfold res_main_v378
  exact h9

/-- After rotation 14 (rows 2 and 3). -/
theorem mat_v406 (V0 : Valuation τ sig (Elt Ideal)) (b : Fin 4096) (r q : Fin 8) :
    res_main_v406 V0 (ix3 b r q) = mat (fun k => argA V0 (ix2 b k)) 14 r q := by
  have h1 := step_mat (argA V0) 13 (by decide) (res_main_v378 V0)
  have h2 := h1 (mat_v378 V0)
  have h3 := h2 (res_main_v381 V0) (res_main_v384 V0)
  have h4 := h3 (fun b => cos_col_apply _ 13 _ _ _ b) (fun b => sin_col_apply _ 13 _ _ _ b)
  have h5 := h4 2 3 (by decide) (by decide) (by decide) (by decide) (by decide)
  have h6 := h5 (res_main_v386 V0) (res_main_v388 V0)
  have h7 := h6 (fun b q => row_apply _ 2 _ _ _ b q) (fun b q => row_apply _ 3 _ _ _ b q)
  have h8 := h7 (broadcastInDim S1 ![] bcast_S_S1 (constantI S_ 32 2#32)) (broadcastInDim S1 ![] bcast_S_S1 (constantI S_ 32 3#32))
  have h9 := h8 (fun _ => rfl) (fun _ => rfl) b r q
  unfold res_main_v406
  exact h9

/-- After rotation 15 (rows 2 and 4). -/
theorem mat_v434 (V0 : Valuation τ sig (Elt Ideal)) (b : Fin 4096) (r q : Fin 8) :
    res_main_v434 V0 (ix3 b r q) = mat (fun k => argA V0 (ix2 b k)) 15 r q := by
  have h1 := step_mat (argA V0) 14 (by decide) (res_main_v406 V0)
  have h2 := h1 (mat_v406 V0)
  have h3 := h2 (res_main_v409 V0) (res_main_v412 V0)
  have h4 := h3 (fun b => cos_col_apply _ 14 _ _ _ b) (fun b => sin_col_apply _ 14 _ _ _ b)
  have h5 := h4 2 4 (by decide) (by decide) (by decide) (by decide) (by decide)
  have h6 := h5 (res_main_v414 V0) (res_main_v416 V0)
  have h7 := h6 (fun b q => row_apply _ 2 _ _ _ b q) (fun b q => row_apply _ 4 _ _ _ b q)
  have h8 := h7 (broadcastInDim S1 ![] bcast_S_S1 (constantI S_ 32 2#32)) (broadcastInDim S1 ![] bcast_S_S1 (constantI S_ 32 4#32))
  have h9 := h8 (fun _ => rfl) (fun _ => rfl) b r q
  unfold res_main_v434
  exact h9

/-- After rotation 16 (rows 2 and 5). -/
theorem mat_v462 (V0 : Valuation τ sig (Elt Ideal)) (b : Fin 4096) (r q : Fin 8) :
    res_main_v462 V0 (ix3 b r q) = mat (fun k => argA V0 (ix2 b k)) 16 r q := by
  have h1 := step_mat (argA V0) 15 (by decide) (res_main_v434 V0)
  have h2 := h1 (mat_v434 V0)
  have h3 := h2 (res_main_v437 V0) (res_main_v440 V0)
  have h4 := h3 (fun b => cos_col_apply _ 15 _ _ _ b) (fun b => sin_col_apply _ 15 _ _ _ b)
  have h5 := h4 2 5 (by decide) (by decide) (by decide) (by decide) (by decide)
  have h6 := h5 (res_main_v442 V0) (res_main_v444 V0)
  have h7 := h6 (fun b q => row_apply _ 2 _ _ _ b q) (fun b q => row_apply _ 5 _ _ _ b q)
  have h8 := h7 (broadcastInDim S1 ![] bcast_S_S1 (constantI S_ 32 2#32)) (broadcastInDim S1 ![] bcast_S_S1 (constantI S_ 32 5#32))
  have h9 := h8 (fun _ => rfl) (fun _ => rfl) b r q
  unfold res_main_v462
  exact h9

/-- After rotation 17 (rows 2 and 6). -/
theorem mat_v490 (V0 : Valuation τ sig (Elt Ideal)) (b : Fin 4096) (r q : Fin 8) :
    res_main_v490 V0 (ix3 b r q) = mat (fun k => argA V0 (ix2 b k)) 17 r q := by
  have h1 := step_mat (argA V0) 16 (by decide) (res_main_v462 V0)
  have h2 := h1 (mat_v462 V0)
  have h3 := h2 (res_main_v465 V0) (res_main_v468 V0)
  have h4 := h3 (fun b => cos_col_apply _ 16 _ _ _ b) (fun b => sin_col_apply _ 16 _ _ _ b)
  have h5 := h4 2 6 (by decide) (by decide) (by decide) (by decide) (by decide)
  have h6 := h5 (res_main_v470 V0) (res_main_v472 V0)
  have h7 := h6 (fun b q => row_apply _ 2 _ _ _ b q) (fun b q => row_apply _ 6 _ _ _ b q)
  have h8 := h7 (broadcastInDim S1 ![] bcast_S_S1 (constantI S_ 32 2#32)) (broadcastInDim S1 ![] bcast_S_S1 (constantI S_ 32 6#32))
  have h9 := h8 (fun _ => rfl) (fun _ => rfl) b r q
  unfold res_main_v490
  exact h9

/-- After rotation 18 (rows 2 and 7). -/
theorem mat_v518 (V0 : Valuation τ sig (Elt Ideal)) (b : Fin 4096) (r q : Fin 8) :
    res_main_v518 V0 (ix3 b r q) = mat (fun k => argA V0 (ix2 b k)) 18 r q := by
  have h1 := step_mat (argA V0) 17 (by decide) (res_main_v490 V0)
  have h2 := h1 (mat_v490 V0)
  have h3 := h2 (res_main_v493 V0) (res_main_v496 V0)
  have h4 := h3 (fun b => cos_col_apply _ 17 _ _ _ b) (fun b => sin_col_apply _ 17 _ _ _ b)
  have h5 := h4 2 7 (by decide) (by decide) (by decide) (by decide) (by decide)
  have h6 := h5 (res_main_v498 V0) (res_main_v500 V0)
  have h7 := h6 (fun b q => row_apply _ 2 _ _ _ b q) (fun b q => row_apply _ 7 _ _ _ b q)
  have h8 := h7 (broadcastInDim S1 ![] bcast_S_S1 (constantI S_ 32 2#32)) (broadcastInDim S1 ![] bcast_S_S1 (constantI S_ 32 7#32))
  have h9 := h8 (fun _ => rfl) (fun _ => rfl) b r q
  unfold res_main_v518
  exact h9

/-- After rotation 19 (rows 3 and 4). -/
theorem mat_v546 (V0 : Valuation τ sig (Elt Ideal)) (b : Fin 4096) (r q : Fin 8) :
    res_main_v546 V0 (ix3 b r q) = mat (fun k => argA V0 (ix2 b k)) 19 r q := by
  have h1 := step_mat (argA V0) 18 (by decide) (res_main_v518 V0)
  have h2 := h1 (mat_v518 V0)
  have h3 := h2 (res_main_v521 V0) (res_main_v524 V0)
  have h4 := h3 (fun b => cos_col_apply _ 18 _ _ _ b) (fun b => sin_col_apply _ 18 _ _ _ b)
  have h5 := h4 3 4 (by decide) (by decide) (by decide) (by decide) (by decide)
  have h6 := h5 (res_main_v526 V0) (res_main_v528 V0)
  have h7 := h6 (fun b q => row_apply _ 3 _ _ _ b q) (fun b q => row_apply _ 4 _ _ _ b q)
  have h8 := h7 (broadcastInDim S1 ![] bcast_S_S1 (constantI S_ 32 3#32)) (broadcastInDim S1 ![] bcast_S_S1 (constantI S_ 32 4#32))
  have h9 := h8 (fun _ => rfl) (fun _ => rfl) b r q
  unfold res_main_v546
  exact h9

/-- After rotation 20 (rows 3 and 5). -/
theorem mat_v574 (V0 : Valuation τ sig (Elt Ideal)) (b : Fin 4096) (r q : Fin 8) :
    res_main_v574 V0 (ix3 b r q) = mat (fun k => argA V0 (ix2 b k)) 20 r q := by
  have h1 := step_mat (argA V0) 19 (by decide) (res_main_v546 V0)
  have h2 := h1 (mat_v546 V0)
  have h3 := h2 (res_main_v549 V0) (res_main_v552 V0)
  have h4 := h3 (fun b => cos_col_apply _ 19 _ _ _ b) (fun b => sin_col_apply _ 19 _ _ _ b)
  have h5 := h4 3 5 (by decide) (by decide) (by decide) (by decide) (by decide)
  have h6 := h5 (res_main_v554 V0) (res_main_v556 V0)
  have h7 := h6 (fun b q => row_apply _ 3 _ _ _ b q) (fun b q => row_apply _ 5 _ _ _ b q)
  have h8 := h7 (broadcastInDim S1 ![] bcast_S_S1 (constantI S_ 32 3#32)) (broadcastInDim S1 ![] bcast_S_S1 (constantI S_ 32 5#32))
  have h9 := h8 (fun _ => rfl) (fun _ => rfl) b r q
  unfold res_main_v574
  exact h9

/-- After rotation 21 (rows 3 and 6). -/
theorem mat_v602 (V0 : Valuation τ sig (Elt Ideal)) (b : Fin 4096) (r q : Fin 8) :
    res_main_v602 V0 (ix3 b r q) = mat (fun k => argA V0 (ix2 b k)) 21 r q := by
  have h1 := step_mat (argA V0) 20 (by decide) (res_main_v574 V0)
  have h2 := h1 (mat_v574 V0)
  have h3 := h2 (res_main_v577 V0) (res_main_v580 V0)
  have h4 := h3 (fun b => cos_col_apply _ 20 _ _ _ b) (fun b => sin_col_apply _ 20 _ _ _ b)
  have h5 := h4 3 6 (by decide) (by decide) (by decide) (by decide) (by decide)
  have h6 := h5 (res_main_v582 V0) (res_main_v584 V0)
  have h7 := h6 (fun b q => row_apply _ 3 _ _ _ b q) (fun b q => row_apply _ 6 _ _ _ b q)
  have h8 := h7 (broadcastInDim S1 ![] bcast_S_S1 (constantI S_ 32 3#32)) (broadcastInDim S1 ![] bcast_S_S1 (constantI S_ 32 6#32))
  have h9 := h8 (fun _ => rfl) (fun _ => rfl) b r q
  unfold res_main_v602
  exact h9

/-- After rotation 22 (rows 3 and 7). -/
theorem mat_v630 (V0 : Valuation τ sig (Elt Ideal)) (b : Fin 4096) (r q : Fin 8) :
    res_main_v630 V0 (ix3 b r q) = mat (fun k => argA V0 (ix2 b k)) 22 r q := by
  have h1 := step_mat (argA V0) 21 (by decide) (res_main_v602 V0)
  have h2 := h1 (mat_v602 V0)
  have h3 := h2 (res_main_v605 V0) (res_main_v608 V0)
  have h4 := h3 (fun b => cos_col_apply _ 21 _ _ _ b) (fun b => sin_col_apply _ 21 _ _ _ b)
  have h5 := h4 3 7 (by decide) (by decide) (by decide) (by decide) (by decide)
  have h6 := h5 (res_main_v610 V0) (res_main_v612 V0)
  have h7 := h6 (fun b q => row_apply _ 3 _ _ _ b q) (fun b q => row_apply _ 7 _ _ _ b q)
  have h8 := h7 (broadcastInDim S1 ![] bcast_S_S1 (constantI S_ 32 3#32)) (broadcastInDim S1 ![] bcast_S_S1 (constantI S_ 32 7#32))
  have h9 := h8 (fun _ => rfl) (fun _ => rfl) b r q
  unfold res_main_v630
  exact h9

/-- After rotation 23 (rows 4 and 5). -/
theorem mat_v658 (V0 : Valuation τ sig (Elt Ideal)) (b : Fin 4096) (r q : Fin 8) :
    res_main_v658 V0 (ix3 b r q) = mat (fun k => argA V0 (ix2 b k)) 23 r q := by
  have h1 := step_mat (argA V0) 22 (by decide) (res_main_v630 V0)
  have h2 := h1 (mat_v630 V0)
  have h3 := h2 (res_main_v633 V0) (res_main_v636 V0)
  have h4 := h3 (fun b => cos_col_apply _ 22 _ _ _ b) (fun b => sin_col_apply _ 22 _ _ _ b)
  have h5 := h4 4 5 (by decide) (by decide) (by decide) (by decide) (by decide)
  have h6 := h5 (res_main_v638 V0) (res_main_v640 V0)
  have h7 := h6 (fun b q => row_apply _ 4 _ _ _ b q) (fun b q => row_apply _ 5 _ _ _ b q)
  have h8 := h7 (broadcastInDim S1 ![] bcast_S_S1 (constantI S_ 32 4#32)) (broadcastInDim S1 ![] bcast_S_S1 (constantI S_ 32 5#32))
  have h9 := h8 (fun _ => rfl) (fun _ => rfl) b r q
  unfold res_main_v658
  exact h9

/-- After rotation 24 (rows 4 and 6). -/
theorem mat_v686 (V0 : Valuation τ sig (Elt Ideal)) (b : Fin 4096) (r q : Fin 8) :
    res_main_v686 V0 (ix3 b r q) = mat (fun k => argA V0 (ix2 b k)) 24 r q := by
  have h1 := step_mat (argA V0) 23 (by decide) (res_main_v658 V0)
  have h2 := h1 (mat_v658 V0)
  have h3 := h2 (res_main_v661 V0) (res_main_v664 V0)
  have h4 := h3 (fun b => cos_col_apply _ 23 _ _ _ b) (fun b => sin_col_apply _ 23 _ _ _ b)
  have h5 := h4 4 6 (by decide) (by decide) (by decide) (by decide) (by decide)
  have h6 := h5 (res_main_v666 V0) (res_main_v668 V0)
  have h7 := h6 (fun b q => row_apply _ 4 _ _ _ b q) (fun b q => row_apply _ 6 _ _ _ b q)
  have h8 := h7 (broadcastInDim S1 ![] bcast_S_S1 (constantI S_ 32 4#32)) (broadcastInDim S1 ![] bcast_S_S1 (constantI S_ 32 6#32))
  have h9 := h8 (fun _ => rfl) (fun _ => rfl) b r q
  unfold res_main_v686
  exact h9

/-- After rotation 25 (rows 4 and 7). -/
theorem mat_v714 (V0 : Valuation τ sig (Elt Ideal)) (b : Fin 4096) (r q : Fin 8) :
    res_main_v714 V0 (ix3 b r q) = mat (fun k => argA V0 (ix2 b k)) 25 r q := by
  have h1 := step_mat (argA V0) 24 (by decide) (res_main_v686 V0)
  have h2 := h1 (mat_v686 V0)
  have h3 := h2 (res_main_v689 V0) (res_main_v692 V0)
  have h4 := h3 (fun b => cos_col_apply _ 24 _ _ _ b) (fun b => sin_col_apply _ 24 _ _ _ b)
  have h5 := h4 4 7 (by decide) (by decide) (by decide) (by decide) (by decide)
  have h6 := h5 (res_main_v694 V0) (res_main_v696 V0)
  have h7 := h6 (fun b q => row_apply _ 4 _ _ _ b q) (fun b q => row_apply _ 7 _ _ _ b q)
  have h8 := h7 (broadcastInDim S1 ![] bcast_S_S1 (constantI S_ 32 4#32)) (broadcastInDim S1 ![] bcast_S_S1 (constantI S_ 32 7#32))
  have h9 := h8 (fun _ => rfl) (fun _ => rfl) b r q
  unfold res_main_v714
  exact h9

/-- After rotation 26 (rows 5 and 6). -/
theorem mat_v742 (V0 : Valuation τ sig (Elt Ideal)) (b : Fin 4096) (r q : Fin 8) :
    res_main_v742 V0 (ix3 b r q) = mat (fun k => argA V0 (ix2 b k)) 26 r q := by
  have h1 := step_mat (argA V0) 25 (by decide) (res_main_v714 V0)
  have h2 := h1 (mat_v714 V0)
  have h3 := h2 (res_main_v717 V0) (res_main_v720 V0)
  have h4 := h3 (fun b => cos_col_apply _ 25 _ _ _ b) (fun b => sin_col_apply _ 25 _ _ _ b)
  have h5 := h4 5 6 (by decide) (by decide) (by decide) (by decide) (by decide)
  have h6 := h5 (res_main_v722 V0) (res_main_v724 V0)
  have h7 := h6 (fun b q => row_apply _ 5 _ _ _ b q) (fun b q => row_apply _ 6 _ _ _ b q)
  have h8 := h7 (broadcastInDim S1 ![] bcast_S_S1 (constantI S_ 32 5#32)) (broadcastInDim S1 ![] bcast_S_S1 (constantI S_ 32 6#32))
  have h9 := h8 (fun _ => rfl) (fun _ => rfl) b r q
  unfold res_main_v742
  exact h9

/-- After rotation 27 (rows 5 and 7). -/
theorem mat_v770 (V0 : Valuation τ sig (Elt Ideal)) (b : Fin 4096) (r q : Fin 8) :
    res_main_v770 V0 (ix3 b r q) = mat (fun k => argA V0 (ix2 b k)) 27 r q := by
  have h1 := step_mat (argA V0) 26 (by decide) (res_main_v742 V0)
  have h2 := h1 (mat_v742 V0)
  have h3 := h2 (res_main_v745 V0) (res_main_v748 V0)
  have h4 := h3 (fun b => cos_col_apply _ 26 _ _ _ b) (fun b => sin_col_apply _ 26 _ _ _ b)
  have h5 := h4 5 7 (by decide) (by decide) (by decide) (by decide) (by decide)
  have h6 := h5 (res_main_v750 V0) (res_main_v752 V0)
  have h7 := h6 (fun b q => row_apply _ 5 _ _ _ b q) (fun b q => row_apply _ 7 _ _ _ b q)
  have h8 := h7 (broadcastInDim S1 ![] bcast_S_S1 (constantI S_ 32 5#32)) (broadcastInDim S1 ![] bcast_S_S1 (constantI S_ 32 7#32))
  have h9 := h8 (fun _ => rfl) (fun _ => rfl) b r q
  unfold res_main_v770
  exact h9

/-- The matrix after the last rotation, as the reference's final operation reads it (it is used once, so the run
    does not name it). -/
def lastMat (V0 : Valuation τ sig (Elt Ideal)) : S4096x8x8.Idx → EReal :=
  (Host.scatter scatter_S4096x8x8_S1_S4096x8_01_1_1_0 (fun _ b => b) (Host.scatter scatter_S4096x8x8_S1_S4096x8_01_1_1_0 (fun _ b => b) (res_main_v770 V0) (broadcastInDim S1 ![] bcast_S_S1 (constantI S_ 32 6#32)) (subf (mulf (broadcastInDim S4096x8 ![0, 1] bcast_S4096x1_S4096x8_0_1 (broadcastInDim S4096x1 ![0] bcast_S4096_S4096x1_0 (res_main_v773 V0))) (res_main_v778 V0)) (mulf (broadcastInDim S4096x8 ![0, 1] bcast_S4096x1_S4096x8_0_1 (broadcastInDim S4096x1 ![0] bcast_S4096_S4096x1_0 (res_main_v776 V0))) (res_main_v780 V0)))) (broadcastInDim S1 ![] bcast_S_S1 (constantI S_ 32 7#32)) (addf (mulf (broadcastInDim S4096x8 ![0, 1] bcast_S4096x1_S4096x8_0_1 (broadcastInDim S4096x1 ![0] bcast_S4096_S4096x1_0 (res_main_v776 V0))) (res_main_v778 V0)) (mulf (broadcastInDim S4096x8 ![0, 1] bcast_S4096x1_S4096x8_0_1 (broadcastInDim S4096x1 ![0] bcast_S4096_S4096x1_0 (res_main_v773 V0))) (res_main_v780 V0))))

/-- After rotation 28 (rows 6 and 7). -/
theorem mat_last (V0 : Valuation τ sig (Elt Ideal)) (b : Fin 4096) (r q : Fin 8) :
    lastMat V0 (ix3 b r q) = mat (fun k => argA V0 (ix2 b k)) 28 r q := by
  have h1 := step_mat (argA V0) 27 (by decide) (res_main_v770 V0)
  have h2 := h1 (mat_v770 V0)
  have h3 := h2 (res_main_v773 V0) (res_main_v776 V0)
  have h4 := h3 (fun b => cos_col_apply _ 27 _ _ _ b) (fun b => sin_col_apply _ 27 _ _ _ b)
  have h5 := h4 6 7 (by decide) (by decide) (by decide) (by decide) (by decide)
  have h6 := h5 (res_main_v778 V0) (res_main_v780 V0)
  have h7 := h6 (fun b q => row_apply _ 6 _ _ _ b q) (fun b q => row_apply _ 7 _ _ _ b q)
  have h8 := h7 (broadcastInDim S1 ![] bcast_S_S1 (constantI S_ 32 6#32)) (broadcastInDim S1 ![] bcast_S_S1 (constantI S_ 32 7#32))
  have h9 := h8 (fun _ => rfl) (fun _ => rfl) b r q
  unfold lastMat
  exact h9

end Cert.ReferenceIdeal.RefValue

end
-- ==== Proof.RefValue.lean ====
/-
  The reference's result as the mathematics states it.

  The run of the reference ends with the batched product of the scaled rotation matrix and the data. Read at an index:
  the product is the sum over the eight columns, the scaling multiplies row `r` of block `b` by that block's factor for
  row `r`, and the matrix is the one after all 28 rotations. The factor is moved to the right of the matrix entry by
  commutativity of the product, which is the form the statement of the result uses.
-/
import proofs.«129155_j44933947851298_2_alg».proof.Proof.RefChain

noncomputable section

open scoped BigOperators

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Givens

set_option maxRecDepth 8192 in
/-- The reference's result: the product of all 28 rotations, its rows scaled, applied to each block's data. -/
theorem result_eq (V0 : Valuation τ sig (Elt Ideal)) :
    val15 V0 (no_index (Proc.devRef .tc main_v802))
      = Cert.Givens.G (V0 (Proc.devRef .tc main_arg0)) (V0 (Proc.devRef .tc main_arg1)) (V0 (Proc.devRef .tc main_arg2)) := by
  refine (val15_main_v802 V0).trans (funext fun (i : S4096x8x1024.Idx) => ?_)
  obtain ⟨b, r, l, rfl⟩ : ∃ (b : Fin 4096) (r : Fin 8) (l : Fin 1024), i = ix3 b r l := ⟨i 0, i 1, i 2, eq_ix3 i⟩
  refine (dot_apply _ _ b r l).trans ?_
  show ∑ j : Fin 8, _ = ∑ j : Fin 8, (mat (fun k => argA V0 (ix2 b k)) 28 r j
      * (V0 (Proc.devRef .tc main_arg2) : S4096x8.Idx → EReal) (ix2 b r))
      * (V0 (Proc.devRef .tc main_arg0) : S4096x8x1024.Idx → EReal) (ix3 b j l)
  refine Finset.sum_congr rfl fun j _ => ?_
  have hscale := musScale_apply (V0 (Proc.devRef .tc main_arg2) : S4096x8.Idx → EReal) (lastMat V0) b r j
  rw [mat_last V0 b r j, mul_comm] at hscale
  exact congrArg (fun z : EReal => z * (V0 (Proc.devRef .tc main_arg0) : S4096x8x1024.Idx → EReal) (ix3 b j l)) hscale

end Cert.ReferenceIdeal.RefValue

end
-- ==== Proof.lean ====
/-
  The kernel and its reference compute, for each of the 4096 blocks b, the product of an 8×8 matrix with the block's
  8×1024 data. The matrix is built from the block's 28 angles by 28 plane (Givens) rotations applied in the fixed
  order of the pairs i < j to the identity — rotation n replaces rows i, j by cos·row_i − sin·row_j and
  sin·row_i + cos·row_j — and its rows are then scaled by the block's 8 scale factors. Spec states this once over the
  extended reals: `Cert.Givens.G X A Mu (b, r, l) = Σ_j (mat (A b) 28 r j · Mu b r) · X b j l`.

  The kernel keeps the eight rows of 128 blocks' matrices as eight 128×8 vectors and rotates them in registers; its body
  is read as straight-line code (KProg), each row after each rotation is the specification's row at every index (KSem),
  a grid point's output block is the specification's block (KBlock), and the 32 blocks tile the result array (KArray).
  The reference keeps all 4096 matrices as one 4096×8×8 array and writes the two rotated rows back by two row scatters
  per rotation; a row scatter read at an index overwrites exactly that row (RefScatter), one rotation carries the matrix
  after n steps to the matrix after n + 1 (RefSteps), and the final scaling and the contraction over the middle axis give
  the same sum (RefDot, RefValue). The two sides differ only in the order of the factors of one product — the kernel
  scales row · mu, the reference mu · row — so no finiteness of the inputs is used.
-/
import proofs.«129155_j44933947851298_2_alg».proof.Defs
import proofs.«129155_j44933947851298_2_alg».proof.Proof.Gen.Kernel
import proofs.«129155_j44933947851298_2_alg».proof.Proof.Gen.Kernel.Skeleton
import proofs.«129155_j44933947851298_2_alg».proof.Proof.Gen.Kernel.Launch
import proofs.«129155_j44933947851298_2_alg».proof.Proof.Gen.Kernel.Points
import proofs.«129155_j44933947851298_2_alg».proof.Proof.Gen.Kernel.Frame
import proofs.«129155_j44933947851298_2_alg».proof.Proof.Gen.KernelIdeal
import proofs.«129155_j44933947851298_2_alg».proof.Proof.Gen.KernelIdeal.Skeleton
import proofs.«129155_j44933947851298_2_alg».proof.Proof.Gen.KernelIdeal.Launch
import proofs.«129155_j44933947851298_2_alg».proof.Proof.Gen.KernelIdeal.Points
import proofs.«129155_j44933947851298_2_alg».proof.Proof.Gen.KernelIdeal.Frame
import proofs.«129155_j44933947851298_2_alg».proof.Proof.Gen.ReferenceIdeal
import proofs.«129155_j44933947851298_2_alg».proof.Proof.Gen.Pre_finite_inputs
import proofs.«129155_j44933947851298_2_alg».proof.Proof.Gen.ReferenceIdeal.Run
import proofs.«129155_j44933947851298_2_alg».proof.Proof.Spec
import proofs.«129155_j44933947851298_2_alg».proof.Proof.KArray
import proofs.«129155_j44933947851298_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

section
variable [hKernel : Cert.Kernel.Facts] [hKernelIdeal : Cert.KernelIdeal.Facts] [hReferenceIdeal : Cert.ReferenceIdeal.Facts]
  [hPre : Cert.Pre_finite_inputs.Facts]

/-- The three programs run to the end, fault-free, with their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end with the specification's function of arguments that agree. -/
theorem algebraic : Cert.algebraic_KernelIdeal_ReferenceIdeal := by
  intro m ρ m' ρ' _ hagree
  refine ⟨fun c => Cert.Givens.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val15_main_v802 (launchContents m' c)).symm.trans
    (Cert.ReferenceIdeal.RefValue.result_eq (launchContents m' c))).trans ?_
  show Cert.Givens.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2]

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
